-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v32_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v32_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x2 : Shape := ⟨2, ![262144, 2]⟩
abbrev S262144x128 : Shape := ⟨2, ![262144, 128]⟩
abbrev S512x2 : Shape := ⟨2, ![512, 2]⟩
abbrev S512x128 : Shape := ⟨2, ![512, 128]⟩
abbrev S512 : Shape := ⟨1, ![512]⟩
abbrev S_ : Shape := ⟨0, ![]⟩

class Facts : Prop where
  bcast_S_S262144x2 : S_.BroadcastsInDim S262144x2 (![] : Fin 0 → Fin S262144x2.rank)
  reducesTo_S262144x2_S_d0_1 : S262144x2.ReducesTo [0, 1] S_
  h_S_ : 0 < S_.numel
  bcast_S_S262144x128 : S_.BroadcastsInDim S262144x128 (![] : Fin 0 → Fin S262144x128.rank)
  reducesTo_S262144x128_S_d0_1 : S262144x128.ReducesTo [0, 1] S_
  bcast_S_S512x2 : S_.BroadcastsInDim S512x2 (![] : Fin 0 → Fin S512x2.rank)
  reducesTo_S512x2_S_d0_1 : S512x2.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x128 .f32) (main_arg5 : FVec F S512 .f32) (main_arg6 : FVec F S512 .f32) (main_v13 : IVec S_ 1) (main_v16 : IVec S512x2 1) : IVec S_ 1 :=
  let main_c_5 : IVec S_ 1 := constantI S_ 1 1#1
  let main_v17 : IVec S_ 1 := (fun x v => Host.reduce IntOp.andi x v reducesTo_S512x2_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S262144x2 .f32) (main_arg1 : FVec F S262144x128 .f32) (main_arg2 : FVec F S262144x128 .f32) (main_arg3 : FVec F S512x2 .f32) (main_arg4 : FVec F S512x128 .f32) (main_arg5 : FVec F S512 .f32) (main_arg6 : FVec F S512 .f32) : IVec S_ 1 :=
  let main_v0 : FVec F S262144x2 .f32 := Host.absf main_arg0
  let main_cst : FVec F S_ .f32 := constant S_ .f32 0x7F800000#32
  let main_v1 : FVec F S262144x2 .f32 := broadcastInDim S262144x2 ![] bcast_S_S262144x2 main_cst
  let main_v2 : IVec S262144x2 1 := cmpf .olt main_v0 main_v1
  let main_c : IVec S_ 1 := constantI S_ 1 1#1
  let main_v3 : IVec S_ 1 := (fun x v => Host.reduce IntOp.andi x v reducesTo_S262144x2_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S512x2 .f32 := Host.absf main_arg3
  let main_cst_4 : FVec F S_ .f32 := constant S_ .f32 0x7F800000#32
  let main_v15 : FVec F S512x2 .f32 := broadcastInDim S512x2 ![] bcast_S_S512x2 main_cst_4
  let main_v16 : IVec S512x2 1 := cmpf .olt main_v14 main_v15
  fn_part1 (F := F) main_arg4 main_arg5 main_arg6 main_v13 main_v16
-- ==== Kernel.lean ====
abbrev S262144x2 : Shape := ⟨2, ![262144, 2]⟩
abbrev S262144x128 : Shape := ⟨2, ![262144, 128]⟩
abbrev S512x2 : Shape := ⟨2, ![512, 2]⟩
abbrev S512x128 : Shape := ⟨2, ![512, 128]⟩
abbrev S512 : Shape := ⟨1, ![512]⟩
abbrev S262144x1 : Shape := ⟨2, ![262144, 1]⟩
abbrev S262144 : Shape := ⟨1, ![262144]⟩
abbrev S_ : Shape := ⟨0, ![]⟩
abbrev S2x512 : Shape := ⟨2, ![2, 512]⟩
abbrev S128x512 : Shape := ⟨2, ![128, 512]⟩
abbrev S2x256x128 : Shape := ⟨3, ![2, 256, 128]⟩
abbrev S2048x2 : Shape := ⟨2, ![2048, 2]⟩
abbrev S2048x128 : Shape := ⟨2, ![2048, 128]⟩
abbrev S2048 : Shape := ⟨1, ![2048]⟩
abbrev S1x256x128 : Shape := ⟨3, ![1, 256, 128]⟩
abbrev S256x128 : Shape := ⟨2, ![256, 128]⟩
abbrev S2048x512 : Shape := ⟨2, ![2048, 512]⟩
abbrev S1x512 : Shape := ⟨2, ![1, 512]⟩
abbrev S2048x256 : Shape := ⟨2, ![2048, 256]⟩
abbrev S2048x1 : Shape := ⟨2, ![2048, 1]⟩
abbrev S4096 : Shape := ⟨1, ![4096]⟩
abbrev S4096x128 : Shape := ⟨2, ![4096, 128]⟩
abbrev S4096x256 : Shape := ⟨2, ![4096, 256]⟩
abbrev S4096x1 : Shape := ⟨2, ![4096, 1]⟩

abbrev nBuf : Space → Nat
  | .hbm => 82
  | .vmem => 21
  | .smem => 0
  | _ => 0

abbrev bufTy : (tb : Table) → Fin (tcTables nBuf tb) → BufTy
  | .hbm, ⟨0, _⟩ => ⟨S262144x2, .f32⟩
  | .hbm, ⟨1, _⟩ => ⟨S262144x128, .f32⟩
  | .hbm, ⟨2, _⟩ => ⟨S262144x128, .f32⟩
  | .hbm, ⟨3, _⟩ => ⟨S512x2, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S262144x1, .f32⟩
  | .hbm, ⟨8, _⟩ => ⟨S262144, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S262144, .f32⟩
  | .hbm, ⟨13, _⟩ => ⟨S262144, .f32⟩
  | .hbm, ⟨14, _⟩ => ⟨S_, .f32⟩
  | .hbm, ⟨15, _⟩ => ⟨S262144, .f32⟩
  | .hbm, ⟨16, _⟩ => ⟨S262144, .f32⟩
  | .hbm, ⟨17, _⟩ => ⟨S262144x1, .f32⟩
  | .hbm, ⟨18, _⟩ => ⟨S262144, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S262144, .f32⟩
  | .hbm, ⟨23, _⟩ => ⟨S262144, .f32⟩
  | .hbm, ⟨24, _⟩ => ⟨S_, .f32⟩
  | .hbm, ⟨25, _⟩ => ⟨S262144, .f32⟩
  | .hbm, ⟨26, _⟩ => ⟨S262144, .f32⟩
  | .hbm, ⟨27, _⟩ => ⟨S_, .f32⟩
  | .hbm, ⟨28, _⟩ => ⟨S262144, .f32⟩
  | .hbm, ⟨29, _⟩ => ⟨S262144, .f32⟩
  | .hbm, ⟨30, _⟩ => ⟨S_, .f32⟩
  | .hbm, ⟨31, _⟩ => ⟨S262144, .f32⟩
  | .hbm, ⟨32, _⟩ => ⟨S262144, .f32⟩
  | .hbm, ⟨33, _⟩ => ⟨S_, .f32⟩
  | .hbm, ⟨34, _⟩ => ⟨S262144, .f32⟩
  | .hbm, ⟨35, _⟩ => ⟨S262144, .f32⟩
  | .hbm, ⟨36, _⟩ => ⟨S262144, .f32⟩
  | .hbm, ⟨37, _⟩ => ⟨S262144, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S262144, .i32⟩
  | .hbm, ⟨42, _⟩ => ⟨S262144, .i32⟩
  | .hbm, ⟨43, _⟩ => ⟨S_, .i32⟩
  | .hbm, ⟨44, _⟩ => ⟨S262144, .i32⟩
  | .hbm, ⟨45, _⟩ => ⟨S262144, .i32⟩
  | .hbm, ⟨46, _⟩ => ⟨S_, .f32⟩
  | .hbm, ⟨47, _⟩ => ⟨S262144, .f32⟩
  | .hbm, ⟨48, _⟩ => ⟨S262144, .f32⟩
  | .hbm, ⟨49, _⟩ => ⟨S_, .f32⟩
  | .hbm, ⟨50, _⟩ => ⟨S262144, .f32⟩
  | .hbm, ⟨51, _⟩ => ⟨S262144, .f32⟩
  | .hbm, ⟨52, _⟩ => ⟨S_, .f32⟩
  | .hbm, ⟨53, _⟩ => ⟨S262144, .f32⟩
  | .hbm, ⟨54, _⟩ => ⟨S262144, .f32⟩
  | .hbm, ⟨55, _⟩ => ⟨S262144, .f32⟩
  | .hbm, ⟨56, _⟩ => ⟨S262144, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S262144, .i32⟩
  | .hbm, ⟨61, _⟩ => ⟨S262144, .i32⟩
  | .hbm, ⟨62, _⟩ => ⟨S_, .i32⟩
  | .hbm, ⟨63, _⟩ => ⟨S262144, .i32⟩
  | .hbm, ⟨64, _⟩ => ⟨S262144, .i32⟩
  | .hbm, ⟨65, _⟩ => ⟨S_, .i32⟩
  | .hbm, ⟨66, _⟩ => ⟨S262144, .i32⟩
  | .hbm, ⟨67, _⟩ => ⟨S262144, .i32⟩
  | .hbm, ⟨68, _⟩ => ⟨S262144, .i32⟩
  | .hbm, ⟨69, _⟩ => ⟨S2x512, .f32⟩
  | .hbm, ⟨70, _⟩ => ⟨S2x512, .bf16⟩
  | .hbm, ⟨71, _⟩ => ⟨S128x512, .f32⟩
  | .hbm, ⟨72, _⟩ => ⟨S128x512, .bf16⟩
  | .hbm, ⟨73, _⟩ => ⟨S512, .f32⟩
  | .hbm, ⟨74, _⟩ => ⟨S262144x128, .f32⟩
  | .hbm, ⟨75, _⟩ => ⟨S2x256x128, .f32⟩
  | .hbm, ⟨76, _⟩ => ⟨S1x256x128, .f32⟩
  | .hbm, ⟨77, _⟩ => ⟨S256x128, .f32⟩
  | .hbm, ⟨78, _⟩ => ⟨S1x256x128, .f32⟩
  | .hbm, ⟨79, _⟩ => ⟨S256x128, .f32⟩
  | .hbm, ⟨80, _⟩ => ⟨S256x128, .f32⟩
  | .hbm, ⟨81, _⟩ => ⟨S262144x128, .f32⟩
  | .local _ .vmem, ⟨0, _⟩ => ⟨S2048x2, .f32⟩
  | .local _ .vmem, ⟨1, _⟩ => ⟨S2048x2, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048, .i32⟩
  | .local _ .vmem, ⟨7, _⟩ => ⟨S2048, .i32⟩
  | .local _ .vmem, ⟨8, _⟩ => ⟨S2x512, .bf16⟩
  | .local _ .vmem, ⟨9, _⟩ => ⟨S128x512, .bf16⟩
  | .local _ .vmem, ⟨10, _⟩ => ⟨S512, .f32⟩
  | .local _ .vmem, ⟨11, _⟩ => ⟨S2048x128, .f32⟩
  | .local _ .vmem, ⟨12, _⟩ => ⟨S2048x128, .f32⟩
  | .local _ .vmem, ⟨13, _⟩ => ⟨S1x256x128, .f32⟩
  | .local _ .vmem, ⟨14, _⟩ => ⟨S1x256x128, .f32⟩
  | .local _ .vmem, ⟨15, _⟩ => ⟨S256x128, .f32⟩
  | .local _ .vmem, ⟨16, _⟩ => ⟨S4096, .i32⟩
  | .local _ .vmem, ⟨17, _⟩ => ⟨S4096, .i32⟩
  | .local _ .vmem, ⟨18, _⟩ => ⟨S256x128, .f32⟩
  | .local _ .vmem, ⟨19, _⟩ => ⟨S4096x128, .f32⟩
  | .local _ .vmem, ⟨20, _⟩ => ⟨S4096x128, .f32⟩
  | _, _ => ⟨S262144x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v5 : Ref sig .tc := ⟨.hbm, 26, rfl⟩
abbrev main_cst_3 : Ref sig .tc := ⟨.hbm, 27, rfl⟩
abbrev main_v6 : Ref sig .tc := ⟨.hbm, 28, rfl⟩
abbrev main_v7 : Ref sig .tc := ⟨.hbm, 29, rfl⟩
abbrev main_cst_4 : Ref sig .tc := ⟨.hbm, 30, rfl⟩
abbrev main_v8 : Ref sig .tc := ⟨.hbm, 31, rfl⟩
abbrev main_v9 : Ref sig .tc := ⟨.hbm, 32, rfl⟩
abbrev main_cst_5 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c : Ref sig .tc := ⟨.hbm, 38, rfl⟩
abbrev main_c_6 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v14 : Ref sig .tc := ⟨.hbm, 45, rfl⟩
abbrev main_cst_7 : Ref sig .tc := ⟨.hbm, 46, rfl⟩
abbrev main_v15 : Ref sig .tc := ⟨.hbm, 47, rfl⟩
abbrev main_v16 : Ref sig .tc := ⟨.hbm, 48, rfl⟩
abbrev main_cst_8 : Ref sig .tc := ⟨.hbm, 49, rfl⟩
abbrev main_v17 : Ref sig .tc := ⟨.hbm, 50, rfl⟩
abbrev main_v18 : Ref sig .tc := ⟨.hbm, 51, rfl⟩
abbrev main_cst_9 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_c_10 : Ref sig .tc := ⟨.hbm, 57, rfl⟩
abbrev main_c_11 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_v23 : Ref sig .tc := ⟨.hbm, 64, rfl⟩
abbrev main_c_12 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32_0 : Ref sig .tc := ⟨.hbm, 74, rfl⟩
abbrev main_v32_1 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v48 : BitVec 1 := Scalar.cmpi .eq arg1 c63_i32
  let v49 : BitVec 32 := Scalar.extui v48
  let c0_i32_20 : BitVec 32 := 0#32
  let v50 : BitVec 1 := Scalar.cmpi .ne v49 c0_i32_20
  v50

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 1 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  ![v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨1, ![64], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S262144x2_S262144x1_0_0 : S262144x2.Slices ![0, 0] S262144x1
  shapeCasts_S262144x1_S262144 : S262144x1.ShapeCasts S262144
  bcast_S_S262144 : S_.BroadcastsInDim S262144 (![] : Fin 0 → Fin S262144.rank)
  slices_S262144x2_S262144x1_0_1 : S262144x2.Slices ![0, 1] S262144x1
  transposes_S512x2_S2x512_1_0 : S512x2.Transposes [1, 0] S2x512
  bitsLt_bf16_f32 : FTy.bits .bf16 < FTy.bits .f32
  transposes_S512x128_S128x512_1_0 : S512x128.Transposes [1, 0] S128x512
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x2_S2048x2_0_0 : ∀ a, (![0, 0] : Fin 2 → Nat) a + S2048x2.size a ≤ S2048x2.size a
  h_S2048x2 : 0 < S2048x2.numel
  inb_S2048x128_S2048x128_0_0 : ∀ a, (![0, 0] : Fin 2 → Nat) a + S2048x128.size a ≤ S2048x128.size a
  h_S2048x128 : 0 < S2048x128.numel
  inb_S2048_S2048_0 : ∀ a, (![0] : Fin 1 → Nat) a + S2048.size a ≤ S2048.size a
  h_S2048 : 0 < S2048.numel
  shapeCasts_S2048_S2048 : S2048.ShapeCasts S2048
  inb_S2x512_S2x512_0_0 : ∀ a, (![0, 0] : Fin 2 → Nat) a + S2x512.size a ≤ S2x512.size a
  h_S2x512 : 0 < S2x512.numel
  shapeCasts_S2x512_S2x512 : S2x512.ShapeCasts S2x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  iota_S2048x256_d1_w32 : S2048x256.Iotas .tc 32 [1]
  shapeCasts_S2048_S2048x1 : S2048.ShapeCasts S2048x1
  broadcasts_S2048x1_S2048x256 : S2048x1.Broadcasts S2048x256
  natLt_1_32 : 1 < 32
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  slices_S2x256x128_S1x256x128_0_0_0 : S2x256x128.Slices ![0, 0, 0] S1x256x128
  slices_S2x256x128_S1x256x128_1_0_0 : S2x256x128.Slices ![1, 0, 0] S1x256x128
  inb_S4096_S4096_0 : ∀ a, (![0] : Fin 1 → Nat) a + S4096.size a ≤ S4096.size a
  h_S4096 : 0 < S4096.numel
  shapeCasts_S4096_S4096 : S4096.ShapeCasts S4096
  iota_S4096x256_d1_w32 : S4096x256.Iotas .tc 32 [1]
  shapeCasts_S4096_S4096x1 : S4096.ShapeCasts S4096x1
  broadcasts_S4096x1_S4096x256 : S4096x1.Broadcasts S4096x256
  inb_S4096x128_S4096x128_0_0 : ∀ a, (![0, 0] : Fin 2 → Nat) a + S4096x128.size a ≤ S4096x128.size a
  h_S4096x128 : 0 < S4096x128.numel
  dot_S2048x2_S2x512_S2048x512_1_0_0_1_n_n_wf : DotDims.WF S2048x2 S2x512 S2048x512 [1] [0] [0] [1] [] []
  dot_S2048x128_S128x512_S2048x512_1_0_0_1_n_n_wf : DotDims.WF S2048x128 S128x512 S2048x512 [1] [0] [0] [1] [] []
  dot_S2048x256_S2048x128_S256x128_0_0_1_1_n_n_wf : DotDims.WF S2048x256 S2048x128 S256x128 [0] [0] [1] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S262144x2.size a
  hwx0_0 : ∀ i : grid0.Coords, EltTy.bits .f32 = 32 ∨ (Rect.block (s := S262144x2) S2048x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S262144x128.size a
  hwx0_1 : ∀ i : grid0.Coords, EltTy.bits .f32 = 32 ∨ (Rect.block (s := S262144x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S262144x128.size a
  hwx0_2 : ∀ i : grid0.Coords, EltTy.bits .f32 = 32 ∨ (Rect.block (s := S262144x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S262144.size a
  hwx0_3 : ∀ i : grid0.Coords, EltTy.bits .i32 = 32 ∨ (Rect.block (s := S262144) S2048.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x512.size a ≤ S2x512.size a
  hwx0_4 : ∀ i : grid0.Coords, EltTy.bits .bf16 = 32 ∨ (Rect.block (s := S2x512) S2x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .bf16 = 32 ∨ (Rect.block (s := S128x512) S128x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S262144x128.size a
  hwx0_7 : ∀ i : grid0.Coords, EltTy.bits .f32 = 32 ∨ (Rect.block (s := S262144x128) S2048x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x128.size a ≤ S2x256x128.size a
  hwx0_8 : ∀ i : grid0.Coords, EltTy.bits .f32 = 32 ∨ (Rect.block (s := S2x256x128) S1x256x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096.size a ≤ S262144.size a
  hwx1_0 : ∀ i : grid1.Coords, EltTy.bits .i32 = 32 ∨ (Rect.block (s := S262144) S4096.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S262144x128.size a
  hwx1_2 : ∀ i : grid1.Coords, EltTy.bits .f32 = 32 ∨ (Rect.block (s := S262144x128) S4096x128.size (cc1_transform_2 i) (hinb1_2 i)).WholeWords (EltTy.packing .f32)

variable [Facts₀]

def dot_S2048x2_S2x512_S2048x512_1_0_0_1_n_n : DotDims S2048x2 S2x512 S2048x512 where
  lhsContracting := [1]
  rhsContracting := [0]
  lhsNonContracting := [0]
  rhsNonContracting := [1]
  lhsBatch := []
  rhsBatch := []
  wf := dot_S2048x2_S2x512_S2048x512_1_0_0_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x256_S2048x128_S256x128_0_0_1_1_n_n : DotDims S2048x256 S2048x128 S256x128 where
  lhsContracting := [0]
  rhsContracting := [0]
  lhsNonContracting := [1]
  rhsNonContracting := [1]
  lhsBatch := []
  rhsBatch := []
  wf := dot_S2048x256_S2048x128_S256x128_0_0_1_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S2x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32_0) S2048x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v32_1) S1x256x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v26) S4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S262144x2 : Shape := ⟨2, ![262144, 2]⟩
abbrev S262144x128 : Shape := ⟨2, ![262144, 128]⟩
abbrev S512x2 : Shape := ⟨2, ![512, 2]⟩
abbrev S512x128 : Shape := ⟨2, ![512, 128]⟩
abbrev S512 : Shape := ⟨1, ![512]⟩
abbrev S2x512 : Shape := ⟨2, ![2, 512]⟩
abbrev S262144x512 : Shape := ⟨2, ![262144, 512]⟩
abbrev S1x512 : Shape := ⟨2, ![1, 512]⟩
abbrev S128x512 : Shape := ⟨2, ![128, 512]⟩
abbrev S_ : Shape := ⟨0, ![]⟩
abbrev S262144x1 : Shape := ⟨2, ![262144, 1]⟩
abbrev S262144 : Shape := ⟨1, ![262144]⟩
abbrev S256x128 : Shape := ⟨2, ![256, 128]⟩

abbrev nBuf : Space → Nat
  | .hbm => 127
  | .vmem => 0
  | .smem => 0
  | _ => 0

abbrev bufTy : (tb : Table) → Fin (tcTables nBuf tb) → BufTy
  | .hbm, ⟨0, _⟩ => ⟨S262144x2, .f32⟩
  | .hbm, ⟨1, _⟩ => ⟨S262144x128, .f32⟩
  | .hbm, ⟨2, _⟩ => ⟨S262144x128, .f32⟩
  | .hbm, ⟨3, _⟩ => ⟨S512x2, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S2x512, .f32⟩
  | .hbm, ⟨8, _⟩ => ⟨S262144x512, .f32⟩
  | .hbm, ⟨9, _⟩ => ⟨S1x512, .f32⟩
  | .hbm, ⟨10, _⟩ => ⟨S262144x512, .f32⟩
  | .hbm, ⟨11, _⟩ => ⟨S262144x512, .f32⟩
  | .hbm, ⟨12, _⟩ => ⟨S128x512, .f32⟩
  | .hbm, ⟨13, _⟩ => ⟨S262144x512, .f32⟩
  | .hbm, ⟨14, _⟩ => ⟨S262144x512, .f32⟩
  | .hbm, ⟨15, _⟩ => ⟨S1x512, .f32⟩
  | .hbm, ⟨16, _⟩ => ⟨S262144x512, .f32⟩
  | .hbm, ⟨17, _⟩ => ⟨S262144x512, .f32⟩
  | .hbm, ⟨18, _⟩ => ⟨S262144x128, .f32⟩
  | .hbm, ⟨19, _⟩ => ⟨S262144x128, .f32⟩
  | .hbm, ⟨20, _⟩ => ⟨S262144x128, .f32⟩
  | .hbm, ⟨21, _⟩ => ⟨S262144x128, .f32⟩
  | .hbm, ⟨22, _⟩ => ⟨S262144x128, .f32⟩
  | .hbm, ⟨23, _⟩ => ⟨S262144x128, .f32⟩
  | .hbm, ⟨24, _⟩ => ⟨S_, .f32⟩
  | .hbm, ⟨25, _⟩ => ⟨S262144x128, .f32⟩
  | .hbm, ⟨26, _⟩ => ⟨S262144x128, .f32⟩
  | .hbm, ⟨27, _⟩ => ⟨S_, .f32⟩
  | .hbm, ⟨28, _⟩ => ⟨S262144x128, .f32⟩
  | .hbm, ⟨29, _⟩ => ⟨S262144x128, .f32⟩
  | .hbm, ⟨30, _⟩ => ⟨S262144x128, .f32⟩
  | .hbm, ⟨31, _⟩ => ⟨S262144x128, .f32⟩
  | .hbm, ⟨32, _⟩ => ⟨S262144x128, .f32⟩
  | .hbm, ⟨33, _⟩ => ⟨S_, .f32⟩
  | .hbm, ⟨34, _⟩ => ⟨S262144x128, .f32⟩
  | .hbm, ⟨35, _⟩ => ⟨S262144x128, .f32⟩
  | .hbm, ⟨36, _⟩ => ⟨S_, .f32⟩
  | .hbm, ⟨37, _⟩ => ⟨S262144x128, .f32⟩
  | .hbm, ⟨38, _⟩ => ⟨S262144x128, .f32⟩
  | .hbm, ⟨39, _⟩ => ⟨S262144x128, .f32⟩
  | .hbm, ⟨40, _⟩ => ⟨S262144x128, .f32⟩
  | .hbm, ⟨41, _⟩ => ⟨S262144x128, .f32⟩
  | .hbm, ⟨42, _⟩ => ⟨S262144x128, .f32⟩
  | .hbm, ⟨43, _⟩ => ⟨S262144x128, .f32⟩
  | .hbm, ⟨44, _⟩ => ⟨S_, .f32⟩
  | .hbm, ⟨45, _⟩ => ⟨S262144x128, .f32⟩
  | .hbm, ⟨46, _⟩ => ⟨S262144x128, .f32⟩
  | .hbm, ⟨47, _⟩ => ⟨S_, .f32⟩
  | .hbm, ⟨48, _⟩ => ⟨S262144x128, .f32⟩
  | .hbm, ⟨49, _⟩ => ⟨S262144x128, .f32⟩
  | .hbm, ⟨50, _⟩ => ⟨S262144x128, .f32⟩
  | .hbm, ⟨51, _⟩ => ⟨S262144x128, .f32⟩
  | .hbm, ⟨52, _⟩ => ⟨S262144x1, .f32⟩
  | .hbm, ⟨53, _⟩ => ⟨S262144, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S262144, .f32⟩
  | .hbm, ⟨58, _⟩ => ⟨S262144, .f32⟩
  | .hbm, ⟨59, _⟩ => ⟨S_, .f32⟩
  | .hbm, ⟨60, _⟩ => ⟨S262144, .f32⟩
  | .hbm, ⟨61, _⟩ => ⟨S262144, .f32⟩
  | .hbm, ⟨62, _⟩ => ⟨S262144x1, .f32⟩
  | .hbm, ⟨63, _⟩ => ⟨S262144, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S262144, .f32⟩
  | .hbm, ⟨68, _⟩ => ⟨S262144, .f32⟩
  | .hbm, ⟨69, _⟩ => ⟨S_, .f32⟩
  | .hbm, ⟨70, _⟩ => ⟨S262144, .f32⟩
  | .hbm, ⟨71, _⟩ => ⟨S262144, .f32⟩
  | .hbm, ⟨72, _⟩ => ⟨S_, .f32⟩
  | .hbm, ⟨73, _⟩ => ⟨S262144, .f32⟩
  | .hbm, ⟨74, _⟩ => ⟨S262144, .f32⟩
  | .hbm, ⟨75, _⟩ => ⟨S_, .f32⟩
  | .hbm, ⟨76, _⟩ => ⟨S262144, .f32⟩
  | .hbm, ⟨77, _⟩ => ⟨S262144, .f32⟩
  | .hbm, ⟨78, _⟩ => ⟨S_, .f32⟩
  | .hbm, ⟨79, _⟩ => ⟨S262144, .f32⟩
  | .hbm, ⟨80, _⟩ => ⟨S262144, .f32⟩
  | .hbm, ⟨81, _⟩ => ⟨S262144, .f32⟩
  | .hbm, ⟨82, _⟩ => ⟨S262144, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S262144, .i32⟩
  | .hbm, ⟨87, _⟩ => ⟨S262144, .i32⟩
  | .hbm, ⟨88, _⟩ => ⟨S_, .i32⟩
  | .hbm, ⟨89, _⟩ => ⟨S262144, .i32⟩
  | .hbm, ⟨90, _⟩ => ⟨S262144, .i32⟩
  | .hbm, ⟨91, _⟩ => ⟨S_, .f32⟩
  | .hbm, ⟨92, _⟩ => ⟨S262144, .f32⟩
  | .hbm, ⟨93, _⟩ => ⟨S262144, .f32⟩
  | .hbm, ⟨94, _⟩ => ⟨S_, .f32⟩
  | .hbm, ⟨95, _⟩ => ⟨S262144, .f32⟩
  | .hbm, ⟨96, _⟩ => ⟨S262144, .f32⟩
  | .hbm, ⟨97, _⟩ => ⟨S_, .f32⟩
  | .hbm, ⟨98, _⟩ => ⟨S262144, .f32⟩
  | .hbm, ⟨99, _⟩ => ⟨S262144, .f32⟩
  | .hbm, ⟨100, _⟩ => ⟨S262144, .f32⟩
  | .hbm, ⟨101, _⟩ => ⟨S262144, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S262144, .i32⟩
  | .hbm, ⟨106, _⟩ => ⟨S262144, .i32⟩
  | .hbm, ⟨107, _⟩ => ⟨S_, .i32⟩
  | .hbm, ⟨108, _⟩ => ⟨S262144, .i32⟩
  | .hbm, ⟨109, _⟩ => ⟨S262144, .i32⟩
  | .hbm, ⟨110, _⟩ => ⟨S_, .i32⟩
  | .hbm, ⟨111, _⟩ => ⟨S262144, .i32⟩
  | .hbm, ⟨112, _⟩ => ⟨S262144, .i32⟩
  | .hbm, ⟨113, _⟩ => ⟨S262144, .i32⟩
  | .hbm, ⟨114, _⟩ => ⟨S_, .f32⟩
  | .hbm, ⟨115, _⟩ => ⟨S256x128, .f32⟩
  | .hbm, ⟨116, _⟩ => ⟨S262144x1, .i32⟩
  | .hbm, ⟨117, _⟩ => ⟨S256x128, .f32⟩
  | .hbm, ⟨118, _⟩ => ⟨S_, .i32⟩
  | .hbm, ⟨119, _⟩ => ⟨S262144, .i32⟩
  | .hbm, ⟨120, _⟩ => ⟨S262144, .i1⟩
  | .hbm, ⟨121, _⟩ => ⟨S_, .i32⟩
  | .hbm, ⟨122, _⟩ => ⟨S262144, .i32⟩
  | .hbm, ⟨123, _⟩ => ⟨S262144, .i32⟩
  | .hbm, ⟨124, _⟩ => ⟨S262144, .i32⟩
  | .hbm, ⟨125, _⟩ => ⟨S262144x1, .i32⟩
  | .hbm, ⟨126, _⟩ => ⟨S262144x128, .f32⟩
  | _, _ => ⟨S262144x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_cst_6 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_cst_8 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_cst_11 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c : Ref sig .tc := ⟨.hbm, 83, rfl⟩
abbrev main_c_12 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v53 : Ref sig .tc := ⟨.hbm, 90, rfl⟩
abbrev main_cst_13 : Ref sig .tc := ⟨.hbm, 91, rfl⟩
abbrev main_v54 : Ref sig .tc := ⟨.hbm, 92, rfl⟩
abbrev main_v55 : Ref sig .tc := ⟨.hbm, 93, rfl⟩
abbrev main_cst_14 : Ref sig .tc := ⟨.hbm, 94, rfl⟩
abbrev main_v56 : Ref sig .tc := ⟨.hbm, 95, rfl⟩
abbrev main_v57 : Ref sig .tc := ⟨.hbm, 96, rfl⟩
abbrev main_cst_15 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_c_16 : Ref sig .tc := ⟨.hbm, 102, rfl⟩
abbrev main_c_17 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_v62 : Ref sig .tc := ⟨.hbm, 109, rfl⟩
abbrev main_c_18 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_19 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_c_20 : Ref sig .tc := ⟨.hbm, 118, rfl⟩
abbrev main_v69 : Ref sig .tc := ⟨.hbm, 119, rfl⟩
abbrev main_v70 : Ref sig .tc := ⟨.hbm, 120, rfl⟩
abbrev main_c_21 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩

abbrev nD : Nat := 1
abbrev τ : Topo := Topo.v7x

variable {F : FTy → Type} [FloatOps F]

class Facts₀ : Prop where
  transposes_S512x2_S2x512_1_0 : S512x2.Transposes [1, 0] S2x512
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  transposes_S512x128_S128x512_1_0 : S512x128.Transposes [1, 0] S128x512
  slices_S262144x512_S262144x128_0_0 : S262144x512.Slices ![0, 0] S262144x128
  slices_S262144x512_S262144x128_0_128 : S262144x512.Slices ![0, 128] S262144x128
  slices_S262144x512_S262144x128_0_256 : S262144x512.Slices ![0, 256] S262144x128
  slices_S262144x512_S262144x128_0_384 : S262144x512.Slices ![0, 384] S262144x128
  bcast_S_S262144x128 : S_.BroadcastsInDim S262144x128 (![] : Fin 0 → Fin S262144x128.rank)
  slices_S262144x2_S262144x1_0_0 : S262144x2.Slices ![0, 0] S262144x1
  shapeCasts_S262144x1_S262144 : S262144x1.ShapeCasts S262144
  bcast_S_S262144 : S_.BroadcastsInDim S262144 (![] : Fin 0 → Fin S262144.rank)
  slices_S262144x2_S262144x1_0_1 : S262144x2.Slices ![0, 1] S262144x1
  bcast_S_S256x128 : S_.BroadcastsInDim S256x128 (![] : Fin 0 → Fin S256x128.rank)
  bcast_S262144_S262144x1_0 : S262144.BroadcastsInDim S262144x1 (![0] : Fin 1 → Fin S262144x1.rank)
  dot_S262144x2_S2x512_S262144x512_1_0_0_1_n_n_wf : DotDims.WF S262144x2 S2x512 S262144x512 [1] [0] [0] [1] [] []
  dot_S262144x128_S128x512_S262144x512_1_0_0_1_n_n_wf : DotDims.WF S262144x128 S128x512 S262144x512 [1] [0] [0] [1] [] []
  scatter_S256x128_S262144x1_S262144x128_1_0_0_1_wf : ScatterDims.WF S256x128 S262144x1 S262144x128 [1] [0] [0] 1
  gather_S256x128_S262144x1_S262144x128_1_0_n_n_0_1_1128_wf : GatherDims.WF S256x128 S262144x1 S262144x128 [1] [0] [] [0] [] 1 ![1, 128]

variable [Facts₀]

def dot_S262144x2_S2x512_S262144x512_1_0_0_1_n_n : DotDims S262144x2 S2x512 S262144x512 where
  lhsContracting := [1]
  rhsContracting := [0]
  lhsNonContracting := [0]
  rhsNonContracting := [1]
  lhsBatch := []
  rhsBatch := []
  wf := dot_S262144x2_S2x512_S262144x512_1_0_0_1_n_n_wf
def dot_S262144x128_S128x512_S262144x512_1_0_0_1_n_n : DotDims S262144x128 S128x512 S262144x512 where
  lhsContracting := [1]
  rhsContracting := [0]
  lhsNonContracting := [0]
  rhsNonContracting := [1]
  lhsBatch := []
  rhsBatch := []
  wf := dot_S262144x128_S128x512_S262144x512_1_0_0_1_n_n_wf
def scatter_S256x128_S262144x1_S262144x128_1_0_0_1 : ScatterDims S256x128 S262144x1 S262144x128 where
  updateWindowDims := [1]
  insertedWindowDims := [0]
  scatterDimsToOperandDims := [0]
  indexVectorDim := 1
  wf := scatter_S256x128_S262144x1_S262144x128_1_0_0_1_wf
def gather_S256x128_S262144x1_S262144x128_1_0_n_n_0_1_1128 : GatherDims S256x128 S262144x1 S262144x128 where
  offsetDims := [1]
  collapsedSliceDims := [0]
  operandBatchingDims := []
  startIndicesBatchingDims := []
  startIndexMap := [0]
  indexVectorDim := 1
  sliceSizes := ![1, 128]
  wf := gather_S256x128_S262144x1_S262144x128_1_0_n_n_0_1_1128_wf

class Facts : Prop extends Facts₀ where

variable [Facts]
-- ==== Proof.K.R0Runs.lean ====
/-
  Region 0 — one LSTM-cell step per tile of 2048 rows with a per-half accumulator of the cell sums — what its three
  control cases share. A grid point `t < 128` is tile `t % 64` of half `t / 64`. The body zeroes its 256 x 128
  accumulator where `t % 64 = 0`, adds the tile's one-hot-weighted hidden states to it at every point, and copies it
  into the half's output slab where `t % 64 = 63`; at the other points that slab's buffer is left untouched and is not
  written back. Stated here: each window's block at a point; that every input window's buffer holds its block; the two
  branch conditions in closed form over the grid; where the slab window is idle; the buffers the cases are stated
  over; and the region's resting invariant with the accumulator named.
-/
import proofs.«177821_j68058051772553_2_alg».proof.Proof.Gen.Kernel.Launch
import proofs.«177821_j68058051772553_2_alg».proof.Proof.Gen.Kernel.Skeleton
import proofs.«177821_j68058051772553_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, fetched there or not (an unfetched block's index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's buffer holds its block at every point, fetched there or not (an unfetched block's index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's buffer holds its block at every point, fetched there or not (an unfetched block's index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's buffer holds its block at every point, fetched there or not (an unfetched block's index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's buffer holds its block at every point, fetched there or not (an unfetched block's index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's buffer holds its block at every point, fetched there or not (an unfetched block's index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's buffer holds its block at every point, fetched there or not (an unfetched block's index has not moved). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- "This is the half's first tile": the accumulator is zeroed. -/
abbrev cond0_0 (i : grid0.Coords) : Prop := (Scalar.cmpi .ne (Scalar.extui (Scalar.cmpi .eq (BitVec.ofNat 32 (i 1).val) 0#32)) 0#32) = 1#1
/-- It holds exactly at the points ≡ 0 (mod 64). -/
theorem hcond0_0 : ∀ t : Fin cfg0.N, cond0_0 (grid0.coords t) ↔ t.val % 64 = 0 :=
  (by decide +kernel : ∀ t : Fin grid0.N, cond0_0 (grid0.coords t) ↔ t.val % 64 = 0)

/-- "This is the half's last tile": the accumulator is copied out. -/
abbrev cond0_1 (i : grid0.Coords) : Prop := k0_cond2 i = 1#1
/-- It holds exactly at the points ≡ 63 (mod 64). -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- At a first tile the slab window is idle and is not written back. -/
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
/-- At a middle tile likewise. -/
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
/-- At a last tile the slab window is live: the body stores into it. -/
theorem liveAt0_8_C : ∀ t : Fin cfg0.N, ¬cond0_0 (grid0.coords t) → cond0_1 (grid0.coords t) → cfg0.idle 8 (grid0.coords t) = false := by decide +kernel

/-! ## The buffers the cases are stated over -/

/-- One staging buffer of each output window, through which its contents are stated (the choice does not matter). -/
abbrev VO0_7 : View sig .tc .vmem S2048x128 .f32 := (Memref.whole cc0_stg7_0 : Memref sig .tc .vmem S2048x128 .f32).view
abbrev VO0_8 : View sig .tc .vmem S1x256x128 .f32 := (Memref.whole cc0_stg8_0 : Memref sig .tc .vmem S1x256x128 .f32).view
abbrev ms0_0 (t : Fin cfg0.N) : Memref sig .tc .vmem S2048x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x128 .f32 := win0_8.stage (cfg0.slots t 8)
abbrev hs0_8 (t : Fin cfg0.N) : (ms0_8 t).IsWhole := hstage0_8 ((cfg0.slots t 8).cast nbuf0_8)
/-- The accumulator: a whole scoped buffer of the kernel's own, passed beside the windows, and its view. -/
abbrev scM0_0 : Memref sig .tc .vmem S256x128 .f32 := Memref.whole cc0_scratch0
abbrev VS0_0 : View sig .tc .vmem S256x128 .f32 := scM0_0.view

/-- The core's other scoped buffers that are no staging buffer of this region (the next region's five), each whole at
    some contents: they ride through the region untouched. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's resting invariant with the accumulator as a memref owned at some contents. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_eq]; simp only [scM0_0, owns_whole]; try rfl

end Cert.Kernel.Gen

end
-- ==== Proof.K.R0RunA.lean ====
/-
  Region 0's body at a half's FIRST tile (points 0 and 64): the accumulator is zeroed, then the tile is added; the slab window is idle.
  On whole staging buffers — the seven inputs at their contents, the new-cell-state buffer at anything, the slab's buffer at contents handed back untouched,
  the accumulator at anything — the body runs to its end holding the inputs as they were and each buffer it stored into with its stores
  written, as a list of pieces (last store first): the lists are found by running the body.
-/
import proofs.«177821_j68058051772553_2_alg».proof.Proof.K.R0Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the new-cell-state buffer (`.1`), in the slab's buffer (`.2.1`) and in the
    accumulator (`.2.2.1`), with the body's triple (`.2.2.2`). -/
noncomputable def kernelRun0_A (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : cond0_0 i) (hc1 : ¬cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) :
    Σ' (L7 : List (View.Piece (Elt F) S2048x128 .f32)) (L8 : List (View.Piece (Elt F) S1x256x128 .f32)), { LS0 : List (View.Piece (Elt F) S256x128 .f32) //
      ∀ (xi8 : Vec F S1x256x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11) K } := by
  refine ⟨?_, [], ?_, fun xi8 E K => ?run⟩
  case run =>
    simp only [cc0__lstm_kernel_eq_skeleton]; unfold cc0__lstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; iexact HS0

end Cert.Kernel.Gen

end
-- ==== Proof.K.R0RunB.lean ====
/-
  Region 0's body at a MIDDLE tile: the tile is added to the accumulator; the slab window is idle.
  On whole staging buffers — the seven inputs at their contents, the new-cell-state buffer at anything, the slab's buffer at contents handed back untouched,
  the accumulator at what the point before left — the body runs to its end holding the inputs as they were and each buffer it stored into with its stores
  written, as a list of pieces (last store first): the lists are found by running the body.
-/
import proofs.«177821_j68058051772553_2_alg».proof.Proof.K.R0Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the new-cell-state buffer (`.1`), in the slab's buffer (`.2.1`) and in the
    accumulator (`.2.2.1`), with the body's triple (`.2.2.2`). -/
noncomputable def kernelRun0_B (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : ¬cond0_0 i) (hc1 : ¬cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (xs0 : Vec F S256x128 .f32) :
    Σ' (L7 : List (View.Piece (Elt F) S2048x128 .f32)) (L8 : List (View.Piece (Elt F) S1x256x128 .f32)), { LS0 : List (View.Piece (Elt F) S256x128 .f32) //
      ∀ (xi8 : Vec F S1x256x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11) K } := by
  refine ⟨?_, [], ?_, fun xi8 E K => ?run⟩
  case run =>
    simp only [cc0__lstm_kernel_eq_skeleton]; unfold cc0__lstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; iexact HS0

end Cert.Kernel.Gen

end
-- ==== Proof.K.R0RunC.lean ====
/-
  Region 0's body at a half's LAST tile (points 63 and 127): the tile is added to the accumulator, which is then copied into the slab's buffer.
  On whole staging buffers — the seven inputs at their contents, the new-cell-state buffer at anything, the slab's buffer at anything,
  the accumulator at what the point before left — the body runs to its end holding the inputs as they were and each buffer it stored into with its stores
  written, as a list of pieces (last store first): the lists are found by running the body.
-/
import proofs.«177821_j68058051772553_2_alg».proof.Proof.K.R0Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the new-cell-state buffer (`.1`), in the slab's buffer (`.2.1`) and in the
    accumulator (`.2.2.1`), with the body's triple (`.2.2.2`). -/
noncomputable def kernelRun0_C (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : ¬cond0_0 i) (hc1 : cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (xs0 : Vec F S256x128 .f32) :
    Σ' (L7 : List (View.Piece (Elt F) S2048x128 .f32)) (L8 : List (View.Piece (Elt F) S1x256x128 .f32)), { LS0 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__lstm_kernel_eq_skeleton]; unfold cc0__lstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end Cert.Kernel.Gen

end
-- ==== Proof.K.R0Frame.lean ====
/-
  Region 0 — one LSTM-cell step per tile with a per-half accumulator of the cell sums: its proof data and body obligation.
  After the body at point `t` the new-cell-state buffer holds the tile's new cell state; the accumulator holds, at a half's
  first tile, zero plus the tile's one-hot-weighted hidden states, and at a later tile what the point before left plus the
  tile's; the slab's buffer holds the accumulator at a half's last tile and is untouched elsewhere. `outsAt0` says so by
  recursion on the point; the region's invariant names the accumulator's contents after each point; the body obligation is
  the case the point is in.
-/
import proofs.«177821_j68058051772553_2_alg».proof.Proof.K.R0RunA
import proofs.«177821_j68058051772553_2_alg».proof.Proof.K.R0RunB
import proofs.«177821_j68058051772553_2_alg».proof.Proof.K.R0RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Each case's stores cover the buffers they are read back from -/

/-- The stores into the new-cell-state buffer tile it, in every case. -/
theorem cover0_A_7 (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : cond0_0 i) (hc1 : ¬cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (y : S2048x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).1 S2048x128.size (by sl_kernel_rfl) y
theorem cover0_B_7 (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : ¬cond0_0 i) (hc1 : ¬cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (xs0 : Vec F S256x128 .f32) (y : S2048x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1 S2048x128.size (by sl_kernel_rfl) y
theorem cover0_C_7 (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : ¬cond0_0 i) (hc1 : cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (xs0 : Vec F S256x128 .f32) (y : S2048x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1 S2048x128.size (by sl_kernel_rfl) y

/-- At a half's last tile the store into the slab's buffer covers it. -/
theorem cover0_C_8 (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : ¬cond0_0 i) (hc1 : cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (xs0 : Vec F S256x128 .f32) (y : S1x256x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1 S1x256x128.size (by sl_kernel_rfl) y

/-- The stores into the accumulator cover it, in every case. -/
theorem scover0_A_0 (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : cond0_0 i) (hc1 : ¬cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (y : S256x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1 S256x128.size (by sl_kernel_rfl) y
theorem scover0_B_0 (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : ¬cond0_0 i) (hc1 : ¬cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (xs0 : Vec F S256x128 .f32) (y : S256x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.2.1 S256x128.size (by sl_kernel_rfl) y
theorem scover0_C_0 (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : ¬cond0_0 i) (hc1 : cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (xs0 : Vec F S256x128 .f32) (y : S256x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1 S256x128.size (by sl_kernel_rfl) y

variable (V : (c : Dev nD) → (b : Ref sig .tc) → Buf (Elt F) ((c : Thread nD τ).loc b))

/-! ## What each case leaves at a point: (new-cell-state buffer, slab buffer, accumulator)

The slab component at a first or middle tile is a placeholder nothing consults: there the window is idle and is
not written back. -/

def outA (c : Dev nD) (t : Fin cfg0.N) (hc0 : cond0_0 (grid0.coords t)) (hc1 : ¬cond0_1 (grid0.coords t)) : Vec F S2048x128 .f32 × Vec F S1x256x128 .f32 × Vec F S256x128 .f32 :=
  (VO0_7.read (Elt F) (VO0_7.writes (Elt F) VO0_7.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk0 V c 0 t) (iblk0 V c 1 t) (iblk0 V c 2 t) (iblk0 V c 3 t) (iblk0 V c 4 t) (iblk0 V c 5 t) (iblk0 V c 6 t)).1),
   VO0_8.read (Elt F) (VO0_8.writes (Elt F) VO0_8.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk0 V c 0 t) (iblk0 V c 1 t) (iblk0 V c 2 t) (iblk0 V c 3 t) (iblk0 V c 4 t) (iblk0 V c 5 t) (iblk0 V c 6 t)).2.1),
   VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk0 V c 0 t) (iblk0 V c 1 t) (iblk0 V c 2 t) (iblk0 V c 3 t) (iblk0 V c 4 t) (iblk0 V c 5 t) (iblk0 V c 6 t)).2.2.1))

def outB (c : Dev nD) (t : Fin cfg0.N) (hc0 : ¬cond0_0 (grid0.coords t)) (hc1 : ¬cond0_1 (grid0.coords t)) (xs0 : Vec F S256x128 .f32) : Vec F S2048x128 .f32 × Vec F S1x256x128 .f32 × Vec F S256x128 .f32 :=
  (VO0_7.read (Elt F) (VO0_7.writes (Elt F) VO0_7.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk0 V c 0 t) (iblk0 V c 1 t) (iblk0 V c 2 t) (iblk0 V c 3 t) (iblk0 V c 4 t) (iblk0 V c 5 t) (iblk0 V c 6 t) xs0).1),
   VO0_8.read (Elt F) (VO0_8.writes (Elt F) VO0_8.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk0 V c 0 t) (iblk0 V c 1 t) (iblk0 V c 2 t) (iblk0 V c 3 t) (iblk0 V c 4 t) (iblk0 V c 5 t) (iblk0 V c 6 t) xs0).2.1),
   VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk0 V c 0 t) (iblk0 V c 1 t) (iblk0 V c 2 t) (iblk0 V c 3 t) (iblk0 V c 4 t) (iblk0 V c 5 t) (iblk0 V c 6 t) xs0).2.2.1))

def outC (c : Dev nD) (t : Fin cfg0.N) (hc0 : ¬cond0_0 (grid0.coords t)) (hc1 : cond0_1 (grid0.coords t)) (xs0 : Vec F S256x128 .f32) : Vec F S2048x128 .f32 × Vec F S1x256x128 .f32 × Vec F S256x128 .f32 :=
  (VO0_7.read (Elt F) (VO0_7.writes (Elt F) VO0_7.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk0 V c 0 t) (iblk0 V c 1 t) (iblk0 V c 2 t) (iblk0 V c 3 t) (iblk0 V c 4 t) (iblk0 V c 5 t) (iblk0 V c 6 t) xs0).1),
   VO0_8.read (Elt F) (VO0_8.writes (Elt F) VO0_8.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk0 V c 0 t) (iblk0 V c 1 t) (iblk0 V c 2 t) (iblk0 V c 3 t) (iblk0 V c 4 t) (iblk0 V c 5 t) (iblk0 V c 6 t) xs0).2.1),
   VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk0 V c 0 t) (iblk0 V c 1 t) (iblk0 V c 2 t) (iblk0 V c 3 t) (iblk0 V c 4 t) (iblk0 V c 5 t) (iblk0 V c 6 t) xs0).2.2.1))

/-! ## What the buffers hold after each point -/

/-- After the body at position `n`: the case the closed forms select, the accumulator of a later tile taken from what
    position `n - 1` left. -/
def outsAt0 (c : Dev nD) : (n : ℕ) → n < cfg0.N → Vec F S2048x128 .f32 × Vec F S1x256x128 .f32 × Vec F S256x128 .f32
  | 0, hn => outA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 64 = 0 then
      if h1 : (n + 1) % 64 = 63 then
        False.elim (by omega)
      else
        outA V c ⟨n + 1, hn⟩ ((hcond0_0 ⟨n + 1, hn⟩).mpr h0) (fun h => h1 ((hcond0_1 ⟨n + 1, hn⟩).mp h))
    else
      if h1 : (n + 1) % 64 = 63 then
        outC V c ⟨n + 1, hn⟩ (fun h => h0 ((hcond0_0 ⟨n + 1, hn⟩).mp h)) ((hcond0_1 ⟨n + 1, hn⟩).mpr h1) (outsAt0 c n (Nat.lt_of_succ_lt hn)).2.2
      else
        outB V c ⟨n + 1, hn⟩ (fun h => h0 ((hcond0_0 ⟨n + 1, hn⟩).mp h)) (fun h => h1 ((hcond0_1 ⟨n + 1, hn⟩).mp h)) (outsAt0 c n (Nat.lt_of_succ_lt hn)).2.2

theorem outsAt0_A (c : Dev nD) (t : Fin cfg0.N) (h0 : t.val % 64 = 0) (h1 : ¬t.val % 64 = 63) :
    outsAt0 V c t.val t.isLt = outA V c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 64 = 0) (h1 : ¬t.val % 64 = 63) :
    outsAt0 V c t.val t.isLt = outB V c t (fun h => h0 ((hcond0_0 t).mp h)) (fun h => h1 ((hcond0_1 t).mp h))
      (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 64 = 0) (h1 : t.val % 64 = 63) :
    outsAt0 V c t.val t.isLt = outC V c t (fun h => h0 ((hcond0_0 t).mp h)) ((hcond0_1 t).mpr h1)
      (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator named after each point -/

/-- Before the first point the resting invariant (the accumulator at anything); before point `n + 1` the accumulator at
    what point `n` left, the bystander buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ rest0 (F := F) c) ∗ (∃ r, prngReg c r)) := by
  cases n with
  | zero => exact absurd rfl hz
  | succ n => rfl

/-! ## The proof data -/

/-- Pipeline 0's proof data on core `c`: the arrays as the region finds them; after the body each input's buffer at its
    block and the two outputs' at `outsAt0`'s components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by dsimp only [dat0]
theorem q_eq0 (c : Dev nD) (w : Fin cfg0.W) : (dat0 V c).q w = fullShare := rfl
theorem owed_eq0 (c : Dev nD) (t : Fin (cfg0.N + 1)) : (dat0 V c).owed t = 0 := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
/-- The body at any point. The inputs' buffers hold their blocks; the closed forms say which case the point is in; the
    invariant hands the body the accumulator at what the point before left (at anything at the grid's first point) and
    takes it back at this point's contents; an idle slab buffer goes back untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  by_cases h0 : t.val % 64 = 0
  · by_cases h1 : t.val % 64 = 63
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [Dat.leavesExact_idle (dat0 V c) 8 t (idleAt0_8_A t ((hcond0_0 t).mpr h0) (fun h => h1 ((hcond0_1 t).mp h))) (noFlush0_8_A t ((hcond0_0 t).mpr h0) (fun h => h1 ((hcond0_1 t).mp h)))]
      rw [outsAt0_A V c t h0 h1]
      unfold outA; (try dsimp only)
      by_cases hz : t.val = 0
      · rw [PhiS_castSucc V c t, PhiS_zero V c _ _ hz, PhiA0_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _)
        iexists _; iexact H8
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexists _; iexact HS0
        iintro ⟨H0, H1, H2, H3, H4, H5, H6, ⟨%e7, H7⟩, H8, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _)
        iexists _; iexact H8

  · by_cases h1 : t.val % 64 = 63
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8_C t (fun h => h0 ((hcond0_0 t).mp h)) ((hcond0_1 t).mpr h1)], after0_8]
      rw [outsAt0_C V c t h0 h1]
      unfold outC; (try dsimp only)
      by_cases hz : t.val = 0
      · exfalso; omega
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        iintro ⟨H0, H1, H2, H3, H4, H5, H6, ⟨%e7, H7⟩, ⟨%e8, H8⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [Dat.leavesExact_idle (dat0 V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B V c t h0 h1]
      unfold outB; (try dsimp only)
      by_cases hz : t.val = 0
      · exfalso; omega
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _)
        iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the resting one back: the accumulator's named contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 128 := N_0; omega)

end Cert.Kernel.Gen

end
-- ==== Proof.K.R1Frame.lean ====
import proofs.«177821_j68058051772553_2_alg».proof.Proof.Gen.Kernel.Launch
import proofs.«177821_j68058051772553_2_alg».proof.Proof.Gen.Kernel.Skeleton
import proofs.«177821_j68058051772553_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is at this parameter
variable (V : (c : Dev nD) → (b : Ref sig .tc) → Buf (Elt F) ((c : Thread nD τ).loc b))

/-! # Region 1: each row's cell sum, selected by a one-hot matrix product

Window 0 carries the rows' cell numbers (a block of 4096 per point), window 1 the table of per-cell sums (one block,
moved in at the first point and unchanged after), window 2 the output rows. At a point the body reads windows 0 and 1
whole and overwrites the whole of window 2's buffer with the product of the rows' one-hot matrix and the table. -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, for any proof data whose array is `V`'s and whose
    body leaves the block in place: the window is uncut and never idle, and where it is not moved in its index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point: it is moved in at the first point only, and at every
    later point its block index is the one before, so the buffer still holds that same block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer, whole -/

abbrev r1_0 : Rect S4096 := Rect.unit (s := S4096) ![0] S4096.size inb_S4096_S4096_0
abbrev r1_1 : Rect S256x128 := Rect.unit (s := S256x128) ![0, 0] S256x128.size inb_S256x128_S256x128_0_0
abbrev r1_2 : Rect S4096x128 := Rect.unit (s := S4096x128) ![0, 0] S4096x128.size inb_S4096x128_S4096x128_0_0

/-! ## What the body leaves in the output window's buffer -/

/-- Window 2's buffer after the body, from the two input blocks: its one store, of the whole rectangle. -/
def out1_2 (x0 : Vec F S4096 .i32) (x1 : Vec F S256x128 .f32) : Vec F S4096x128 .f32 :=
  View.canon [⟨r1_2, k1_pay1 (View.ld x0 r1_0) (View.ld x1 r1_1)⟩]

/-- The one stored rectangle is the whole buffer, so it covers it. -/
theorem cover1_2 (p0 : Vec F S4096x128 .f32) (y : S4096x128.Idx) :
    ∃ pc ∈ ([⟨r1_2, p0⟩] : List (View.Piece (Elt F) S4096x128 .f32)), y ∈ pc.1.set :=
  View.cover_of_tiled [⟨r1_2, p0⟩] S4096x128.size (by rfl) y

/-! ## The body's triple -/

set_option maxHeartbeats 1000000 in
/-- The body on whole buffers, the two inputs' at contents `x0`, `x1` and the output's at anything, runs to the continuation
    holding the inputs' as they were and the output's at `out1_2 x0 x1`: the output buffer's own load is of an unused value. -/
theorem sound_kernel1 (c : Dev nD) (E : Set ℕ) (i : grid1.Coords)
    (arg0 : Memref sig .tc .vmem S4096 .i32) (harg0 : arg0.IsWhole) (arg1 : Memref sig .tc .vmem S256x128 .f32) (harg1 : arg1.IsWhole)
    (arg2 : Memref sig .tc .vmem S4096x128 .f32) (harg2 : arg2.IsWhole)
    (x0 : Vec F S4096 .i32) (x1 : Vec F S256x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__gather_kernel i arg0 harg0 arg1 harg1 arg2 harg2) K := by
  simp only [cc1__gather_kernel_eq_skeleton]; unfold cc1__gather_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region on core `c`: the arrays as the region finds them; after the body at point `t` each input's
    buffer at its block and the output's at `out1_2` of the two input blocks; the invariant is the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by dsimp only [dat1]
theorem q_eq1 (c : Dev nD) (w : Fin cfg1.W) : (dat1 V c).q w = fullShare := rfl
theorem owed_eq1 (c : Dev nD) (t : Fin (cfg1.N + 1)) : (dat1 V c).owed t = 0 := rfl
theorem Phi_eq1 (c : Dev nD) (t : Fin (cfg1.N + 1)) : (dat1 V c).Φ t = (Pipeline.ΦA spec1 c : sProp 𝕄) := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current buffer holds its block at every point, moved in there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.K.Run.lean ====
/- The run of @main: ten host stretches and two kernel regions composed into one statement about the final memory. Each
   region's output arrays are named by what its proof data leave at the last grid point; every other unscoped buffer is
   followed through the host stretches. The result: on every core, each unscoped buffer ends at the last valuation. -/
import proofs.«177821_j68058051772553_2_alg».proof.Proof.Gen.Kernel.Regions
import proofs.«177821_j68058051772553_2_alg».proof.Proof.K.R0Frame
import proofs.«177821_j68058051772553_2_alg».proof.Proof.K.R1Frame

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-! ## What the two regions leave in their output arrays -/

/-- Region 0's two output arrays after its last grid point, read off its proof data at the contents the region is
    entered from; any other reference keeps what it held there. -/
def outsA : Outs (F := F) := fun _ r c =>
  if h : r = main_v32_0 then
    h.symm ▸ (show Buf (Elt F) ((c : Thread nD τ).loc main_v32_0) from (dat0 (fun c b => V9 m c b) c).arrAt 7 cfg0.N)
  else if h' : r = main_v32_1 then
    h'.symm ▸ (show Buf (Elt F) ((c : Thread nD τ).loc main_v32_1) from (dat0 (fun c b => V9 m c b) c).arrAt 8 cfg0.N)
  else V9 m c r

theorem outsA_v32_0 (J : ℕ) (c : Dev nD) : outsA m J main_v32_0 c = (dat0 (fun c b => V9 m c b) c).arrAt 7 cfg0.N := by
  unfold outsA; rw [dif_pos rfl]

theorem outsA_v32_1 (J : ℕ) (c : Dev nD) : outsA m J main_v32_1 c = (dat0 (fun c b => V9 m c b) c).arrAt 8 cfg0.N := by
  unfold outsA; rw [dif_neg (by decide), dif_pos rfl]

/-- Both regions' output arrays: region 1's after its last grid point, entered from the contents the second host
    stretch leaves behind region 0's outputs; region 0's as above. -/
def outs : Outs (F := F) := fun J r c =>
  if h : r = main_v38 then
    h.symm ▸ (show Buf (Elt F) ((c : Thread nD τ).loc main_v38) from (dat1 (fun c b => V11 m (outsA m) c b) c).arrAt 2 cfg1.N)
  else outsA m J r c

theorem outs_v38 (J : ℕ) (c : Dev nD) : outs m J main_v38 c = (dat1 (fun c b => V11 m (outsA m) c b) c).arrAt 2 cfg1.N := by
  unfold outs; rw [dif_pos rfl]

theorem outs_of_ne (J : ℕ) (r : Ref sig .tc) (c : Dev nD) (h : r ≠ main_v38) : outs m J r c = outsA m J r c := by
  unfold outs; rw [dif_neg h]

theorem outs_v32_0 (J : ℕ) (c : Dev nD) : outs m J main_v32_0 c = (dat0 (fun c b => V9 m c b) c).arrAt 7 cfg0.N :=
  (outs_of_ne m J main_v32_0 c (by decide)).trans (outsA_v32_0 m J c)

theorem outs_v32_1 (J : ℕ) (c : Dev nD) : outs m J main_v32_1 c = (dat0 (fun c b => V9 m c b) c).arrAt 8 cfg0.N :=
  (outs_of_ne m J main_v32_1 c (by decide)).trans (outsA_v32_1 m J c)

/-- The valuations up to region 1's entry read the outputs only at region 0's two arrays, where both stages agree. -/
theorem V10_outs (c : Dev nD) : V10 m (outs m) c = V10 m (outsA m) c := by
  show Function.update (Function.update (V9 m c) main_v32_0 (outs m 10 main_v32_0 c)) main_v32_1 (outs m 10 main_v32_1 c) = _
  rw [outs_of_ne m 10 main_v32_0 c (by decide), outs_of_ne m 10 main_v32_1 c (by decide)]

theorem V11_outs (c : Dev nD) : V11 m (outs m) c = V11 m (outsA m) c := by
  show StableHlo.after hostOps1 (V10 m (outs m) c) = _
  rw [V10_outs]

/-! ## The valuations at the regions' output arrays -/

theorem V10_v32_0 (o : Outs (F := F)) (c : Dev nD) : V10 m o c main_v32_0 = o 10 main_v32_0 c := by
  show Function.update (Function.update (V9 m c) main_v32_0 (o 10 main_v32_0 c)) main_v32_1 (o 10 main_v32_1 c) main_v32_0 = _
  rw [Function.update_of_ne (StableHlo.devRef_ne_of_ne (by decide : (main_v32_0 : Ref sig .tc) ≠ main_v32_1)), Function.update_self]

theorem V10_v32_1 (o : Outs (F := F)) (c : Dev nD) : V10 m o c main_v32_1 = o 10 main_v32_1 c := by
  show Function.update (Function.update (V9 m c) main_v32_0 (o 10 main_v32_0 c)) main_v32_1 (o 10 main_v32_1 c) main_v32_1 = _
  rw [Function.update_self]

theorem V12_v38 (o : Outs (F := F)) (c : Dev nD) : V12 m o c main_v38 = o 12 main_v38 c := by
  show Function.update (V11 m o c) main_v38 (o 12 main_v38 c) main_v38 = _
  rw [Function.update_self]

/-! ## The proof data family and the thread state -/

/-- Every pipeline's proof data, each at the contents its region is entered from. -/
def pdats : (p : Fin 2) → (c : Dev nD) → Pipeline.Dat τ (Elt F) Unit ℕ (UR sig nD τ) ℕ (cfgs p) c
  | ⟨0, _⟩ => fun c => dat0 (fun c b => V9 m c b) c
  | ⟨1, _⟩ => fun c => dat1 (fun c b => V11 m (outsA m) c b) c

/-- No core owes another anything: no level is assigned. -/
abbrev noLv : GSem nD τ sig → Finset Unit := fun _ => ∅
abbrev lv0 : GSem nD τ sig → Unit → ℕ := fun _ _ => 0
/-- What rides beside the buffers through every item: the generator register at some state, and nothing owed. -/
abbrev restR (c : Dev nD) : sProp 𝕄 := iprop((∃ r, prngReg c r) ∗ ∃ W, owes (c : Thread nD τ) (0 : CellTallies nD τ sig Unit) W)
abbrev restE : Fin 3 → Dev nD → sProp 𝕄 := fun _ c => restR c

theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0's arrays at its exit -/

/-- An input window's array is never written back: at the region's exit it holds what the region found. -/
theorem arr0_in (c : Dev nD) (w : Fin 9) (hin : (cfg0.win w).isOut = false) (r : Ref sig .tc) (hr : Pipeline.arrRef spec0 w = r)
    (hnot : r ∉ ([main_v32_0, main_v32_1] : List (Ref sig .tc))) :
    (dat0 (fun c b => V9 m c b) c).arrAt w cfg0.N = V10 m (outs m) c (Pipeline.arrRef spec0 w) := by
  subst hr
  exact ((dat0 (fun c b => V9 m c b) c).arrAt_in w hin _).trans ((A_eq0 (fun c b => V9 m c b) c w).trans (V10_of m (outs m) c _ hnot).symm)

theorem hF0_0 (c : Dev nD) : (dat0 (fun c b => V9 m c b) c).arrAt 0 cfg0.N = V10 m (outs m) c (Pipeline.arrRef spec0 0) :=
  arr0_in m c 0 rfl main_arg0 rfl (by decide)
theorem hF0_1 (c : Dev nD) : (dat0 (fun c b => V9 m c b) c).arrAt 1 cfg0.N = V10 m (outs m) c (Pipeline.arrRef spec0 1) :=
  arr0_in m c 1 rfl main_arg1 rfl (by decide)
theorem hF0_2 (c : Dev nD) : (dat0 (fun c b => V9 m c b) c).arrAt 2 cfg0.N = V10 m (outs m) c (Pipeline.arrRef spec0 2) :=
  arr0_in m c 2 rfl main_arg2 rfl (by decide)
theorem hF0_3 (c : Dev nD) : (dat0 (fun c b => V9 m c b) c).arrAt 3 cfg0.N = V10 m (outs m) c (Pipeline.arrRef spec0 3) :=
  arr0_in m c 3 rfl main_v26 rfl (by decide)
theorem hF0_4 (c : Dev nD) : (dat0 (fun c b => V9 m c b) c).arrAt 4 cfg0.N = V10 m (outs m) c (Pipeline.arrRef spec0 4) :=
  arr0_in m c 4 rfl main_v28 rfl (by decide)
theorem hF0_5 (c : Dev nD) : (dat0 (fun c b => V9 m c b) c).arrAt 5 cfg0.N = V10 m (outs m) c (Pipeline.arrRef spec0 5) :=
  arr0_in m c 5 rfl main_v30 rfl (by decide)
theorem hF0_6 (c : Dev nD) : (dat0 (fun c b => V9 m c b) c).arrAt 6 cfg0.N = V10 m (outs m) c (Pipeline.arrRef spec0 6) :=
  arr0_in m c 6 rfl main_v31 rfl (by decide)
theorem hF0_7 (c : Dev nD) : (dat0 (fun c b => V9 m c b) c).arrAt 7 cfg0.N = V10 m (outs m) c (Pipeline.arrRef spec0 7) :=
  ((V10_v32_0 m (outs m) c).trans (outs_v32_0 m 10 c)).symm
theorem hF0_8 (c : Dev nD) : (dat0 (fun c b => V9 m c b) c).arrAt 8 cfg0.N = V10 m (outs m) c (Pipeline.arrRef spec0 8) :=
  ((V10_v32_1 m (outs m) c).trans (outs_v32_1 m 10 c)).symm

/-- At region 0's exit each input window's array is as entered, each output's is what the proof data leave. -/
theorem hF0 (c : Dev nD) : ∀ w : Fin 9, (pdats m 0 c).arrAt w cfg0.N = V10 m (outs m) c (Pipeline.arrRef spec0 w) := fun
  | 0 => hF0_0 m c
  | 1 => hF0_1 m c
  | 2 => hF0_2 m c
  | 3 => hF0_3 m c
  | 4 => hF0_4 m c
  | 5 => hF0_5 m c
  | 6 => hF0_6 m c
  | 7 => hF0_7 m c
  | 8 => hF0_8 m c
  | ⟨_ + 9, h⟩ => absurd h (Nat.not_lt.2 (Nat.le_add_left _ _))

/-- Off region 0's arrays nothing changes across it. -/
theorem hrest0 (c : Dev nD) : ∀ b, b ∉ Finset.univ.image (Pipeline.arrRef spec0) → V10 m (outs m) c b = V9 m c b :=
  fun b hb => V10_of m (outs m) c b fun hmem => by
    rcases List.mem_cons.mp hmem with rfl | hmem
    · exact hb (Finset.mem_image.mpr ⟨7, Finset.mem_univ _, rfl⟩)
    · rcases List.mem_cons.mp hmem with rfl | hmem
      · exact hb (Finset.mem_image.mpr ⟨8, Finset.mem_univ _, rfl⟩)
      · exact absurd hmem List.not_mem_nil

/-! ## Region 1's arrays at its entry and exit -/

theorem hA1 (c : Dev nD) (w : Fin 3) : (pdats m 1 c).A w = V11 m (outs m) c (Pipeline.arrRef spec1 w) :=
  (A_eq1 (fun c b => V11 m (outsA m) c b) c w).trans (congrFun (V11_outs m c).symm _)

theorem hF1 (c : Dev nD) : ∀ w : Fin 3, (pdats m 1 c).arrAt w cfg1.N = V12 m (outs m) c (Pipeline.arrRef spec1 w)
  | 0 => ((pdats m 1 c).arrAt_in 0 rfl _).trans ((hA1 m c 0).trans (V12_of m (outs m) c main_v26 (by decide)).symm)
  | 1 => ((pdats m 1 c).arrAt_in 1 rfl _).trans ((hA1 m c 1).trans (V12_of m (outs m) c main_v37 (by decide)).symm)
  | 2 => ((V12_v38 m (outs m) c).trans (outs_v38 m 12 c)).symm
  | ⟨_ + 3, h⟩ => absurd h (Nat.not_lt.2 (Nat.le_add_left _ _))

theorem hrest1 (c : Dev nD) : ∀ b, b ∉ Finset.univ.image (Pipeline.arrRef spec1) → V12 m (outs m) c b = V11 m (outs m) c b :=
  fun b hb => V12_of m (outs m) c b fun hmem => by
    rcases List.mem_cons.mp hmem with rfl | hmem
    · exact hb (Finset.mem_image.mpr ⟨2, Finset.mem_univ _, rfl⟩)
    · exact absurd hmem List.not_mem_nil

/-! ## The regions as segments -/

set_option backward.isDefEq.respectTransparency.types false in
/-- Region 0 over the thread state: entered from every unscoped buffer at the contents after the ninth host stretch,
    left with its two output arrays at what the proof data leave and every other buffer unchanged. -/
def reg0 : Pipeline.RegionSeg (pcfgs (F := F)) adm (pdats m) () defs₀ Variants.none noLv lv0 0 where
  win := launch0.win.to₀
  block_pos := launch0.block_pos
  stage_whole := launch0.stage_whole
  K := PEmpty
  osem k := k.elim
  ho := Pipeline.OwnSemFacts.none _
  hbody c := (body_obligation0 (fun c b => V9 m c b) c).loose
  hwaits := Pipeline.hwaits_of_owed_zero _ _ _ _ noLv lv0 0 fun c t => owed_eq0 (fun c b => V9 m c b) c t
  pre c := iprop(StableHlo.held (c : Thread nD τ) (Pipeline.ucRefs τ sig) (V9 m c) ∗ restE 0 c)
  post c := iprop(StableHlo.held (c : Thread nD τ) (Pipeline.ucRefs τ sig) (V10 m (outs m) c) ∗ restE 1 c)
  X c := iprop(∃ r, prngReg c r)
  Y c := iprop(∃ r, prngReg c r)
  Z c := Pipeline.unscopedRest (Ix := Unit) (Name := ℕ) (U := UR sig nD τ) (Lvl := ℕ) spec0 c (fun b => V9 m c b)
  hentry c := by
    rw [Pipeline.ownSems0_none]
    have hsplit := Pipeline.arrays_of_unscopedBufs (p := 0) (pcfgs (F := F)) adm (pdats m) launch0.win launch0.arr_whole c
      ((pdats m 0 c).share_full fun w => q_eq0 (fun c b => V9 m c b) c w) (fun b => V9 m c b) fun w => A_eq0 (fun c b => V9 m c b) c w
    rw [Pipeline.unscopedBufs_held] at hsplit
    have ho : (pdats m 0 c).owed 0 = 0 := owed_eq0 (fun c b => V9 m c b) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun _ _ => Or.inl trivial
      iexact HO
    isplitl [Hp]; · iexact Hp
    iexact Hrest
  hin c := by
    refine .trans ?_ (hin0 (fun c b => V9 m c b) c)
    unfold Pipeline.ΦA
    iintro ⟨Hp, -, Hr⟩
    isplitl [Hr]; · iexact Hr
    iexact Hp
  hout c := by
    refine (hout0 (fun c b => V9 m c b) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (fun c b => V9 m c b) c w)
      (fun b => V9 m c b) (fun b => V10 m (outs m) c b) ((pdats m 0 c).arrAt · cfg0.N) (hF0 m c) (hrest0 m c)
    rw [Pipeline.unscopedBufs_held] at hjoin
    have ho : (pdats m 0 c).owed (Fin.last (Pipeline.pin (pcfgs (F := F)) adm 0).N) = 0 := owed_eq0 (fun c b => V9 m c b) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

set_option backward.isDefEq.respectTransparency.types false in
/-- Region 1 over the thread state: entered from every unscoped buffer at the contents after the tenth host stretch,
    left with its output array at what the proof data leave and every other buffer unchanged. -/
def reg1 : Pipeline.RegionSeg (pcfgs (F := F)) adm (pdats m) () defs₀ Variants.none noLv lv0 1 where
  win := launch1.win.to₀
  block_pos := launch1.block_pos
  stage_whole := launch1.stage_whole
  K := PEmpty
  osem k := k.elim
  ho := Pipeline.OwnSemFacts.none _
  hbody c := (body_obligation1 (fun c b => V11 m (outsA m) c b) c).loose
  hwaits := Pipeline.hwaits_of_owed_zero _ _ _ _ noLv lv0 1 fun c t => owed_eq1 (fun c b => V11 m (outsA m) c b) c t
  pre c := iprop(StableHlo.held (c : Thread nD τ) (Pipeline.ucRefs τ sig) (V11 m (outs m) c) ∗ restE 1 c)
  post c := iprop(StableHlo.held (c : Thread nD τ) (Pipeline.ucRefs τ sig) (V12 m (outs m) c) ∗ restE 2 c)
  X c := iprop(∃ r, prngReg c r)
  Y c := iprop(∃ r, prngReg c r)
  Z c := Pipeline.unscopedRest (Ix := Unit) (Name := ℕ) (U := UR sig nD τ) (Lvl := ℕ) spec1 c (fun b => V11 m (outs m) c b)
  hentry c := by
    rw [Pipeline.ownSems0_none]
    have hsplit := Pipeline.arrays_of_unscopedBufs (p := 1) (pcfgs (F := F)) adm (pdats m) launch1.win launch1.arr_whole c
      ((pdats m 1 c).share_full fun w => q_eq1 (fun c b => V11 m (outsA m) c b) c w) (fun b => V11 m (outs m) c b) (hA1 m c)
    rw [Pipeline.unscopedBufs_held] at hsplit
    have ho : (pdats m 1 c).owed 0 = 0 := owed_eq1 (fun c b => V11 m (outsA m) c b) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi_eq1 (fun c b => V11 m (outsA m) c b) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Phi_eq1 (fun c b => V11 m (outsA m) c b) c (Fin.last _)]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (fun c b => V11 m (outsA m) c b) c w)
      (fun b => V11 m (outs m) c b) (fun b => V12 m (outs m) c b) ((pdats m 1 c).arrAt · cfg1.N) (hF1 m c) (hrest1 m c)
    rw [Pipeline.unscopedBufs_held] at hjoin
    have ho : (pdats m 1 c).owed (Fin.last (Pipeline.pin (pcfgs (F := F)) adm 1).N) = 0 := owed_eq1 (fun c b => V11 m (outsA m) c b) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

/-! ## The run -/

variable (ρ : Dev nD → PrngReg)

set_option backward.isDefEq.respectTransparency.types false in
/-- Every weakly fair execution of @main from memory `m` with zero counters terminates, and in every final memory each
    unscoped buffer of each core holds the last valuation's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = V12 m (outs m) c b) := by
  refine Pipeline.θ_run_regions_kit_dev (pcfgs (F := F)) adm (pdats m) () cellOf_inj emb₁ defs₀ Variants.none noLv lv0 m ρ main
    (segs m (outs m) Variants.none noLv lv0 restE () (pdats m) (reg0 m) (reg1 m))
    (fun c Q => by
      rewrite [main_chain c, Pipeline.Seg.run_eq_chain,
        show (segs m (outs m) Variants.none noLv lv0 restE () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ restE 0 c))
    (Tₙ := fun c => StableHlo.held (c : Thread nD τ) (Pipeline.ucRefs τ sig) (V12 m (outs m) c))
    (hch := fun c => ⟨.rfl, .rfl, .rfl, .rfl, .rfl, .rfl, .rfl, .rfl, .rfl, .rfl, .rfl, .rfl,
      sep_mono .rfl (by iintro ⟨-, H⟩; iexact H)⟩)
    (hinit := ?_)
    (QY := fun c s => ∀ b ∈ Pipeline.ucRefs τ sig, s.mem ((c : Thread nD τ).1, b) = V12 m (outs m) c b)
    (hfin := fun c s' => ?_) (hQ := fun _ h => h)
  · refine Pipeline.initEach noLv lv0 fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    imodintro
    iapply (pointsTo_read_all (Pipeline.ucRefs τ sig) (fun b => ((c : Thread nD τ).1, b)) (V12 m (outs m) c) s')
    isplitl [Hh] <;> iassumption

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  OrdCont.mono (θ_run defs (onTc (τ := τ) (main (F := F))) ⟨m, fun _ => 0, ρ⟩)
    (fun r h c => ⟨(h c _ (mem_ucRefs main_arg0 (by decide))).trans (V12_main_arg0 m (outs m) c),
      (h c _ (mem_ucRefs main_arg1 (by decide))).trans (V12_main_arg1 m (outs m) c),
      (h c _ (mem_ucRefs main_arg2 (by decide))).trans (V12_main_arg2 m (outs m) c),
      (h c _ (mem_ucRefs main_arg3 (by decide))).trans (V12_main_arg3 m (outs m) c),
      (h c _ (mem_ucRefs main_arg4 (by decide))).trans (V12_main_arg4 m (outs m) c),
      (h c _ (mem_ucRefs main_arg5 (by decide))).trans (V12_main_arg5 m (outs m) c),
      (h c _ (mem_ucRefs main_arg6 (by decide))).trans (V12_main_arg6 m (outs m) c)⟩)
    (run_all m ρ)

/-! ## The two results in the last valuation -/

theorem res_v38 (c : Dev nD) : V12 m (outs m) c main_v38 = outs m 12 main_v38 c := V12_v38 m (outs m) c

theorem res_v32_0 (c : Dev nD) : V12 m (outs m) c main_v32_0 = outs m 10 main_v32_0 c :=
  (V12_of m (outs m) c main_v32_0 (by decide)).trans ((V11_of m (outs m) c main_v32_0 (by decide)).trans (V10_v32_0 m (outs m) c))

end Cert.Kernel.Gen

end
-- ==== Proof.KI.R0Runs.lean ====
/-
  Region 0 — one LSTM-cell step per tile of 2048 rows with a per-half accumulator of the cell sums — what its three
  control cases share. A grid point `t < 128` is tile `t % 64` of half `t / 64`. The body zeroes its 256 x 128
  accumulator where `t % 64 = 0`, adds the tile's one-hot-weighted hidden states to it at every point, and copies it
  into the half's output slab where `t % 64 = 63`; at the other points that slab's buffer is left untouched and is not
  written back. Stated here: each window's block at a point; that every input window's buffer holds its block; the two
  branch conditions in closed form over the grid; where the slab window is idle; the buffers the cases are stated
  over; and the region's resting invariant with the accumulator named.
-/
import proofs.«177821_j68058051772553_2_alg».proof.Proof.Gen.KernelIdeal.Launch
import proofs.«177821_j68058051772553_2_alg».proof.Proof.Gen.KernelIdeal.Skeleton
import proofs.«177821_j68058051772553_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, fetched there or not (an unfetched block's index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's buffer holds its block at every point, fetched there or not (an unfetched block's index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's buffer holds its block at every point, fetched there or not (an unfetched block's index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's buffer holds its block at every point, fetched there or not (an unfetched block's index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's buffer holds its block at every point, fetched there or not (an unfetched block's index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's buffer holds its block at every point, fetched there or not (an unfetched block's index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's buffer holds its block at every point, fetched there or not (an unfetched block's index has not moved). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- "This is the half's first tile": the accumulator is zeroed. -/
abbrev cond0_0 (i : grid0.Coords) : Prop := (Scalar.cmpi .ne (Scalar.extui (Scalar.cmpi .eq (BitVec.ofNat 32 (i 1).val) 0#32)) 0#32) = 1#1
/-- It holds exactly at the points ≡ 0 (mod 64). -/
theorem hcond0_0 : ∀ t : Fin cfg0.N, cond0_0 (grid0.coords t) ↔ t.val % 64 = 0 :=
  (by decide +kernel : ∀ t : Fin grid0.N, cond0_0 (grid0.coords t) ↔ t.val % 64 = 0)

/-- "This is the half's last tile": the accumulator is copied out. -/
abbrev cond0_1 (i : grid0.Coords) : Prop := k0_cond2 i = 1#1
/-- It holds exactly at the points ≡ 63 (mod 64). -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- At a first tile the slab window is idle and is not written back. -/
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
/-- At a middle tile likewise. -/
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
/-- At a last tile the slab window is live: the body stores into it. -/
theorem liveAt0_8_C : ∀ t : Fin cfg0.N, ¬cond0_0 (grid0.coords t) → cond0_1 (grid0.coords t) → cfg0.idle 8 (grid0.coords t) = false := by decide +kernel

/-! ## The buffers the cases are stated over -/

/-- One staging buffer of each output window, through which its contents are stated (the choice does not matter). -/
abbrev VO0_7 : View sig .tc .vmem S2048x128 .f32 := (Memref.whole cc0_stg7_0 : Memref sig .tc .vmem S2048x128 .f32).view
abbrev VO0_8 : View sig .tc .vmem S1x256x128 .f32 := (Memref.whole cc0_stg8_0 : Memref sig .tc .vmem S1x256x128 .f32).view
abbrev ms0_0 (t : Fin cfg0.N) : Memref sig .tc .vmem S2048x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x128 .f32 := win0_8.stage (cfg0.slots t 8)
abbrev hs0_8 (t : Fin cfg0.N) : (ms0_8 t).IsWhole := hstage0_8 ((cfg0.slots t 8).cast nbuf0_8)
/-- The accumulator: a whole scoped buffer of the kernel's own, passed beside the windows, and its view. -/
abbrev scM0_0 : Memref sig .tc .vmem S256x128 .f32 := Memref.whole cc0_scratch0
abbrev VS0_0 : View sig .tc .vmem S256x128 .f32 := scM0_0.view

/-- The core's other scoped buffers that are no staging buffer of this region (the next region's five), each whole at
    some contents: they ride through the region untouched. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's resting invariant with the accumulator as a memref owned at some contents. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_eq]; simp only [scM0_0, owns_whole]; try rfl

end Cert.KernelIdeal.Gen

end
-- ==== Proof.KI.R0RunA.lean ====
/-
  Region 0's body at a half's FIRST tile (points 0 and 64): the accumulator is zeroed, then the tile is added; the slab window is idle.
  On whole staging buffers — the seven inputs at their contents, the new-cell-state buffer at anything, the slab's buffer at contents handed back untouched,
  the accumulator at anything — the body runs to its end holding the inputs as they were and each buffer it stored into with its stores
  written, as a list of pieces (last store first): the lists are found by running the body.
-/
import proofs.«177821_j68058051772553_2_alg».proof.Proof.KI.R0Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the new-cell-state buffer (`.1`), in the slab's buffer (`.2.1`) and in the
    accumulator (`.2.2.1`), with the body's triple (`.2.2.2`). -/
noncomputable def kernelRun0_A (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : cond0_0 i) (hc1 : ¬cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) :
    Σ' (L7 : List (View.Piece (Elt F) S2048x128 .f32)) (L8 : List (View.Piece (Elt F) S1x256x128 .f32)), { LS0 : List (View.Piece (Elt F) S256x128 .f32) //
      ∀ (xi8 : Vec F S1x256x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11) K } := by
  refine ⟨?_, [], ?_, fun xi8 E K => ?run⟩
  case run =>
    simp only [cc0__lstm_kernel_eq_skeleton]; unfold cc0__lstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; iexact HS0

end Cert.KernelIdeal.Gen

end
-- ==== Proof.KI.R0RunB.lean ====
/-
  Region 0's body at a MIDDLE tile: the tile is added to the accumulator; the slab window is idle.
  On whole staging buffers — the seven inputs at their contents, the new-cell-state buffer at anything, the slab's buffer at contents handed back untouched,
  the accumulator at what the point before left — the body runs to its end holding the inputs as they were and each buffer it stored into with its stores
  written, as a list of pieces (last store first): the lists are found by running the body.
-/
import proofs.«177821_j68058051772553_2_alg».proof.Proof.KI.R0Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the new-cell-state buffer (`.1`), in the slab's buffer (`.2.1`) and in the
    accumulator (`.2.2.1`), with the body's triple (`.2.2.2`). -/
noncomputable def kernelRun0_B (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : ¬cond0_0 i) (hc1 : ¬cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (xs0 : Vec F S256x128 .f32) :
    Σ' (L7 : List (View.Piece (Elt F) S2048x128 .f32)) (L8 : List (View.Piece (Elt F) S1x256x128 .f32)), { LS0 : List (View.Piece (Elt F) S256x128 .f32) //
      ∀ (xi8 : Vec F S1x256x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11) K } := by
  refine ⟨?_, [], ?_, fun xi8 E K => ?run⟩
  case run =>
    simp only [cc0__lstm_kernel_eq_skeleton]; unfold cc0__lstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; iexact HS0

end Cert.KernelIdeal.Gen

end
-- ==== Proof.KI.R0RunC.lean ====
/-
  Region 0's body at a half's LAST tile (points 63 and 127): the tile is added to the accumulator, which is then copied into the slab's buffer.
  On whole staging buffers — the seven inputs at their contents, the new-cell-state buffer at anything, the slab's buffer at anything,
  the accumulator at what the point before left — the body runs to its end holding the inputs as they were and each buffer it stored into with its stores
  written, as a list of pieces (last store first): the lists are found by running the body.
-/
import proofs.«177821_j68058051772553_2_alg».proof.Proof.KI.R0Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the new-cell-state buffer (`.1`), in the slab's buffer (`.2.1`) and in the
    accumulator (`.2.2.1`), with the body's triple (`.2.2.2`). -/
noncomputable def kernelRun0_C (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : ¬cond0_0 i) (hc1 : cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (xs0 : Vec F S256x128 .f32) :
    Σ' (L7 : List (View.Piece (Elt F) S2048x128 .f32)) (L8 : List (View.Piece (Elt F) S1x256x128 .f32)), { LS0 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__lstm_kernel_eq_skeleton]; unfold cc0__lstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end Cert.KernelIdeal.Gen

end
-- ==== Proof.KI.R0Frame.lean ====
/-
  Region 0 — one LSTM-cell step per tile with a per-half accumulator of the cell sums: its proof data and body obligation.
  After the body at point `t` the new-cell-state buffer holds the tile's new cell state; the accumulator holds, at a half's
  first tile, zero plus the tile's one-hot-weighted hidden states, and at a later tile what the point before left plus the
  tile's; the slab's buffer holds the accumulator at a half's last tile and is untouched elsewhere. `outsAt0` says so by
  recursion on the point; the region's invariant names the accumulator's contents after each point; the body obligation is
  the case the point is in.
-/
import proofs.«177821_j68058051772553_2_alg».proof.Proof.KI.R0RunA
import proofs.«177821_j68058051772553_2_alg».proof.Proof.KI.R0RunB
import proofs.«177821_j68058051772553_2_alg».proof.Proof.KI.R0RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Each case's stores cover the buffers they are read back from -/

/-- The stores into the new-cell-state buffer tile it, in every case. -/
theorem cover0_A_7 (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : cond0_0 i) (hc1 : ¬cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (y : S2048x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).1 S2048x128.size (by sl_kernel_rfl) y
theorem cover0_B_7 (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : ¬cond0_0 i) (hc1 : ¬cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (xs0 : Vec F S256x128 .f32) (y : S2048x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1 S2048x128.size (by sl_kernel_rfl) y
theorem cover0_C_7 (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : ¬cond0_0 i) (hc1 : cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (xs0 : Vec F S256x128 .f32) (y : S2048x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1 S2048x128.size (by sl_kernel_rfl) y

/-- At a half's last tile the store into the slab's buffer covers it. -/
theorem cover0_C_8 (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : ¬cond0_0 i) (hc1 : cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (xs0 : Vec F S256x128 .f32) (y : S1x256x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1 S1x256x128.size (by sl_kernel_rfl) y

/-- The stores into the accumulator cover it, in every case. -/
theorem scover0_A_0 (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : cond0_0 i) (hc1 : ¬cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (y : S256x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1 S256x128.size (by sl_kernel_rfl) y
theorem scover0_B_0 (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : ¬cond0_0 i) (hc1 : ¬cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (xs0 : Vec F S256x128 .f32) (y : S256x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.2.1 S256x128.size (by sl_kernel_rfl) y
theorem scover0_C_0 (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : ¬cond0_0 i) (hc1 : cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (xs0 : Vec F S256x128 .f32) (y : S256x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1 S256x128.size (by sl_kernel_rfl) y

variable (V : (c : Dev nD) → (b : Ref sig .tc) → Buf (Elt F) ((c : Thread nD τ).loc b))

/-! ## What each case leaves at a point: (new-cell-state buffer, slab buffer, accumulator)

The slab component at a first or middle tile is a placeholder nothing consults: there the window is idle and is
not written back. -/

def outA (c : Dev nD) (t : Fin cfg0.N) (hc0 : cond0_0 (grid0.coords t)) (hc1 : ¬cond0_1 (grid0.coords t)) : Vec F S2048x128 .f32 × Vec F S1x256x128 .f32 × Vec F S256x128 .f32 :=
  (VO0_7.read (Elt F) (VO0_7.writes (Elt F) VO0_7.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk0 V c 0 t) (iblk0 V c 1 t) (iblk0 V c 2 t) (iblk0 V c 3 t) (iblk0 V c 4 t) (iblk0 V c 5 t) (iblk0 V c 6 t)).1),
   VO0_8.read (Elt F) (VO0_8.writes (Elt F) VO0_8.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk0 V c 0 t) (iblk0 V c 1 t) (iblk0 V c 2 t) (iblk0 V c 3 t) (iblk0 V c 4 t) (iblk0 V c 5 t) (iblk0 V c 6 t)).2.1),
   VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk0 V c 0 t) (iblk0 V c 1 t) (iblk0 V c 2 t) (iblk0 V c 3 t) (iblk0 V c 4 t) (iblk0 V c 5 t) (iblk0 V c 6 t)).2.2.1))

def outB (c : Dev nD) (t : Fin cfg0.N) (hc0 : ¬cond0_0 (grid0.coords t)) (hc1 : ¬cond0_1 (grid0.coords t)) (xs0 : Vec F S256x128 .f32) : Vec F S2048x128 .f32 × Vec F S1x256x128 .f32 × Vec F S256x128 .f32 :=
  (VO0_7.read (Elt F) (VO0_7.writes (Elt F) VO0_7.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk0 V c 0 t) (iblk0 V c 1 t) (iblk0 V c 2 t) (iblk0 V c 3 t) (iblk0 V c 4 t) (iblk0 V c 5 t) (iblk0 V c 6 t) xs0).1),
   VO0_8.read (Elt F) (VO0_8.writes (Elt F) VO0_8.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk0 V c 0 t) (iblk0 V c 1 t) (iblk0 V c 2 t) (iblk0 V c 3 t) (iblk0 V c 4 t) (iblk0 V c 5 t) (iblk0 V c 6 t) xs0).2.1),
   VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk0 V c 0 t) (iblk0 V c 1 t) (iblk0 V c 2 t) (iblk0 V c 3 t) (iblk0 V c 4 t) (iblk0 V c 5 t) (iblk0 V c 6 t) xs0).2.2.1))

def outC (c : Dev nD) (t : Fin cfg0.N) (hc0 : ¬cond0_0 (grid0.coords t)) (hc1 : cond0_1 (grid0.coords t)) (xs0 : Vec F S256x128 .f32) : Vec F S2048x128 .f32 × Vec F S1x256x128 .f32 × Vec F S256x128 .f32 :=
  (VO0_7.read (Elt F) (VO0_7.writes (Elt F) VO0_7.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk0 V c 0 t) (iblk0 V c 1 t) (iblk0 V c 2 t) (iblk0 V c 3 t) (iblk0 V c 4 t) (iblk0 V c 5 t) (iblk0 V c 6 t) xs0).1),
   VO0_8.read (Elt F) (VO0_8.writes (Elt F) VO0_8.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk0 V c 0 t) (iblk0 V c 1 t) (iblk0 V c 2 t) (iblk0 V c 3 t) (iblk0 V c 4 t) (iblk0 V c 5 t) (iblk0 V c 6 t) xs0).2.1),
   VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk0 V c 0 t) (iblk0 V c 1 t) (iblk0 V c 2 t) (iblk0 V c 3 t) (iblk0 V c 4 t) (iblk0 V c 5 t) (iblk0 V c 6 t) xs0).2.2.1))

/-! ## What the buffers hold after each point -/

/-- After the body at position `n`: the case the closed forms select, the accumulator of a later tile taken from what
    position `n - 1` left. -/
def outsAt0 (c : Dev nD) : (n : ℕ) → n < cfg0.N → Vec F S2048x128 .f32 × Vec F S1x256x128 .f32 × Vec F S256x128 .f32
  | 0, hn => outA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 64 = 0 then
      if h1 : (n + 1) % 64 = 63 then
        False.elim (by omega)
      else
        outA V c ⟨n + 1, hn⟩ ((hcond0_0 ⟨n + 1, hn⟩).mpr h0) (fun h => h1 ((hcond0_1 ⟨n + 1, hn⟩).mp h))
    else
      if h1 : (n + 1) % 64 = 63 then
        outC V c ⟨n + 1, hn⟩ (fun h => h0 ((hcond0_0 ⟨n + 1, hn⟩).mp h)) ((hcond0_1 ⟨n + 1, hn⟩).mpr h1) (outsAt0 c n (Nat.lt_of_succ_lt hn)).2.2
      else
        outB V c ⟨n + 1, hn⟩ (fun h => h0 ((hcond0_0 ⟨n + 1, hn⟩).mp h)) (fun h => h1 ((hcond0_1 ⟨n + 1, hn⟩).mp h)) (outsAt0 c n (Nat.lt_of_succ_lt hn)).2.2

theorem outsAt0_A (c : Dev nD) (t : Fin cfg0.N) (h0 : t.val % 64 = 0) (h1 : ¬t.val % 64 = 63) :
    outsAt0 V c t.val t.isLt = outA V c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 64 = 0) (h1 : ¬t.val % 64 = 63) :
    outsAt0 V c t.val t.isLt = outB V c t (fun h => h0 ((hcond0_0 t).mp h)) (fun h => h1 ((hcond0_1 t).mp h))
      (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 64 = 0) (h1 : t.val % 64 = 63) :
    outsAt0 V c t.val t.isLt = outC V c t (fun h => h0 ((hcond0_0 t).mp h)) ((hcond0_1 t).mpr h1)
      (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator named after each point -/

/-- Before the first point the resting invariant (the accumulator at anything); before point `n + 1` the accumulator at
    what point `n` left, the bystander buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ rest0 (F := F) c) ∗ (∃ r, prngReg c r)) := by
  cases n with
  | zero => exact absurd rfl hz
  | succ n => rfl

/-! ## The proof data -/

/-- Pipeline 0's proof data on core `c`: the arrays as the region finds them; after the body each input's buffer at its
    block and the two outputs' at `outsAt0`'s components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by dsimp only [dat0]
theorem q_eq0 (c : Dev nD) (w : Fin cfg0.W) : (dat0 V c).q w = fullShare := rfl
theorem owed_eq0 (c : Dev nD) (t : Fin (cfg0.N + 1)) : (dat0 V c).owed t = 0 := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
/-- The body at any point. The inputs' buffers hold their blocks; the closed forms say which case the point is in; the
    invariant hands the body the accumulator at what the point before left (at anything at the grid's first point) and
    takes it back at this point's contents; an idle slab buffer goes back untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  by_cases h0 : t.val % 64 = 0
  · by_cases h1 : t.val % 64 = 63
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [Dat.leavesExact_idle (dat0 V c) 8 t (idleAt0_8_A t ((hcond0_0 t).mpr h0) (fun h => h1 ((hcond0_1 t).mp h))) (noFlush0_8_A t ((hcond0_0 t).mpr h0) (fun h => h1 ((hcond0_1 t).mp h)))]
      rw [outsAt0_A V c t h0 h1]
      unfold outA; (try dsimp only)
      by_cases hz : t.val = 0
      · rw [PhiS_castSucc V c t, PhiS_zero V c _ _ hz, PhiA0_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _)
        iexists _; iexact H8
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexists _; iexact HS0
        iintro ⟨H0, H1, H2, H3, H4, H5, H6, ⟨%e7, H7⟩, H8, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _)
        iexists _; iexact H8

  · by_cases h1 : t.val % 64 = 63
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8_C t (fun h => h0 ((hcond0_0 t).mp h)) ((hcond0_1 t).mpr h1)], after0_8]
      rw [outsAt0_C V c t h0 h1]
      unfold outC; (try dsimp only)
      by_cases hz : t.val = 0
      · exfalso; omega
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        iintro ⟨H0, H1, H2, H3, H4, H5, H6, ⟨%e7, H7⟩, ⟨%e8, H8⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [Dat.leavesExact_idle (dat0 V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B V c t h0 h1]
      unfold outB; (try dsimp only)
      by_cases hz : t.val = 0
      · exfalso; omega
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _)
        iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the resting one back: the accumulator's named contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 128 := N_0; omega)

end Cert.KernelIdeal.Gen

end
-- ==== Proof.KI.R1Frame.lean ====
import proofs.«177821_j68058051772553_2_alg».proof.Proof.Gen.KernelIdeal.Launch
import proofs.«177821_j68058051772553_2_alg».proof.Proof.Gen.KernelIdeal.Skeleton
import proofs.«177821_j68058051772553_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is at this parameter
variable (V : (c : Dev nD) → (b : Ref sig .tc) → Buf (Elt F) ((c : Thread nD τ).loc b))

/-! # Region 1: each row's cell sum, selected by a one-hot matrix product

Window 0 carries the rows' cell numbers (a block of 4096 per point), window 1 the table of per-cell sums (one block,
moved in at the first point and unchanged after), window 2 the output rows. At a point the body reads windows 0 and 1
whole and overwrites the whole of window 2's buffer with the product of the rows' one-hot matrix and the table. -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, for any proof data whose array is `V`'s and whose
    body leaves the block in place: the window is uncut and never idle, and where it is not moved in its index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point: it is moved in at the first point only, and at every
    later point its block index is the one before, so the buffer still holds that same block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer, whole -/

abbrev r1_0 : Rect S4096 := Rect.unit (s := S4096) ![0] S4096.size inb_S4096_S4096_0
abbrev r1_1 : Rect S256x128 := Rect.unit (s := S256x128) ![0, 0] S256x128.size inb_S256x128_S256x128_0_0
abbrev r1_2 : Rect S4096x128 := Rect.unit (s := S4096x128) ![0, 0] S4096x128.size inb_S4096x128_S4096x128_0_0

/-! ## What the body leaves in the output window's buffer -/

/-- Window 2's buffer after the body, from the two input blocks: its one store, of the whole rectangle. -/
def out1_2 (x0 : Vec F S4096 .i32) (x1 : Vec F S256x128 .f32) : Vec F S4096x128 .f32 :=
  View.canon [⟨r1_2, k1_pay1 (View.ld x0 r1_0) (View.ld x1 r1_1)⟩]

/-- The one stored rectangle is the whole buffer, so it covers it. -/
theorem cover1_2 (p0 : Vec F S4096x128 .f32) (y : S4096x128.Idx) :
    ∃ pc ∈ ([⟨r1_2, p0⟩] : List (View.Piece (Elt F) S4096x128 .f32)), y ∈ pc.1.set :=
  View.cover_of_tiled [⟨r1_2, p0⟩] S4096x128.size (by rfl) y

/-! ## The body's triple -/

set_option maxHeartbeats 1000000 in
/-- The body on whole buffers, the two inputs' at contents `x0`, `x1` and the output's at anything, runs to the continuation
    holding the inputs' as they were and the output's at `out1_2 x0 x1`: the output buffer's own load is of an unused value. -/
theorem sound_kernel1 (c : Dev nD) (E : Set ℕ) (i : grid1.Coords)
    (arg0 : Memref sig .tc .vmem S4096 .i32) (harg0 : arg0.IsWhole) (arg1 : Memref sig .tc .vmem S256x128 .f32) (harg1 : arg1.IsWhole)
    (arg2 : Memref sig .tc .vmem S4096x128 .f32) (harg2 : arg2.IsWhole)
    (x0 : Vec F S4096 .i32) (x1 : Vec F S256x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__gather_kernel i arg0 harg0 arg1 harg1 arg2 harg2) K := by
  simp only [cc1__gather_kernel_eq_skeleton]; unfold cc1__gather_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region on core `c`: the arrays as the region finds them; after the body at point `t` each input's
    buffer at its block and the output's at `out1_2` of the two input blocks; the invariant is the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by dsimp only [dat1]
theorem q_eq1 (c : Dev nD) (w : Fin cfg1.W) : (dat1 V c).q w = fullShare := rfl
theorem owed_eq1 (c : Dev nD) (t : Fin (cfg1.N + 1)) : (dat1 V c).owed t = 0 := rfl
theorem Phi_eq1 (c : Dev nD) (t : Fin (cfg1.N + 1)) : (dat1 V c).Φ t = (Pipeline.ΦA spec1 c : sProp 𝕄) := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current buffer holds its block at every point, moved in there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.Run.lean ====
/- The run of @main: ten host stretches and two kernel regions composed into one statement about the final memory. Each
   region's output arrays are named by what its proof data leave at the last grid point; every other unscoped buffer is
   followed through the host stretches. The result: on every core, each unscoped buffer ends at the last valuation. -/
import proofs.«177821_j68058051772553_2_alg».proof.Proof.Gen.KernelIdeal.Regions
import proofs.«177821_j68058051772553_2_alg».proof.Proof.KI.R0Frame
import proofs.«177821_j68058051772553_2_alg».proof.Proof.KI.R1Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-! ## What the two regions leave in their output arrays -/

/-- Region 0's two output arrays after its last grid point, read off its proof data at the contents the region is
    entered from; any other reference keeps what it held there. -/
def outsA : Outs (F := F) := fun _ r c =>
  if h : r = main_v32_0 then
    h.symm ▸ (show Buf (Elt F) ((c : Thread nD τ).loc main_v32_0) from (dat0 (fun c b => V9 m c b) c).arrAt 7 cfg0.N)
  else if h' : r = main_v32_1 then
    h'.symm ▸ (show Buf (Elt F) ((c : Thread nD τ).loc main_v32_1) from (dat0 (fun c b => V9 m c b) c).arrAt 8 cfg0.N)
  else V9 m c r

theorem outsA_v32_0 (J : ℕ) (c : Dev nD) : outsA m J main_v32_0 c = (dat0 (fun c b => V9 m c b) c).arrAt 7 cfg0.N := by
  unfold outsA; rw [dif_pos rfl]

theorem outsA_v32_1 (J : ℕ) (c : Dev nD) : outsA m J main_v32_1 c = (dat0 (fun c b => V9 m c b) c).arrAt 8 cfg0.N := by
  unfold outsA; rw [dif_neg (by decide), dif_pos rfl]

/-- Both regions' output arrays: region 1's after its last grid point, entered from the contents the second host
    stretch leaves behind region 0's outputs; region 0's as above. -/
def outs : Outs (F := F) := fun J r c =>
  if h : r = main_v38 then
    h.symm ▸ (show Buf (Elt F) ((c : Thread nD τ).loc main_v38) from (dat1 (fun c b => V11 m (outsA m) c b) c).arrAt 2 cfg1.N)
  else outsA m J r c

theorem outs_v38 (J : ℕ) (c : Dev nD) : outs m J main_v38 c = (dat1 (fun c b => V11 m (outsA m) c b) c).arrAt 2 cfg1.N := by
  unfold outs; rw [dif_pos rfl]

theorem outs_of_ne (J : ℕ) (r : Ref sig .tc) (c : Dev nD) (h : r ≠ main_v38) : outs m J r c = outsA m J r c := by
  unfold outs; rw [dif_neg h]

theorem outs_v32_0 (J : ℕ) (c : Dev nD) : outs m J main_v32_0 c = (dat0 (fun c b => V9 m c b) c).arrAt 7 cfg0.N :=
  (outs_of_ne m J main_v32_0 c (by decide)).trans (outsA_v32_0 m J c)

theorem outs_v32_1 (J : ℕ) (c : Dev nD) : outs m J main_v32_1 c = (dat0 (fun c b => V9 m c b) c).arrAt 8 cfg0.N :=
  (outs_of_ne m J main_v32_1 c (by decide)).trans (outsA_v32_1 m J c)

/-- The valuations up to region 1's entry read the outputs only at region 0's two arrays, where both stages agree. -/
theorem V10_outs (c : Dev nD) : V10 m (outs m) c = V10 m (outsA m) c := by
  show Function.update (Function.update (V9 m c) main_v32_0 (outs m 10 main_v32_0 c)) main_v32_1 (outs m 10 main_v32_1 c) = _
  rw [outs_of_ne m 10 main_v32_0 c (by decide), outs_of_ne m 10 main_v32_1 c (by decide)]

theorem V11_outs (c : Dev nD) : V11 m (outs m) c = V11 m (outsA m) c := by
  show StableHlo.after hostOps1 (V10 m (outs m) c) = _
  rw [V10_outs]

/-! ## The valuations at the regions' output arrays -/

theorem V10_v32_0 (o : Outs (F := F)) (c : Dev nD) : V10 m o c main_v32_0 = o 10 main_v32_0 c := by
  show Function.update (Function.update (V9 m c) main_v32_0 (o 10 main_v32_0 c)) main_v32_1 (o 10 main_v32_1 c) main_v32_0 = _
  rw [Function.update_of_ne (StableHlo.devRef_ne_of_ne (by decide : (main_v32_0 : Ref sig .tc) ≠ main_v32_1)), Function.update_self]

theorem V10_v32_1 (o : Outs (F := F)) (c : Dev nD) : V10 m o c main_v32_1 = o 10 main_v32_1 c := by
  show Function.update (Function.update (V9 m c) main_v32_0 (o 10 main_v32_0 c)) main_v32_1 (o 10 main_v32_1 c) main_v32_1 = _
  rw [Function.update_self]

theorem V12_v38 (o : Outs (F := F)) (c : Dev nD) : V12 m o c main_v38 = o 12 main_v38 c := by
  show Function.update (V11 m o c) main_v38 (o 12 main_v38 c) main_v38 = _
  rw [Function.update_self]

/-! ## The proof data family and the thread state -/

/-- Every pipeline's proof data, each at the contents its region is entered from. -/
def pdats : (p : Fin 2) → (c : Dev nD) → Pipeline.Dat τ (Elt F) Unit ℕ (UR sig nD τ) ℕ (cfgs p) c
  | ⟨0, _⟩ => fun c => dat0 (fun c b => V9 m c b) c
  | ⟨1, _⟩ => fun c => dat1 (fun c b => V11 m (outsA m) c b) c

/-- No core owes another anything: no level is assigned. -/
abbrev noLv : GSem nD τ sig → Finset Unit := fun _ => ∅
abbrev lv0 : GSem nD τ sig → Unit → ℕ := fun _ _ => 0
/-- What rides beside the buffers through every item: the generator register at some state, and nothing owed. -/
abbrev restR (c : Dev nD) : sProp 𝕄 := iprop((∃ r, prngReg c r) ∗ ∃ W, owes (c : Thread nD τ) (0 : CellTallies nD τ sig Unit) W)
abbrev restE : Fin 3 → Dev nD → sProp 𝕄 := fun _ c => restR c

theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0's arrays at its exit -/

/-- An input window's array is never written back: at the region's exit it holds what the region found. -/
theorem arr0_in (c : Dev nD) (w : Fin 9) (hin : (cfg0.win w).isOut = false) (r : Ref sig .tc) (hr : Pipeline.arrRef spec0 w = r)
    (hnot : r ∉ ([main_v32_0, main_v32_1] : List (Ref sig .tc))) :
    (dat0 (fun c b => V9 m c b) c).arrAt w cfg0.N = V10 m (outs m) c (Pipeline.arrRef spec0 w) := by
  subst hr
  exact ((dat0 (fun c b => V9 m c b) c).arrAt_in w hin _).trans ((A_eq0 (fun c b => V9 m c b) c w).trans (V10_of m (outs m) c _ hnot).symm)

theorem hF0_0 (c : Dev nD) : (dat0 (fun c b => V9 m c b) c).arrAt 0 cfg0.N = V10 m (outs m) c (Pipeline.arrRef spec0 0) :=
  arr0_in m c 0 rfl main_arg0 rfl (by decide)
theorem hF0_1 (c : Dev nD) : (dat0 (fun c b => V9 m c b) c).arrAt 1 cfg0.N = V10 m (outs m) c (Pipeline.arrRef spec0 1) :=
  arr0_in m c 1 rfl main_arg1 rfl (by decide)
theorem hF0_2 (c : Dev nD) : (dat0 (fun c b => V9 m c b) c).arrAt 2 cfg0.N = V10 m (outs m) c (Pipeline.arrRef spec0 2) :=
  arr0_in m c 2 rfl main_arg2 rfl (by decide)
theorem hF0_3 (c : Dev nD) : (dat0 (fun c b => V9 m c b) c).arrAt 3 cfg0.N = V10 m (outs m) c (Pipeline.arrRef spec0 3) :=
  arr0_in m c 3 rfl main_v26 rfl (by decide)
theorem hF0_4 (c : Dev nD) : (dat0 (fun c b => V9 m c b) c).arrAt 4 cfg0.N = V10 m (outs m) c (Pipeline.arrRef spec0 4) :=
  arr0_in m c 4 rfl main_v28 rfl (by decide)
theorem hF0_5 (c : Dev nD) : (dat0 (fun c b => V9 m c b) c).arrAt 5 cfg0.N = V10 m (outs m) c (Pipeline.arrRef spec0 5) :=
  arr0_in m c 5 rfl main_v30 rfl (by decide)
theorem hF0_6 (c : Dev nD) : (dat0 (fun c b => V9 m c b) c).arrAt 6 cfg0.N = V10 m (outs m) c (Pipeline.arrRef spec0 6) :=
  arr0_in m c 6 rfl main_v31 rfl (by decide)
theorem hF0_7 (c : Dev nD) : (dat0 (fun c b => V9 m c b) c).arrAt 7 cfg0.N = V10 m (outs m) c (Pipeline.arrRef spec0 7) :=
  ((V10_v32_0 m (outs m) c).trans (outs_v32_0 m 10 c)).symm
theorem hF0_8 (c : Dev nD) : (dat0 (fun c b => V9 m c b) c).arrAt 8 cfg0.N = V10 m (outs m) c (Pipeline.arrRef spec0 8) :=
  ((V10_v32_1 m (outs m) c).trans (outs_v32_1 m 10 c)).symm

/-- At region 0's exit each input window's array is as entered, each output's is what the proof data leave. -/
theorem hF0 (c : Dev nD) : ∀ w : Fin 9, (pdats m 0 c).arrAt w cfg0.N = V10 m (outs m) c (Pipeline.arrRef spec0 w) := fun
  | 0 => hF0_0 m c
  | 1 => hF0_1 m c
  | 2 => hF0_2 m c
  | 3 => hF0_3 m c
  | 4 => hF0_4 m c
  | 5 => hF0_5 m c
  | 6 => hF0_6 m c
  | 7 => hF0_7 m c
  | 8 => hF0_8 m c
  | ⟨_ + 9, h⟩ => absurd h (Nat.not_lt.2 (Nat.le_add_left _ _))

/-- Off region 0's arrays nothing changes across it. -/
theorem hrest0 (c : Dev nD) : ∀ b, b ∉ Finset.univ.image (Pipeline.arrRef spec0) → V10 m (outs m) c b = V9 m c b :=
  fun b hb => V10_of m (outs m) c b fun hmem => by
    rcases List.mem_cons.mp hmem with rfl | hmem
    · exact hb (Finset.mem_image.mpr ⟨7, Finset.mem_univ _, rfl⟩)
    · rcases List.mem_cons.mp hmem with rfl | hmem
      · exact hb (Finset.mem_image.mpr ⟨8, Finset.mem_univ _, rfl⟩)
      · exact absurd hmem List.not_mem_nil

/-! ## Region 1's arrays at its entry and exit -/

theorem hA1 (c : Dev nD) (w : Fin 3) : (pdats m 1 c).A w = V11 m (outs m) c (Pipeline.arrRef spec1 w) :=
  (A_eq1 (fun c b => V11 m (outsA m) c b) c w).trans (congrFun (V11_outs m c).symm _)

theorem hF1 (c : Dev nD) : ∀ w : Fin 3, (pdats m 1 c).arrAt w cfg1.N = V12 m (outs m) c (Pipeline.arrRef spec1 w)
  | 0 => ((pdats m 1 c).arrAt_in 0 rfl _).trans ((hA1 m c 0).trans (V12_of m (outs m) c main_v26 (by decide)).symm)
  | 1 => ((pdats m 1 c).arrAt_in 1 rfl _).trans ((hA1 m c 1).trans (V12_of m (outs m) c main_v37 (by decide)).symm)
  | 2 => ((V12_v38 m (outs m) c).trans (outs_v38 m 12 c)).symm
  | ⟨_ + 3, h⟩ => absurd h (Nat.not_lt.2 (Nat.le_add_left _ _))

theorem hrest1 (c : Dev nD) : ∀ b, b ∉ Finset.univ.image (Pipeline.arrRef spec1) → V12 m (outs m) c b = V11 m (outs m) c b :=
  fun b hb => V12_of m (outs m) c b fun hmem => by
    rcases List.mem_cons.mp hmem with rfl | hmem
    · exact hb (Finset.mem_image.mpr ⟨2, Finset.mem_univ _, rfl⟩)
    · exact absurd hmem List.not_mem_nil

/-! ## The regions as segments -/

set_option backward.isDefEq.respectTransparency.types false in
/-- Region 0 over the thread state: entered from every unscoped buffer at the contents after the ninth host stretch,
    left with its two output arrays at what the proof data leave and every other buffer unchanged. -/
def reg0 : Pipeline.RegionSeg (pcfgs (F := F)) adm (pdats m) () defs₀ Variants.none noLv lv0 0 where
  win := launch0.win.to₀
  block_pos := launch0.block_pos
  stage_whole := launch0.stage_whole
  K := PEmpty
  osem k := k.elim
  ho := Pipeline.OwnSemFacts.none _
  hbody c := (body_obligation0 (fun c b => V9 m c b) c).loose
  hwaits := Pipeline.hwaits_of_owed_zero _ _ _ _ noLv lv0 0 fun c t => owed_eq0 (fun c b => V9 m c b) c t
  pre c := iprop(StableHlo.held (c : Thread nD τ) (Pipeline.ucRefs τ sig) (V9 m c) ∗ restE 0 c)
  post c := iprop(StableHlo.held (c : Thread nD τ) (Pipeline.ucRefs τ sig) (V10 m (outs m) c) ∗ restE 1 c)
  X c := iprop(∃ r, prngReg c r)
  Y c := iprop(∃ r, prngReg c r)
  Z c := Pipeline.unscopedRest (Ix := Unit) (Name := ℕ) (U := UR sig nD τ) (Lvl := ℕ) spec0 c (fun b => V9 m c b)
  hentry c := by
    rw [Pipeline.ownSems0_none]
    have hsplit := Pipeline.arrays_of_unscopedBufs (p := 0) (pcfgs (F := F)) adm (pdats m) launch0.win launch0.arr_whole c
      ((pdats m 0 c).share_full fun w => q_eq0 (fun c b => V9 m c b) c w) (fun b => V9 m c b) fun w => A_eq0 (fun c b => V9 m c b) c w
    rw [Pipeline.unscopedBufs_held] at hsplit
    have ho : (pdats m 0 c).owed 0 = 0 := owed_eq0 (fun c b => V9 m c b) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun _ _ => Or.inl trivial
      iexact HO
    isplitl [Hp]; · iexact Hp
    iexact Hrest
  hin c := by
    refine .trans ?_ (hin0 (fun c b => V9 m c b) c)
    unfold Pipeline.ΦA
    iintro ⟨Hp, -, Hr⟩
    isplitl [Hr]; · iexact Hr
    iexact Hp
  hout c := by
    refine (hout0 (fun c b => V9 m c b) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (fun c b => V9 m c b) c w)
      (fun b => V9 m c b) (fun b => V10 m (outs m) c b) ((pdats m 0 c).arrAt · cfg0.N) (hF0 m c) (hrest0 m c)
    rw [Pipeline.unscopedBufs_held] at hjoin
    have ho : (pdats m 0 c).owed (Fin.last (Pipeline.pin (pcfgs (F := F)) adm 0).N) = 0 := owed_eq0 (fun c b => V9 m c b) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

set_option backward.isDefEq.respectTransparency.types false in
/-- Region 1 over the thread state: entered from every unscoped buffer at the contents after the tenth host stretch,
    left with its output array at what the proof data leave and every other buffer unchanged. -/
def reg1 : Pipeline.RegionSeg (pcfgs (F := F)) adm (pdats m) () defs₀ Variants.none noLv lv0 1 where
  win := launch1.win.to₀
  block_pos := launch1.block_pos
  stage_whole := launch1.stage_whole
  K := PEmpty
  osem k := k.elim
  ho := Pipeline.OwnSemFacts.none _
  hbody c := (body_obligation1 (fun c b => V11 m (outsA m) c b) c).loose
  hwaits := Pipeline.hwaits_of_owed_zero _ _ _ _ noLv lv0 1 fun c t => owed_eq1 (fun c b => V11 m (outsA m) c b) c t
  pre c := iprop(StableHlo.held (c : Thread nD τ) (Pipeline.ucRefs τ sig) (V11 m (outs m) c) ∗ restE 1 c)
  post c := iprop(StableHlo.held (c : Thread nD τ) (Pipeline.ucRefs τ sig) (V12 m (outs m) c) ∗ restE 2 c)
  X c := iprop(∃ r, prngReg c r)
  Y c := iprop(∃ r, prngReg c r)
  Z c := Pipeline.unscopedRest (Ix := Unit) (Name := ℕ) (U := UR sig nD τ) (Lvl := ℕ) spec1 c (fun b => V11 m (outs m) c b)
  hentry c := by
    rw [Pipeline.ownSems0_none]
    have hsplit := Pipeline.arrays_of_unscopedBufs (p := 1) (pcfgs (F := F)) adm (pdats m) launch1.win launch1.arr_whole c
      ((pdats m 1 c).share_full fun w => q_eq1 (fun c b => V11 m (outsA m) c b) c w) (fun b => V11 m (outs m) c b) (hA1 m c)
    rw [Pipeline.unscopedBufs_held] at hsplit
    have ho : (pdats m 1 c).owed 0 = 0 := owed_eq1 (fun c b => V11 m (outsA m) c b) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi_eq1 (fun c b => V11 m (outsA m) c b) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Phi_eq1 (fun c b => V11 m (outsA m) c b) c (Fin.last _)]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (fun c b => V11 m (outsA m) c b) c w)
      (fun b => V11 m (outs m) c b) (fun b => V12 m (outs m) c b) ((pdats m 1 c).arrAt · cfg1.N) (hF1 m c) (hrest1 m c)
    rw [Pipeline.unscopedBufs_held] at hjoin
    have ho : (pdats m 1 c).owed (Fin.last (Pipeline.pin (pcfgs (F := F)) adm 1).N) = 0 := owed_eq1 (fun c b => V11 m (outsA m) c b) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

/-! ## The run -/

variable (ρ : Dev nD → PrngReg)

set_option backward.isDefEq.respectTransparency.types false in
/-- Every weakly fair execution of @main from memory `m` with zero counters terminates, and in every final memory each
    unscoped buffer of each core holds the last valuation's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = V12 m (outs m) c b) := by
  refine Pipeline.θ_run_regions_kit_dev (pcfgs (F := F)) adm (pdats m) () cellOf_inj emb₁ defs₀ Variants.none noLv lv0 m ρ main
    (segs m (outs m) Variants.none noLv lv0 restE () (pdats m) (reg0 m) (reg1 m))
    (fun c Q => by
      rewrite [main_chain c, Pipeline.Seg.run_eq_chain,
        show (segs m (outs m) Variants.none noLv lv0 restE () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ restE 0 c))
    (Tₙ := fun c => StableHlo.held (c : Thread nD τ) (Pipeline.ucRefs τ sig) (V12 m (outs m) c))
    (hch := fun c => ⟨.rfl, .rfl, .rfl, .rfl, .rfl, .rfl, .rfl, .rfl, .rfl, .rfl, .rfl, .rfl,
      sep_mono .rfl (by iintro ⟨-, H⟩; iexact H)⟩)
    (hinit := ?_)
    (QY := fun c s => ∀ b ∈ Pipeline.ucRefs τ sig, s.mem ((c : Thread nD τ).1, b) = V12 m (outs m) c b)
    (hfin := fun c s' => ?_) (hQ := fun _ h => h)
  · refine Pipeline.initEach noLv lv0 fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    imodintro
    iapply (pointsTo_read_all (Pipeline.ucRefs τ sig) (fun b => ((c : Thread nD τ).1, b)) (V12 m (outs m) c) s')
    isplitl [Hh] <;> iassumption

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  OrdCont.mono (θ_run defs (onTc (τ := τ) (main (F := F))) ⟨m, fun _ => 0, ρ⟩)
    (fun r h c => ⟨(h c _ (mem_ucRefs main_arg0 (by decide))).trans (V12_main_arg0 m (outs m) c),
      (h c _ (mem_ucRefs main_arg1 (by decide))).trans (V12_main_arg1 m (outs m) c),
      (h c _ (mem_ucRefs main_arg2 (by decide))).trans (V12_main_arg2 m (outs m) c),
      (h c _ (mem_ucRefs main_arg3 (by decide))).trans (V12_main_arg3 m (outs m) c),
      (h c _ (mem_ucRefs main_arg4 (by decide))).trans (V12_main_arg4 m (outs m) c),
      (h c _ (mem_ucRefs main_arg5 (by decide))).trans (V12_main_arg5 m (outs m) c),
      (h c _ (mem_ucRefs main_arg6 (by decide))).trans (V12_main_arg6 m (outs m) c)⟩)
    (run_all m ρ)

/-! ## The two results in the last valuation -/

theorem res_v38 (c : Dev nD) : V12 m (outs m) c main_v38 = outs m 12 main_v38 c := V12_v38 m (outs m) c

theorem res_v32_0 (c : Dev nD) : V12 m (outs m) c main_v32_0 = outs m 10 main_v32_0 c :=
  (V12_of m (outs m) c main_v32_0 (by decide)).trans ((V11_of m (outs m) c main_v32_0 (by decide)).trans (V10_v32_0 m (outs m) c))

end Cert.KernelIdeal.Gen

end
-- ==== Proof.KI.HostVals.lean ====
/-
  The host operations around the two kernel regions, read on the extended reals.

  * No host operation writes an argument array: when region 0 is entered every argument is as launched.
  * The cell numbers the first region is given are computed from the positions by the same operations, on the same
    array, as the reference program's cell numbers: the two coordinates clipped to [-10, 10], shifted, scaled to the
    16 x 16 grid, floored, converted to integers, clipped to [0, 15], and combined as 16·ix + iy.
  * The weight matrices the first region is given are the transposes of the argument matrices (the change of float
    format is the identity on the extended reals), and the bias is the sum of the two bias vectors.
  * After the first region the two halves' tables of sums are added entry by entry.
-/
import proofs.«177821_j68058051772553_2_alg».proof.Proof.Gen.KernelIdeal.Regions
import proofs.«177821_j68058051772553_2_alg».proof.Proof.Gen.ReferenceIdeal.Read
import Idealize.ShloMosaic.Lib.Pipeline.Value
import Idealize.ShloMosaic.Lib.ValueIdx

noncomputable section

namespace Cert.KernelIdeal.HostVals

open Cert.KernelIdeal Cert.KernelIdeal.Gen Idealize.ShloMosaic Idealize.ShloMosaic.TcCoe
open Idealize.SL.Sem Idealize.ShloMosaic.StableHlo Idealize.ShloMosaic.ValueIdx

variable (m : (ℓ : Loc nD τ sig) → Buf (Elt Ideal) ℓ)

/-! ## The arguments are as launched -/

/-- Argument 0 when the last host stretch before region 0 begins. -/
theorem V8_main_arg0 (c : Dev nD) : V8 m c main_arg0 = m ((c : Thread nD τ).loc main_arg0) :=
  (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
/-- Argument 0 when region 0 is entered. -/
theorem V9_main_arg0 (c : Dev nD) : V9 m c main_arg0 = m ((c : Thread nD τ).loc main_arg0) :=
  (V9_of m c main_arg0 (by decide)).trans (V8_main_arg0 m c)

/-- Argument 1 when the last host stretch before region 0 begins. -/
theorem V8_main_arg1 (c : Dev nD) : V8 m c main_arg1 = m ((c : Thread nD τ).loc main_arg1) :=
  (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
/-- Argument 1 when region 0 is entered. -/
theorem V9_main_arg1 (c : Dev nD) : V9 m c main_arg1 = m ((c : Thread nD τ).loc main_arg1) :=
  (V9_of m c main_arg1 (by decide)).trans (V8_main_arg1 m c)

/-- Argument 2 when the last host stretch before region 0 begins. -/
theorem V8_main_arg2 (c : Dev nD) : V8 m c main_arg2 = m ((c : Thread nD τ).loc main_arg2) :=
  (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
/-- Argument 2 when region 0 is entered. -/
theorem V9_main_arg2 (c : Dev nD) : V9 m c main_arg2 = m ((c : Thread nD τ).loc main_arg2) :=
  (V9_of m c main_arg2 (by decide)).trans (V8_main_arg2 m c)

/-- Argument 3 when the last host stretch before region 0 begins. -/
theorem V8_main_arg3 (c : Dev nD) : V8 m c main_arg3 = m ((c : Thread nD τ).loc main_arg3) :=
  (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl
/-- Argument 3 when region 0 is entered. -/
theorem V9_main_arg3 (c : Dev nD) : V9 m c main_arg3 = m ((c : Thread nD τ).loc main_arg3) :=
  (V9_of m c main_arg3 (by decide)).trans (V8_main_arg3 m c)

/-- Argument 4 when the last host stretch before region 0 begins. -/
theorem V8_main_arg4 (c : Dev nD) : V8 m c main_arg4 = m ((c : Thread nD τ).loc main_arg4) :=
  (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl
/-- Argument 4 when region 0 is entered. -/
theorem V9_main_arg4 (c : Dev nD) : V9 m c main_arg4 = m ((c : Thread nD τ).loc main_arg4) :=
  (V9_of m c main_arg4 (by decide)).trans (V8_main_arg4 m c)

/-- Argument 5 when the last host stretch before region 0 begins. -/
theorem V8_main_arg5 (c : Dev nD) : V8 m c main_arg5 = m ((c : Thread nD τ).loc main_arg5) :=
  (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl
/-- Argument 5 when region 0 is entered. -/
theorem V9_main_arg5 (c : Dev nD) : V9 m c main_arg5 = m ((c : Thread nD τ).loc main_arg5) :=
  (V9_of m c main_arg5 (by decide)).trans (V8_main_arg5 m c)

/-- Argument 6 when the last host stretch before region 0 begins. -/
theorem V8_main_arg6 (c : Dev nD) : V8 m c main_arg6 = m ((c : Thread nD τ).loc main_arg6) :=
  (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl
/-- Argument 6 when region 0 is entered. -/
theorem V9_main_arg6 (c : Dev nD) : V9 m c main_arg6 = m ((c : Thread nD τ).loc main_arg6) :=
  (V9_of m c main_arg6 (by decide)).trans (V8_main_arg6 m c)

theorem V2_main_arg0 (c : Dev nD) : V2 m c main_arg0 = m ((c : Thread nD τ).loc main_arg0) :=
  (V2_of m c main_arg0 (by decide)).trans <| (V1_of m c main_arg0 (by decide)).trans rfl

/-! ## The cell numbers, stretch by stretch

Each host stretch is read over an arbitrary valuation `W` of the buffers before it; the buffers it reads are named by
hypotheses, so that no earlier stretch is opened. -/

theorem st0_v1 (W : Valuation τ sig (Elt Ideal)) :
    (StableHlo.after (hostOps0 (F := Ideal)) W (Proc.devRef .tc main_v1) : (⟨S262144, .f32⟩ : BufTy).Contents (Elt Ideal)) = Cert.ReferenceIdeal.Read.val_main_v40 (F := Ideal) (W (Proc.devRef .tc main_arg0)) := by
  after_results; rfl

theorem st0_cst (W : Valuation τ sig (Elt Ideal)) :
    (StableHlo.after (hostOps0 (F := Ideal)) W (Proc.devRef .tc main_cst) : (⟨S_, .f32⟩ : BufTy).Contents (Elt Ideal)) = Cert.ReferenceIdeal.Read.val_main_cst_5 (F := Ideal) := by
  after_results; rfl

theorem st0_cst_0 (W : Valuation τ sig (Elt Ideal)) :
    (StableHlo.after (hostOps0 (F := Ideal)) W (Proc.devRef .tc main_cst_0) : (⟨S_, .f32⟩ : BufTy).Contents (Elt Ideal)) = Cert.ReferenceIdeal.Read.val_main_cst_6 (F := Ideal) := by
  after_results; rfl

theorem st1_v2 (W : Valuation τ sig (Elt Ideal)) (x0 : (⟨S262144x2, .f32⟩ : BufTy).Contents (Elt Ideal))
    (hv : (W (Proc.devRef .tc main_v1) : (⟨S262144, .f32⟩ : BufTy).Contents (Elt Ideal)) = Cert.ReferenceIdeal.Read.val_main_v40 (F := Ideal) x0)
    (hlo : (W (Proc.devRef .tc main_cst) : (⟨S_, .f32⟩ : BufTy).Contents (Elt Ideal)) = Cert.ReferenceIdeal.Read.val_main_cst_5 (F := Ideal))
    (hhi : (W (Proc.devRef .tc main_cst_0) : (⟨S_, .f32⟩ : BufTy).Contents (Elt Ideal)) = Cert.ReferenceIdeal.Read.val_main_cst_6 (F := Ideal)) :
    (StableHlo.after (hostOps0_1 (F := Ideal)) W (Proc.devRef .tc main_v2) : (⟨S262144, .f32⟩ : BufTy).Contents (Elt Ideal)) = Cert.ReferenceIdeal.Read.val_main_v41 (F := Ideal) x0 := by
  have e : (StableHlo.after (hostOps0_1 (F := Ideal)) W (Proc.devRef .tc main_v2) : (⟨S262144, .f32⟩ : BufTy).Contents (Elt Ideal))
      = minimumf (F := Ideal) (φ := .f32) (broadcastInDim S262144 ![] bcast_S_S262144 (id (W (Proc.devRef .tc main_cst_0) : (⟨S_, .f32⟩ : BufTy).Contents (Elt Ideal))))
          (maximumf (F := Ideal) (φ := .f32) (broadcastInDim S262144 ![] bcast_S_S262144 (id (W (Proc.devRef .tc main_cst) : (⟨S_, .f32⟩ : BufTy).Contents (Elt Ideal)))) (W (Proc.devRef .tc main_v1) : (⟨S262144, .f32⟩ : BufTy).Contents (Elt Ideal))) := by
    after_results; rfl
  rw [e, hv, hlo, hhi]; rfl

theorem st2_v4 (W : Valuation τ sig (Elt Ideal)) :
    (StableHlo.after (hostOps0_2 (F := Ideal)) W (Proc.devRef .tc main_v4) : (⟨S262144, .f32⟩ : BufTy).Contents (Elt Ideal)) = Cert.ReferenceIdeal.Read.val_main_v43 (F := Ideal) (W (Proc.devRef .tc main_arg0)) := by
  after_results; rfl

theorem st2_cst_1 (W : Valuation τ sig (Elt Ideal)) :
    (StableHlo.after (hostOps0_2 (F := Ideal)) W (Proc.devRef .tc main_cst_1) : (⟨S_, .f32⟩ : BufTy).Contents (Elt Ideal)) = Cert.ReferenceIdeal.Read.val_main_cst_7 (F := Ideal) := by
  after_results; rfl

theorem st2_cst_2 (W : Valuation τ sig (Elt Ideal)) :
    (StableHlo.after (hostOps0_2 (F := Ideal)) W (Proc.devRef .tc main_cst_2) : (⟨S_, .f32⟩ : BufTy).Contents (Elt Ideal)) = Cert.ReferenceIdeal.Read.val_main_cst_8 (F := Ideal) := by
  after_results; rfl

theorem st3_v5 (W : Valuation τ sig (Elt Ideal)) (x0 : (⟨S262144x2, .f32⟩ : BufTy).Contents (Elt Ideal))
    (hv : (W (Proc.devRef .tc main_v4) : (⟨S262144, .f32⟩ : BufTy).Contents (Elt Ideal)) = Cert.ReferenceIdeal.Read.val_main_v43 (F := Ideal) x0)
    (hlo : (W (Proc.devRef .tc main_cst_1) : (⟨S_, .f32⟩ : BufTy).Contents (Elt Ideal)) = Cert.ReferenceIdeal.Read.val_main_cst_7 (F := Ideal))
    (hhi : (W (Proc.devRef .tc main_cst_2) : (⟨S_, .f32⟩ : BufTy).Contents (Elt Ideal)) = Cert.ReferenceIdeal.Read.val_main_cst_8 (F := Ideal)) :
    (StableHlo.after (hostOps0_3 (F := Ideal)) W (Proc.devRef .tc main_v5) : (⟨S262144, .f32⟩ : BufTy).Contents (Elt Ideal)) = Cert.ReferenceIdeal.Read.val_main_v44 (F := Ideal) x0 := by
  have e : (StableHlo.after (hostOps0_3 (F := Ideal)) W (Proc.devRef .tc main_v5) : (⟨S262144, .f32⟩ : BufTy).Contents (Elt Ideal))
      = minimumf (F := Ideal) (φ := .f32) (broadcastInDim S262144 ![] bcast_S_S262144 (id (W (Proc.devRef .tc main_cst_2) : (⟨S_, .f32⟩ : BufTy).Contents (Elt Ideal))))
          (maximumf (F := Ideal) (φ := .f32) (broadcastInDim S262144 ![] bcast_S_S262144 (id (W (Proc.devRef .tc main_cst_1) : (⟨S_, .f32⟩ : BufTy).Contents (Elt Ideal)))) (W (Proc.devRef .tc main_v4) : (⟨S262144, .f32⟩ : BufTy).Contents (Elt Ideal))) := by
    after_results; rfl
  rw [e, hv, hlo, hhi]; rfl

theorem st4_v13 (W : Valuation τ sig (Elt Ideal)) (x0 : (⟨S262144x2, .f32⟩ : BufTy).Contents (Elt Ideal))
    (h : (W (Proc.devRef .tc main_v2) : (⟨S262144, .f32⟩ : BufTy).Contents (Elt Ideal)) = Cert.ReferenceIdeal.Read.val_main_v41 (F := Ideal) x0) :
    (StableHlo.after (hostOps0_4 (F := Ideal)) W (Proc.devRef .tc main_v13) : (⟨S262144, .i32⟩ : BufTy).Contents (Elt Ideal)) = Cert.ReferenceIdeal.Read.val_main_v52 (F := Ideal) x0 := by
  after_results; rw [h]; rfl

theorem st4_c (W : Valuation τ sig (Elt Ideal)) :
    (StableHlo.after (hostOps0_4 (F := Ideal)) W (Proc.devRef .tc main_c) : (⟨S_, .i32⟩ : BufTy).Contents (Elt Ideal)) = Cert.ReferenceIdeal.Read.val_main_c (F := Ideal) := by
  after_results; rfl

theorem st4_c_6 (W : Valuation τ sig (Elt Ideal)) :
    (StableHlo.after (hostOps0_4 (F := Ideal)) W (Proc.devRef .tc main_c_6) : (⟨S_, .i32⟩ : BufTy).Contents (Elt Ideal)) = Cert.ReferenceIdeal.Read.val_main_c_12 (F := Ideal) := by
  after_results; rfl

theorem st5_v14 (W : Valuation τ sig (Elt Ideal)) (x0 : (⟨S262144x2, .f32⟩ : BufTy).Contents (Elt Ideal))
    (hv : (W (Proc.devRef .tc main_v13) : (⟨S262144, .i32⟩ : BufTy).Contents (Elt Ideal)) = Cert.ReferenceIdeal.Read.val_main_v52 (F := Ideal) x0)
    (hlo : (W (Proc.devRef .tc main_c) : (⟨S_, .i32⟩ : BufTy).Contents (Elt Ideal)) = Cert.ReferenceIdeal.Read.val_main_c (F := Ideal))
    (hhi : (W (Proc.devRef .tc main_c_6) : (⟨S_, .i32⟩ : BufTy).Contents (Elt Ideal)) = Cert.ReferenceIdeal.Read.val_main_c_12 (F := Ideal)) :
    (StableHlo.after (hostOps0_5 (F := Ideal)) W (Proc.devRef .tc main_v14) : (⟨S262144, .i32⟩ : BufTy).Contents (Elt Ideal)) = Cert.ReferenceIdeal.Read.val_main_v53 (F := Ideal) x0 := by
  have e : (StableHlo.after (hostOps0_5 (F := Ideal)) W (Proc.devRef .tc main_v14) : (⟨S262144, .i32⟩ : BufTy).Contents (Elt Ideal))
      = minsi (broadcastInDim S262144 ![] bcast_S_S262144 (id (W (Proc.devRef .tc main_c_6) : (⟨S_, .i32⟩ : BufTy).Contents (Elt Ideal))))
          (maxsi (broadcastInDim S262144 ![] bcast_S_S262144 (id (W (Proc.devRef .tc main_c) : (⟨S_, .i32⟩ : BufTy).Contents (Elt Ideal)))) (W (Proc.devRef .tc main_v13) : (⟨S262144, .i32⟩ : BufTy).Contents (Elt Ideal))) := by
    after_results; rfl
  rw [e, hv, hlo, hhi]; rfl

theorem st6_v22 (W : Valuation τ sig (Elt Ideal)) (x0 : (⟨S262144x2, .f32⟩ : BufTy).Contents (Elt Ideal))
    (h : (W (Proc.devRef .tc main_v5) : (⟨S262144, .f32⟩ : BufTy).Contents (Elt Ideal)) = Cert.ReferenceIdeal.Read.val_main_v44 (F := Ideal) x0) :
    (StableHlo.after (hostOps0_6 (F := Ideal)) W (Proc.devRef .tc main_v22) : (⟨S262144, .i32⟩ : BufTy).Contents (Elt Ideal)) = Cert.ReferenceIdeal.Read.val_main_v61 (F := Ideal) x0 := by
  after_results; rw [h]; rfl

theorem st6_c_10 (W : Valuation τ sig (Elt Ideal)) :
    (StableHlo.after (hostOps0_6 (F := Ideal)) W (Proc.devRef .tc main_c_10) : (⟨S_, .i32⟩ : BufTy).Contents (Elt Ideal)) = Cert.ReferenceIdeal.Read.val_main_c_16 (F := Ideal) := by
  after_results; rfl

theorem st6_c_11 (W : Valuation τ sig (Elt Ideal)) :
    (StableHlo.after (hostOps0_6 (F := Ideal)) W (Proc.devRef .tc main_c_11) : (⟨S_, .i32⟩ : BufTy).Contents (Elt Ideal)) = Cert.ReferenceIdeal.Read.val_main_c_17 (F := Ideal) := by
  after_results; rfl

theorem st7_v23 (W : Valuation τ sig (Elt Ideal)) (x0 : (⟨S262144x2, .f32⟩ : BufTy).Contents (Elt Ideal))
    (hv : (W (Proc.devRef .tc main_v22) : (⟨S262144, .i32⟩ : BufTy).Contents (Elt Ideal)) = Cert.ReferenceIdeal.Read.val_main_v61 (F := Ideal) x0)
    (hlo : (W (Proc.devRef .tc main_c_10) : (⟨S_, .i32⟩ : BufTy).Contents (Elt Ideal)) = Cert.ReferenceIdeal.Read.val_main_c_16 (F := Ideal))
    (hhi : (W (Proc.devRef .tc main_c_11) : (⟨S_, .i32⟩ : BufTy).Contents (Elt Ideal)) = Cert.ReferenceIdeal.Read.val_main_c_17 (F := Ideal)) :
    (StableHlo.after (hostOps0_7 (F := Ideal)) W (Proc.devRef .tc main_v23) : (⟨S262144, .i32⟩ : BufTy).Contents (Elt Ideal)) = Cert.ReferenceIdeal.Read.val_main_v62 (F := Ideal) x0 := by
  have e : (StableHlo.after (hostOps0_7 (F := Ideal)) W (Proc.devRef .tc main_v23) : (⟨S262144, .i32⟩ : BufTy).Contents (Elt Ideal))
      = minsi (broadcastInDim S262144 ![] bcast_S_S262144 (id (W (Proc.devRef .tc main_c_11) : (⟨S_, .i32⟩ : BufTy).Contents (Elt Ideal))))
          (maxsi (broadcastInDim S262144 ![] bcast_S_S262144 (id (W (Proc.devRef .tc main_c_10) : (⟨S_, .i32⟩ : BufTy).Contents (Elt Ideal)))) (W (Proc.devRef .tc main_v22) : (⟨S262144, .i32⟩ : BufTy).Contents (Elt Ideal))) := by
    after_results; rfl
  rw [e, hv, hlo, hhi]; rfl

theorem st8_v26 (W : Valuation τ sig (Elt Ideal)) (x0 : (⟨S262144x2, .f32⟩ : BufTy).Contents (Elt Ideal))
    (h14 : (W (Proc.devRef .tc main_v14) : (⟨S262144, .i32⟩ : BufTy).Contents (Elt Ideal)) = Cert.ReferenceIdeal.Read.val_main_v53 (F := Ideal) x0)
    (h23 : (W (Proc.devRef .tc main_v23) : (⟨S262144, .i32⟩ : BufTy).Contents (Elt Ideal)) = Cert.ReferenceIdeal.Read.val_main_v62 (F := Ideal) x0) :
    (StableHlo.after (hostOps0_8 (F := Ideal)) W (Proc.devRef .tc main_v26) : (⟨S262144, .i32⟩ : BufTy).Contents (Elt Ideal)) = Cert.ReferenceIdeal.Read.val_main_v65 (F := Ideal) x0 := by
  after_results; rw [h14, h23]; rfl

/-! ## The cell numbers when region 0 is entered -/

section Cells

variable (c : Dev nD)

theorem V1_v1 : (V1 m c main_v1 : (⟨S262144, .f32⟩ : BufTy).Contents (Elt Ideal)) = Cert.ReferenceIdeal.Read.val_main_v40 (F := Ideal) (m ((c : Thread nD τ).loc main_arg0)) := st0_v1 (V0 m c)
theorem V1_cst : (V1 m c main_cst : (⟨S_, .f32⟩ : BufTy).Contents (Elt Ideal)) = Cert.ReferenceIdeal.Read.val_main_cst_5 (F := Ideal) := st0_cst (V0 m c)
theorem V1_cst_0 : (V1 m c main_cst_0 : (⟨S_, .f32⟩ : BufTy).Contents (Elt Ideal)) = Cert.ReferenceIdeal.Read.val_main_cst_6 (F := Ideal) := st0_cst_0 (V0 m c)
theorem V2_v2 : (V2 m c main_v2 : (⟨S262144, .f32⟩ : BufTy).Contents (Elt Ideal)) = Cert.ReferenceIdeal.Read.val_main_v41 (F := Ideal) (m ((c : Thread nD τ).loc main_arg0)) :=
  st1_v2 (V1 m c) _ (V1_v1 m c) (V1_cst m c) (V1_cst_0 m c)
theorem V3_v4 : (V3 m c main_v4 : (⟨S262144, .f32⟩ : BufTy).Contents (Elt Ideal)) = Cert.ReferenceIdeal.Read.val_main_v43 (F := Ideal) (m ((c : Thread nD τ).loc main_arg0)) :=
  (st2_v4 (V2 m c)).trans (congrArg (Cert.ReferenceIdeal.Read.val_main_v43 (F := Ideal)) (V2_main_arg0 m c))
theorem V3_cst_1 : (V3 m c main_cst_1 : (⟨S_, .f32⟩ : BufTy).Contents (Elt Ideal)) = Cert.ReferenceIdeal.Read.val_main_cst_7 (F := Ideal) := st2_cst_1 (V2 m c)
theorem V3_cst_2 : (V3 m c main_cst_2 : (⟨S_, .f32⟩ : BufTy).Contents (Elt Ideal)) = Cert.ReferenceIdeal.Read.val_main_cst_8 (F := Ideal) := st2_cst_2 (V2 m c)
theorem V4_v5 : (V4 m c main_v5 : (⟨S262144, .f32⟩ : BufTy).Contents (Elt Ideal)) = Cert.ReferenceIdeal.Read.val_main_v44 (F := Ideal) (m ((c : Thread nD τ).loc main_arg0)) :=
  st3_v5 (V3 m c) _ (V3_v4 m c) (V3_cst_1 m c) (V3_cst_2 m c)
theorem V4_v2 : (V4 m c main_v2 : (⟨S262144, .f32⟩ : BufTy).Contents (Elt Ideal)) = Cert.ReferenceIdeal.Read.val_main_v41 (F := Ideal) (m ((c : Thread nD τ).loc main_arg0)) :=
  (V4_of m c main_v2 (by decide)).trans ((V3_of m c main_v2 (by decide)).trans (V2_v2 m c))
theorem V5_v13 : (V5 m c main_v13 : (⟨S262144, .i32⟩ : BufTy).Contents (Elt Ideal)) = Cert.ReferenceIdeal.Read.val_main_v52 (F := Ideal) (m ((c : Thread nD τ).loc main_arg0)) :=
  st4_v13 (V4 m c) _ (V4_v2 m c)
theorem V5_c : (V5 m c main_c : (⟨S_, .i32⟩ : BufTy).Contents (Elt Ideal)) = Cert.ReferenceIdeal.Read.val_main_c (F := Ideal) := st4_c (V4 m c)
theorem V5_c_6 : (V5 m c main_c_6 : (⟨S_, .i32⟩ : BufTy).Contents (Elt Ideal)) = Cert.ReferenceIdeal.Read.val_main_c_12 (F := Ideal) := st4_c_6 (V4 m c)
theorem V6_v14 : (V6 m c main_v14 : (⟨S262144, .i32⟩ : BufTy).Contents (Elt Ideal)) = Cert.ReferenceIdeal.Read.val_main_v53 (F := Ideal) (m ((c : Thread nD τ).loc main_arg0)) :=
  st5_v14 (V5 m c) _ (V5_v13 m c) (V5_c m c) (V5_c_6 m c)
theorem V6_v5 : (V6 m c main_v5 : (⟨S262144, .f32⟩ : BufTy).Contents (Elt Ideal)) = Cert.ReferenceIdeal.Read.val_main_v44 (F := Ideal) (m ((c : Thread nD τ).loc main_arg0)) :=
  (V6_of m c main_v5 (by decide)).trans ((V5_of m c main_v5 (by decide)).trans (V4_v5 m c))
theorem V7_v22 : (V7 m c main_v22 : (⟨S262144, .i32⟩ : BufTy).Contents (Elt Ideal)) = Cert.ReferenceIdeal.Read.val_main_v61 (F := Ideal) (m ((c : Thread nD τ).loc main_arg0)) :=
  st6_v22 (V6 m c) _ (V6_v5 m c)
theorem V7_c_10 : (V7 m c main_c_10 : (⟨S_, .i32⟩ : BufTy).Contents (Elt Ideal)) = Cert.ReferenceIdeal.Read.val_main_c_16 (F := Ideal) := st6_c_10 (V6 m c)
theorem V7_c_11 : (V7 m c main_c_11 : (⟨S_, .i32⟩ : BufTy).Contents (Elt Ideal)) = Cert.ReferenceIdeal.Read.val_main_c_17 (F := Ideal) := st6_c_11 (V6 m c)
theorem V8_v23 : (V8 m c main_v23 : (⟨S262144, .i32⟩ : BufTy).Contents (Elt Ideal)) = Cert.ReferenceIdeal.Read.val_main_v62 (F := Ideal) (m ((c : Thread nD τ).loc main_arg0)) :=
  st7_v23 (V7 m c) _ (V7_v22 m c) (V7_c_10 m c) (V7_c_11 m c)
theorem V8_v14 : (V8 m c main_v14 : (⟨S262144, .i32⟩ : BufTy).Contents (Elt Ideal)) = Cert.ReferenceIdeal.Read.val_main_v53 (F := Ideal) (m ((c : Thread nD τ).loc main_arg0)) :=
  (V8_of m c main_v14 (by decide)).trans ((V7_of m c main_v14 (by decide)).trans (V6_v14 m c))

/-- The cell numbers region 0 is given are the reference program's cell numbers of the same positions. -/
theorem V9_main_v26 : (V9 m c main_v26 : (⟨S262144, .i32⟩ : BufTy).Contents (Elt Ideal)) = Cert.ReferenceIdeal.Read.val_main_v65 (F := Ideal) (m ((c : Thread nD τ).loc main_arg0)) :=
  st8_v26 (V8 m c) _ (V8_v14 m c) (V8_v23 m c)

end Cells

/-! ## The weights and the bias when region 0 is entered -/

theorem st8_v28 (W : Valuation τ sig (Elt Ideal)) :
    (StableHlo.after (hostOps0_8 (F := Ideal)) W (Proc.devRef .tc main_v28) : (⟨S2x512, .bf16⟩ : BufTy).Contents (Elt Ideal)) = truncf (F := Ideal) (φ := .f32) .bf16 (transpose S2x512 [1, 0] (W (Proc.devRef .tc main_arg3) : (⟨S512x2, .f32⟩ : BufTy).Contents (Elt Ideal)) transposes_S512x2_S2x512_1_0) bitsLt_bf16_f32 := by
  after_results

theorem st8_v30 (W : Valuation τ sig (Elt Ideal)) :
    (StableHlo.after (hostOps0_8 (F := Ideal)) W (Proc.devRef .tc main_v30) : (⟨S128x512, .bf16⟩ : BufTy).Contents (Elt Ideal)) = truncf (F := Ideal) (φ := .f32) .bf16 (transpose S128x512 [1, 0] (W (Proc.devRef .tc main_arg4) : (⟨S512x128, .f32⟩ : BufTy).Contents (Elt Ideal)) transposes_S512x128_S128x512_1_0) bitsLt_bf16_f32 := by
  after_results

theorem st8_v31 (W : Valuation τ sig (Elt Ideal)) :
    (StableHlo.after (hostOps0_8 (F := Ideal)) W (Proc.devRef .tc main_v31) : (⟨S512, .f32⟩ : BufTy).Contents (Elt Ideal)) = addf (F := Ideal) (φ := .f32) (W (Proc.devRef .tc main_arg5) : (⟨S512, .f32⟩ : BufTy).Contents (Elt Ideal)) (W (Proc.devRef .tc main_arg6) : (⟨S512, .f32⟩ : BufTy).Contents (Elt Ideal)) := by
  after_results

/-- The input weights region 0 is given: entry (k, j) is the argument's entry (j, k). -/
theorem V9_main_v28 (c : Dev nD) (k : Fin 2) (j : Fin 512) :
    (V9 m c main_v28 : S2x512.Idx → EReal) (ix2 k j) = (m ((c : Thread nD τ).loc main_arg3) : S512x2.Idx → EReal) (ix2 j k) := by
  rw [← V8_main_arg3 m c]
  refine (congrFun (st8_v28 (V8 m c)) (ix2 k j)).trans ?_
  exact transpose_apply [1, 0] (V8 m c main_arg3 : S512x2.Idx → EReal) transposes_S512x2_S2x512_1_0 (ix2 k j) (ix2 j k)
    (fun b => match b with
      | ⟨0, _⟩ => rfl
      | ⟨1, _⟩ => rfl)

/-- The recurrent weights region 0 is given: entry (k, j) is the argument's entry (j, k). -/
theorem V9_main_v30 (c : Dev nD) (k : Fin 128) (j : Fin 512) :
    (V9 m c main_v30 : S128x512.Idx → EReal) (ix2 k j) = (m ((c : Thread nD τ).loc main_arg4) : S512x128.Idx → EReal) (ix2 j k) := by
  rw [← V8_main_arg4 m c]
  refine (congrFun (st8_v30 (V8 m c)) (ix2 k j)).trans ?_
  exact transpose_apply [1, 0] (V8 m c main_arg4 : S512x128.Idx → EReal) transposes_S512x128_S128x512_1_0 (ix2 k j) (ix2 j k)
    (fun b => match b with
      | ⟨0, _⟩ => rfl
      | ⟨1, _⟩ => rfl)

/-- The bias region 0 is given: the sum of the two bias vectors. -/
theorem V9_main_v31 (c : Dev nD) (j : Fin 512) :
    (V9 m c main_v31 : S512.Idx → EReal) (ix1 j)
      = @HAdd.hAdd EReal EReal EReal _ ((m ((c : Thread nD τ).loc main_arg5) : S512.Idx → EReal) (ix1 j))
          ((m ((c : Thread nD τ).loc main_arg6) : S512.Idx → EReal) (ix1 j)) := by
  rw [← V8_main_arg5 m c, ← V8_main_arg6 m c]
  exact congrFun (st8_v31 (V8 m c)) (ix1 j)

/-! ## After region 0: the two halves added -/

/-- A unit slice of a [2, 256, 128] array at half `s`, recast to [256, 128], read at (b, d): the array at (s, b, d). -/
theorem half_apply {α : Type} (x : S2x256x128.Idx → α) (s : Fin 2) (h : S2x256x128.Slices ![s.val, 0, 0] S1x256x128)
    (b : Fin 256) (d : Fin 128) :
    shapeCast S256x128 (extractStridedSlice S1x256x128 ![s.val, 0, 0] x h) shapeCasts_S1x256x128_S256x128 (ix2 b d)
      = x (ix3 s b d) := by
  rw [shapeCast_apply _ shapeCasts_S1x256x128_S256x128 (ix2 b d) (ix3 (0 : Fin 1) b d)
    (by rewrite [Shape.rowMajor_val_three, Shape.rowMajor_val_two]; show (0 * 256 + b.val) * 128 + d.val = b.val * 128 + d.val; omega)]
  exact extractStridedSlice_apply ![s.val, 0, 0] x h (ix3 (0 : Fin 1) b d) (ix3 s b d) (fun a => match a with
    | ⟨0, _⟩ => by show s.val = s.val + 0; omega
    | ⟨1, _⟩ => by show b.val = 0 + b.val; omega
    | ⟨2, _⟩ => by show d.val = 0 + d.val; omega)

theorem st_h1_v37 (W : Valuation τ sig (Elt Ideal)) :
    (StableHlo.after (hostOps1 (F := Ideal)) W (Proc.devRef .tc main_v37) : (⟨S256x128, .f32⟩ : BufTy).Contents (Elt Ideal)) = addf (F := Ideal) (φ := .f32) (shapeCast S256x128 (extractStridedSlice S1x256x128 ![0, 0, 0] (W (Proc.devRef .tc main_v32_1) : (⟨S2x256x128, .f32⟩ : BufTy).Contents (Elt Ideal)) slices_S2x256x128_S1x256x128_0_0_0) shapeCasts_S1x256x128_S256x128)
        (shapeCast S256x128 (extractStridedSlice S1x256x128 ![1, 0, 0] (W (Proc.devRef .tc main_v32_1) : (⟨S2x256x128, .f32⟩ : BufTy).Contents (Elt Ideal)) slices_S2x256x128_S1x256x128_1_0_0) shapeCasts_S1x256x128_S256x128) := by
  after_results; rfl

variable (outs : Outs (F := Ideal))

/-- What region 0 leaves in the slab array is what the host stretch after it reads. -/
theorem V10_main_v32_1 (c : Dev nD) : V10 m outs c main_v32_1 = outs 10 main_v32_1 c := by
  simp only [V10, Function.update_self]

/-- The per-cell sums region 1 is given: the two halves' tables added entry by entry. -/
theorem V11_main_v37 (c : Dev nD) (b : Fin 256) (d : Fin 128) :
    (V11 m outs c main_v37 : S256x128.Idx → EReal) (ix2 b d)
      = @HAdd.hAdd EReal EReal EReal _ ((outs 10 main_v32_1 c : S2x256x128.Idx → EReal) (ix3 (0 : Fin 2) b d))
          ((outs 10 main_v32_1 c : S2x256x128.Idx → EReal) (ix3 (1 : Fin 2) b d)) := by
  rw [← V10_main_v32_1 m outs c]
  refine (congrFun (st_h1_v37 (V10 m outs c)) (ix2 b d)).trans ?_
  show @HAdd.hAdd EReal EReal EReal _
      (shapeCast S256x128 (extractStridedSlice S1x256x128 ![(0 : Fin 2).val, 0, 0] (V10 m outs c main_v32_1 : S2x256x128.Idx → EReal) slices_S2x256x128_S1x256x128_0_0_0) shapeCasts_S1x256x128_S256x128 (ix2 b d))
      (shapeCast S256x128 (extractStridedSlice S1x256x128 ![(1 : Fin 2).val, 0, 0] (V10 m outs c main_v32_1 : S2x256x128.Idx → EReal) slices_S2x256x128_S1x256x128_1_0_0) shapeCasts_S1x256x128_S256x128 (ix2 b d)) = _
  rw [half_apply, half_apply]

/-- Region 0 and the host stretch after it leave the cell numbers as they were. -/
theorem V11_main_v26 (c : Dev nD) : V11 m outs c main_v26 = V9 m c main_v26 :=
  (V11_of m outs c main_v26 (by decide)).trans (V10_of m outs c main_v26 (by decide))

end Cert.KernelIdeal.HostVals

end
-- ==== Proof.KI.R0Blocks.lean ====
/-
  Region 0: where a point's blocks sit in their arrays. Point `t` is tile `t` of the 128 tiles of 2048 rows: the
  position, hidden-state, cell-state and cell-number windows and the new-cell-state window are all at block `t` along
  the rows; the two weight matrices and the bias are one whole block; the slab window is at slab `t / 64`. So a block
  read at row `r` is its array read at row `t · 2048 + r`.
-/
import proofs.«177821_j68058051772553_2_alg».proof.Proof.KI.R0Frame
import Idealize.ShloMosaic.Lib.ValueIdx

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat)

variable {F : FTy → Type} [FloatOps F]
variable (V : (c : Dev nD) → (b : Ref sig .tc) → Buf (Elt F) ((c : Thread nD τ).loc b))

/-- The printed index maps, decided once over the grid. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0
    ∧ win0_8.index t (0 : Fin 3) = t.val / 64 ∧ win0_8.index t (1 : Fin 3) = 0 ∧ win0_8.index t (2 : Fin 3) = 0 :=
  (by decide +kernel : ∀ t : Fin grid0.N, _)

/-- Row `t · 2048 + r` of the 262144 rows. -/
abbrev trow (t : Fin cfg0.N) (r : Fin 2048) : Fin 262144 :=
  ⟨t.val * 2048 + r.val, by have : t.val < 128 := lt_of_lt_of_eq t.isLt (show cfg0.N = 128 from N_0); have := r.isLt; omega⟩

/-- The position block at `(r, k)` is the position array at row `t · 2048 + r`. -/
theorem iblk0_0_apply (c : Dev nD) (t : Fin cfg0.N) (r : Fin 2048) (k : Fin 2) :
    iblk0 V c 0 t (ix2 r k) = V c (Pipeline.arrRef spec0 0) (ix2 (trow t r) k) := by
  show V c (Pipeline.arrRef spec0 0) (((cfg0.win 0).blk t).view.emb (ix2 r k)) = _
  refine congrArg _ ?_
  obtain ⟨e0, e1, -⟩ := idx_facts0 t
  funext a; apply Fin.ext
  match a with
  | ⟨0, _⟩ => show win0_0.index t (0 : Fin 2) * 2048 + 1 * r.val = t.val * 2048 + r.val; omega
  | ⟨1, _⟩ => show win0_0.index t (1 : Fin 2) * 2 + 1 * k.val = k.val; omega

/-- The hidden-state block likewise, -/
theorem iblk0_1_apply (c : Dev nD) (t : Fin cfg0.N) (r : Fin 2048) (k : Fin 128) :
    iblk0 V c 1 t (ix2 r k) = V c (Pipeline.arrRef spec0 1) (ix2 (trow t r) k) := by
  show V c (Pipeline.arrRef spec0 1) (((cfg0.win 1).blk t).view.emb (ix2 r k)) = _
  refine congrArg _ ?_
  obtain ⟨-, -, e0, e1, -⟩ := idx_facts0 t
  funext a; apply Fin.ext
  match a with
  | ⟨0, _⟩ => show win0_1.index t (0 : Fin 2) * 2048 + 1 * r.val = t.val * 2048 + r.val; omega
  | ⟨1, _⟩ => show win0_1.index t (1 : Fin 2) * 128 + 1 * k.val = k.val; omega

/-- the cell-state block, -/
theorem iblk0_2_apply (c : Dev nD) (t : Fin cfg0.N) (r : Fin 2048) (k : Fin 128) :
    iblk0 V c 2 t (ix2 r k) = V c (Pipeline.arrRef spec0 2) (ix2 (trow t r) k) := by
  show V c (Pipeline.arrRef spec0 2) (((cfg0.win 2).blk t).view.emb (ix2 r k)) = _
  refine congrArg _ ?_
  obtain ⟨-, -, -, -, e0, e1, -⟩ := idx_facts0 t
  funext a; apply Fin.ext
  match a with
  | ⟨0, _⟩ => show win0_2.index t (0 : Fin 2) * 2048 + 1 * r.val = t.val * 2048 + r.val; omega
  | ⟨1, _⟩ => show win0_2.index t (1 : Fin 2) * 128 + 1 * k.val = k.val; omega

/-- and the cell-number block. -/
theorem iblk0_3_apply (c : Dev nD) (t : Fin cfg0.N) (r : Fin 2048) :
    iblk0 V c 3 t (ix1 r) = V c (Pipeline.arrRef spec0 3) (ix1 (trow t r)) := by
  show V c (Pipeline.arrRef spec0 3) (((cfg0.win 3).blk t).view.emb (ix1 r)) = _
  refine congrArg _ ?_
  obtain ⟨-, -, -, -, -, -, e0, -⟩ := idx_facts0 t
  funext a; apply Fin.ext
  match a with
  | ⟨0, _⟩ => show win0_3.index t (0 : Fin 1) * 2048 + 1 * r.val = t.val * 2048 + r.val; omega

/-- The two weight matrices and the bias are one whole block each. -/
theorem iblk0_4_apply (c : Dev nD) (t : Fin cfg0.N) (k : Fin 2) (j : Fin 512) :
    iblk0 V c 4 t (ix2 k j) = V c (Pipeline.arrRef spec0 4) (ix2 k j) := by
  show V c (Pipeline.arrRef spec0 4) (((cfg0.win 4).blk t).view.emb (ix2 k j)) = _
  refine congrArg _ ?_
  obtain ⟨-, -, -, -, -, -, -, e0, e1, -⟩ := idx_facts0 t
  funext a; apply Fin.ext
  match a with
  | ⟨0, _⟩ => show win0_4.index t (0 : Fin 2) * 2 + 1 * k.val = k.val; omega
  | ⟨1, _⟩ => show win0_4.index t (1 : Fin 2) * 512 + 1 * j.val = j.val; omega

theorem iblk0_5_apply (c : Dev nD) (t : Fin cfg0.N) (k : Fin 128) (j : Fin 512) :
    iblk0 V c 5 t (ix2 k j) = V c (Pipeline.arrRef spec0 5) (ix2 k j) := by
  show V c (Pipeline.arrRef spec0 5) (((cfg0.win 5).blk t).view.emb (ix2 k j)) = _
  refine congrArg _ ?_
  obtain ⟨-, -, -, -, -, -, -, -, -, e0, e1, -⟩ := idx_facts0 t
  funext a; apply Fin.ext
  match a with
  | ⟨0, _⟩ => show win0_5.index t (0 : Fin 2) * 128 + 1 * k.val = k.val; omega
  | ⟨1, _⟩ => show win0_5.index t (1 : Fin 2) * 512 + 1 * j.val = j.val; omega

theorem iblk0_6_apply (c : Dev nD) (t : Fin cfg0.N) (j : Fin 512) :
    iblk0 V c 6 t (ix1 j) = V c (Pipeline.arrRef spec0 6) (ix1 j) := by
  show V c (Pipeline.arrRef spec0 6) (((cfg0.win 6).blk t).view.emb (ix1 j)) = _
  refine congrArg _ ?_
  obtain ⟨-, -, -, -, -, -, -, -, -, -, -, e0, -⟩ := idx_facts0 t
  funext a; apply Fin.ext
  match a with
  | ⟨0, _⟩ => show win0_6.index t (0 : Fin 1) * 512 + 1 * j.val = j.val; omega

end Cert.KernelIdeal.Gen

end
-- ==== Proof.KI.R0Pieces.lean ====
/-
  Region 0: what each control case's stores leave, as the body's arithmetic of the blocks it loaded. The new-cell-state
  buffer ends at the tile's new cell state in every case; the accumulator ends at "what it held, plus the tile's
  one-hot-weighted hidden states", where at a half's first tile "what it held" is the zero block just stored; at a
  half's last tile the slab's buffer ends at the accumulator recast to one slab.
-/
import proofs.«177821_j68058051772553_2_alg».proof.Proof.KI.R0Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat)

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- One tile's contribution added to an accumulator `a`: the one-hot of the tile's cell numbers, transposed, times the
    tile's new hidden state, plus `a`. -/
abbrev accStep (x0 : Vec F S2048x2 .f32) (x1 x2 : Vec F S2048x128 .f32) (x3 : Vec F S2048 .i32) (x4 : Vec F S2x512 .bf16) (x5 : Vec F S128x512 .bf16) (x6 : Vec F S512 .f32)
    (a : Vec F S256x128 .f32) : Vec F S256x128 .f32 :=
  k0_pay1 (k0_pay6 x0 x1 x2 x4 x5 x6) (iota .tc S2048x256 32 [1] iota_S2048x256_d1_w32) (k0_pay7 x3) a

/-- Case A: the new-cell-state buffer ends at the tile's new cell state. -/
theorem pieceA_7 (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : cond0_0 i) (hc1 : ¬cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) :
    VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 x0 x1 x2 x3 x4 x5 x6).1) = k0_pay5 x0 x1 x2 x4 x5 x6 := by
  rw [View.read_writes_eq_canon _ _ _ (cover0_A_7 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg11.read_unread,
    View.ld_unit_zero (S := S2048x2) hz2, View.ld_unit_zero (S := S2048x128) hz2, View.ld_unit_zero (S := S2048) hz1, View.ld_unit_zero (S := S2x512) hz2, View.ld_unit_zero (S := S128x512) hz2,
    View.ld_unit_zero (S := S512) hz1, View.ld_unit_zero (S := S256x128) hz2, shapeCast_self]

/-- Case B: the new-cell-state buffer ends at the tile's new cell state. -/
theorem pieceB_7 (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : ¬cond0_0 i) (hc1 : ¬cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (xs0 : Vec F S256x128 .f32) :
    VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1) = k0_pay5 x0 x1 x2 x4 x5 x6 := by
  rw [View.read_writes_eq_canon _ _ _ (cover0_B_7 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg11.read_unread,
    View.ld_unit_zero (S := S2048x2) hz2, View.ld_unit_zero (S := S2048x128) hz2, View.ld_unit_zero (S := S2048) hz1, View.ld_unit_zero (S := S2x512) hz2, View.ld_unit_zero (S := S128x512) hz2,
    View.ld_unit_zero (S := S512) hz1, View.ld_unit_zero (S := S256x128) hz2, shapeCast_self]

/-- Case C: the new-cell-state buffer ends at the tile's new cell state. -/
theorem pieceC_7 (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : ¬cond0_0 i) (hc1 : cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (xs0 : Vec F S256x128 .f32) :
    VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1) = k0_pay5 x0 x1 x2 x4 x5 x6 := by
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg11.read_unread,
    View.ld_unit_zero (S := S2048x2) hz2, View.ld_unit_zero (S := S2048x128) hz2, View.ld_unit_zero (S := S2048) hz1, View.ld_unit_zero (S := S2x512) hz2, View.ld_unit_zero (S := S128x512) hz2,
    View.ld_unit_zero (S := S512) hz1, View.ld_unit_zero (S := S256x128) hz2, shapeCast_self]

/-- Case A: the accumulator ends at the zero block plus the tile's contribution. -/
theorem pieceA_s (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : cond0_0 i) (hc1 : ¬cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) :
    VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1) = accStep x0 x1 x2 x3 x4 x5 x6 (k0_pay3 (F := F)) := by
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S256x128) hz2, View.readCov_unit_zero (S := S256x128) _ hz2]
  simp only [View.readAt_eq_ld, harg2.read_unread, harg3.read_unread, harg4.read_unread, harg5.read_unread, harg6.read_unread, harg7.read_unread, harg8.read_unread, harg11.read_unread,
    View.ld_unit_zero (S := S2048x2) hz2, View.ld_unit_zero (S := S2048x128) hz2, View.ld_unit_zero (S := S2048) hz1, View.ld_unit_zero (S := S2x512) hz2, View.ld_unit_zero (S := S128x512) hz2,
    View.ld_unit_zero (S := S512) hz1, View.ld_unit_zero (S := S256x128) hz2, shapeCast_self]

/-- Case B: the accumulator ends at what it held plus the tile's contribution. -/
theorem pieceB_s (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : ¬cond0_0 i) (hc1 : ¬cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (xs0 : Vec F S256x128 .f32) :
    VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.2.1) = accStep x0 x1 x2 x3 x4 x5 x6 xs0 := by
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg11.read_unread,
    View.ld_unit_zero (S := S2048x2) hz2, View.ld_unit_zero (S := S2048x128) hz2, View.ld_unit_zero (S := S2048) hz1, View.ld_unit_zero (S := S2x512) hz2, View.ld_unit_zero (S := S128x512) hz2,
    View.ld_unit_zero (S := S512) hz1, View.ld_unit_zero (S := S256x128) hz2, shapeCast_self]

/-- Case C: the accumulator likewise, -/
theorem pieceC_s (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : ¬cond0_0 i) (hc1 : cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (xs0 : Vec F S256x128 .f32) :
    VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1) = accStep x0 x1 x2 x3 x4 x5 x6 xs0 := by
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg11.read_unread,
    View.ld_unit_zero (S := S2048x2) hz2, View.ld_unit_zero (S := S2048x128) hz2, View.ld_unit_zero (S := S2048) hz1, View.ld_unit_zero (S := S2x512) hz2, View.ld_unit_zero (S := S128x512) hz2,
    View.ld_unit_zero (S := S512) hz1, View.ld_unit_zero (S := S256x128) hz2, shapeCast_self]

/-- and the slab's buffer ends at that accumulator recast to one slab. -/
theorem pieceC_8 (c : Dev nD) (i : grid0.Coords) (arg2 : Memref sig .tc .vmem S2048x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048 .i32) (harg5 : arg5.IsWhole) (arg6 : Memref sig .tc .vmem S2x512 .bf16) (harg6 : arg6.IsWhole) (arg7 : Memref sig .tc .vmem S128x512 .bf16) (harg7 : arg7.IsWhole) (arg8 : Memref sig .tc .vmem S512 .f32) (harg8 : arg8.IsWhole) (arg9 : Memref sig .tc .vmem S2048x128 .f32) (harg9 : arg9.IsWhole) (arg10 : Memref sig .tc .vmem S1x256x128 .f32) (harg10 : arg10.IsWhole) (arg11 : Memref sig .tc .vmem S256x128 .f32) (harg11 : arg11.IsWhole) (hc0 : ¬cond0_0 i) (hc1 : cond0_1 i)
    (x0 : Vec F S2048x2 .f32) (x1 : Vec F S2048x128 .f32) (x2 : Vec F S2048x128 .f32) (x3 : Vec F S2048 .i32) (x4 : Vec F S2x512 .bf16) (x5 : Vec F S128x512 .bf16) (x6 : Vec F S512 .f32) (xs0 : Vec F S256x128 .f32) :
    VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1) = k0_pay2 (accStep x0 x1 x2 x3 x4 x5 x6 xs0) := by
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz3, View.readCov_unit_zero (S := S256x128) _ hz2]
  simp only [View.readAt_eq_ld, harg2.read_unread, harg3.read_unread, harg4.read_unread, harg5.read_unread, harg6.read_unread, harg7.read_unread, harg8.read_unread, harg11.read_unread,
    View.ld_unit_zero (S := S2048x2) hz2, View.ld_unit_zero (S := S2048x128) hz2, View.ld_unit_zero (S := S2048) hz1, View.ld_unit_zero (S := S2x512) hz2, View.ld_unit_zero (S := S128x512) hz2,
    View.ld_unit_zero (S := S512) hz1, View.ld_unit_zero (S := S256x128) hz2, shapeCast_self]

end Cert.KernelIdeal.Gen

end
-- ==== Proof.KI.R0Acc.lean ====
/-
  Region 0: what the buffers hold after each point, as the body's arithmetic. The new-cell-state buffer holds the
  tile's new cell state at every point. The accumulator after point `t` is a fold over the tiles of `t`'s half up to
  `t`: the zero block plus the first tile's contribution, then one tile's contribution added per point. At a half's
  last tile the slab's buffer holds that fold recast to one slab.
-/
import proofs.«177821_j68058051772553_2_alg».proof.Proof.KI.R0Pieces

set_option maxRecDepth 16384
set_option maxHeartbeats 1000000

noncomputable section

namespace Cert.KernelIdeal.Gen

open Idealize.ShloMosaic Idealize.ShloMosaic.TcCoe Idealize.ShloMosaic.Tactic
open Idealize.SL Idealize.SL.Sem
open Idealize.ShloMosaic.Pipeline (Dat)

variable {F : FTy → Type} [FloatOps F]
variable (V : (c : Dev nD) → (b : Ref sig .tc) → Buf (Elt F) ((c : Thread nD τ).loc b))

/-- The tile at point `t` added to an accumulator `a`. -/
def tileAdd (c : Dev nD) (t : Fin cfg0.N) (a : Vec F S256x128 .f32) : Vec F S256x128 .f32 :=
  accStep (iblk0 V c 0 t) (iblk0 V c 1 t) (iblk0 V c 2 t) (iblk0 V c 3 t) (iblk0 V c 4 t) (iblk0 V c 5 t) (iblk0 V c 6 t) a

/-- After every point the new-cell-state buffer holds the tile's new cell state. -/
theorem cnew_at (c : Dev nD) (t : Fin cfg0.N) :
    (outsAt0 V c t.val t.isLt).1 = k0_pay5 (iblk0 V c 0 t) (iblk0 V c 1 t) (iblk0 V c 2 t) (iblk0 V c 4 t) (iblk0 V c 5 t) (iblk0 V c 6 t) := by
  have hN : t.val < 128 := lt_of_lt_of_eq t.isLt (show cfg0.N = 128 from N_0)
  by_cases h0 : t.val % 64 = 0
  · have h1 : ¬t.val % 64 = 63 := by omega
    rw [outsAt0_A V c t h0 h1]
    unfold outA; dsimp only
    exact pieceA_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)
  · by_cases h1 : t.val % 64 = 63
    · rw [outsAt0_C V c t h0 h1]
      unfold outC; dsimp only
      exact pieceC_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2
    · rw [outsAt0_B V c t h0 h1]
      unfold outB; dsimp only
      exact pieceB_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2

/-- At a half's first tile the accumulator is reset: the zero block plus the tile. -/
theorem acc_first (c : Dev nD) (t : Fin cfg0.N) (h0 : t.val % 64 = 0) :
    (outsAt0 V c t.val t.isLt).2.2 = tileAdd V c t (k0_pay3 (F := F)) := by
  have hN : t.val < 128 := lt_of_lt_of_eq t.isLt (show cfg0.N = 128 from N_0)
  have h1 : ¬t.val % 64 = 63 := by omega
  rw [outsAt0_A V c t h0 h1]
  unfold outA tileAdd; dsimp only
  exact pieceA_s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)

/-- At every other tile it steps from what the point before left. -/
theorem acc_later (c : Dev nD) (t : Fin cfg0.N) (h0 : ¬t.val % 64 = 0) :
    (outsAt0 V c t.val t.isLt).2.2 = tileAdd V c t (outsAt0 V c (t.val - 1) (Nat.lt_of_le_of_lt (Nat.sub_le _ _) t.isLt)).2.2 := by
  by_cases h1 : t.val % 64 = 63
  · rw [outsAt0_C V c t h0 h1]
    unfold outC tileAdd; dsimp only
    exact pieceC_s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2
  · rw [outsAt0_B V c t h0 h1]
    unfold outB tileAdd; dsimp only
    exact pieceB_s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2

/-- The reset value and the step of the fold, indexed by position. -/
def accA (c : Dev nD) (n : ℕ) (h : n < cfg0.N) : Vec F S256x128 .f32 := tileAdd V c ⟨n, h⟩ (k0_pay3 (F := F))
def accG (c : Dev nD) (n : ℕ) (h : n < cfg0.N) (a : Vec F S256x128 .f32) : Vec F S256x128 .f32 := tileAdd V c ⟨n, h⟩ a

/-- THE FOLD: after point `t` the accumulator is the fold over the tiles of `t`'s half from its first to `t`. -/
theorem acc_fold (c : Dev nD) (t : ℕ) (ht : t < cfg0.N) (h' : 64 * (t / 64) + t % 64 < cfg0.N) :
    (outsAt0 V c t ht).2.2 = Pipeline.accAt (accA V c) (accG V c) (64 * (t / 64)) (t % 64) h' :=
  Pipeline.eq_accAt_of_mod (α := Vec F S256x128 .f32) (N := cfg0.N) (fun n h => (outsAt0 V c n h).2.2) 64 (accA V c) (accG V c)
    (fun n h h0 => acc_first V c ⟨n, h⟩ h0)
    (fun n h h0 => acc_later V c ⟨n + 1, h⟩ h0)
    (by omega) t ht h'

/-- At a half's last tile the slab's buffer holds the accumulator recast to one slab. -/
theorem slab_at (c : Dev nD) (t : Fin cfg0.N) (h1 : t.val % 64 = 63) :
    (outsAt0 V c t.val t.isLt).2.1 = k0_pay2 ((outsAt0 V c t.val t.isLt).2.2) := by
  have h0 : ¬t.val % 64 = 0 := by omega
  rw [outsAt0_C V c t h0 h1]
  unfold outC; dsimp only
  exact (pieceC_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2).trans
    (congrArg k0_pay2 (pieceC_s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2).symm)

end Cert.KernelIdeal.Gen

end
-- ==== Proof.Spec.lean ====
/-
  The mathematics of one LSTM-cell step followed by grid-cell pooling, on the extended reals, as whole-array
  functions of the argument arrays — the one statement both programs are read against.

  Arguments (all entries extended reals): positions `x : [N,2]`, hidden state `h : [N,H]`, cell state `c : [N,H]`,
  input weights `wi : [4H,2]`, recurrent weights `wh : [4H,H]`, biases `bi bh : [4H]`, with N = 262144 rows and
  H = 128; and a cell number `sg n < 256` for every row n (the row's position binned on a 16 x 16 grid).

  * `gate n j`  — pre-activation j of row n: the two matrix products against the transposed weights, summed, plus
    the summed biases.
  * `cnew n d`  — the new cell state: forget gate (columns H..2H) times the old cell state plus input gate
    (columns 0..H) times the candidate (tanh of columns 2H..3H).
  * `hnew n d`  — the new hidden state: output gate (columns 3H..4H) times tanh of the new cell state.
  * `slab s b d` — over the rows of half s of the array (rows s·131072 .. s·131072 + 131071), taken as 64 tiles of
    2048 rows, the sum of `hnew` over the rows whose cell is b, written as a sum of indicator-weighted terms.
  * `bins b d`  — the two halves added: the sum of `hnew` over all rows of cell b.
  * `pooled n d` — row n's own cell's sum, selected by an indicator-weighted sum over the 256 cells.
-/
import Idealize.ShloMosaic.PureOps.Ideal
import Idealize.ShloMosaic.Lib.ValueIdx

noncomputable section

namespace Cert.Pool

open Idealize.ShloMosaic Idealize.ShloMosaic.ValueIdx

abbrev SN2 : Shape := ⟨2, ![262144, 2]⟩
abbrev SNH : Shape := ⟨2, ![262144, 128]⟩
abbrev SG2 : Shape := ⟨2, ![512, 2]⟩
abbrev SGH : Shape := ⟨2, ![512, 128]⟩
abbrev SG : Shape := ⟨1, ![512]⟩
abbrev SBH : Shape := ⟨2, ![256, 128]⟩

/-- Column `o + d` of the 512 gate columns, for a block offset `o ≤ 384`. -/
abbrev col (o : Nat) (ho : o + 128 ≤ 512) (d : Fin 128) : Fin 512 := ⟨o + d.val, by omega⟩

/-- Row `(s·64 + i)·2048 + r`: row r of tile i of half s. -/
abbrev row (s : Fin 2) (i : Fin 64) (r : Fin 2048) : Fin 262144 := ⟨(s.val * 64 + i.val) * 2048 + r.val, by omega⟩

/-- The indicator of `a = b` as an extended real. -/
abbrev ind (a b : Fin 256) : EReal := if a = b then 1 else 0

section

variable (x : SN2.Idx → EReal) (h c : SNH.Idx → EReal) (wi : SG2.Idx → EReal) (wh : SGH.Idx → EReal)
  (bi bh : SG.Idx → EReal) (sg : Fin 262144 → Fin 256)

/-- Pre-activation `j` of row `n`. -/
def gate (n : Fin 262144) (j : Fin 512) : EReal :=
  ((∑ k : Fin 2, x (ix2 n k) * wi (ix2 j k)) + (∑ k : Fin 128, h (ix2 n k) * wh (ix2 j k))) + (bi (ix1 j) + bh (ix1 j))

/-- The new cell state. -/
def cnew (n : Fin 262144) (d : Fin 128) : EReal :=
  Ideal.logistic (gate x h wi wh bi bh n (col 128 (by omega) d)) * c (ix2 n d)
    + Ideal.logistic (gate x h wi wh bi bh n (col 0 (by omega) d)) * Ideal.tanh (gate x h wi wh bi bh n (col 256 (by omega) d))

/-- The new hidden state. -/
def hnew (n : Fin 262144) (d : Fin 128) : EReal :=
  Ideal.logistic (gate x h wi wh bi bh n (col 384 (by omega) d)) * Ideal.tanh (cnew x h c wi wh bi bh n d)

/-- Half `s`'s sum of the new hidden state over the rows of cell `b`, tile by tile. -/
def slab (s : Fin 2) (b : Fin 256) (d : Fin 128) : EReal :=
  ∑ i : Fin 64, ∑ r : Fin 2048, ind (sg (row s i r)) b * hnew x h c wi wh bi bh (row s i r) d

/-- The sum of the new hidden state over all rows of cell `b`. -/
def bins (b : Fin 256) (d : Fin 128) : EReal :=
  slab x h c wi wh bi bh sg 0 b d + slab x h c wi wh bi bh sg 1 b d

/-- Row `n`'s own cell's sum. -/
def pooled (n : Fin 262144) (d : Fin 128) : EReal :=
  ∑ b : Fin 256, ind (sg n) b * bins x h c wi wh bi bh sg b d

end

end Cert.Pool

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«177821_j68058051772553_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibDotAxis0.lean ====
/-
  A matrix product that contracts the leading axis of both operands, read at an entry.

  The operands are a [K, M] and a [K, N] matrix; the product has no batch axis, contracts axis 0 of the left operand
  with axis 0 of the right one, and keeps the left operand's columns as the result's rows and the right operand's
  columns as its columns: the result is the [M, N] matrix "left transposed times right". On the extended reals the
  matrix unit accumulating into zero reads at entry (p, q) as the sum over the K contracted rows k of
  lhs (k, p) * rhs (k, q). A record of dimension numbers is determined by its six lists of axes (its last field is a
  proof), so the statement holds for every record carrying those lists.
-/
import Idealize.ShloMosaic.PureOps.Ideal.Laws
import Idealize.ShloMosaic.Lib.ValueIdx

namespace DotAxis0

open Idealize.ShloMosaic Idealize.ShloMosaic.ValueIdx

variable {M K N : ℕ}

/-- The record with the six lists "contract axis 0 with axis 0, keep axis 1 and axis 1, no batch", over any proof of
    its side conditions. -/
abbrev dims (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wf : DotDims.WF ⟨2, ![K, M]⟩ ⟨2, ![K, N]⟩ ⟨2, ![M, N]⟩ [0] [0] [1] [1] [] [])

/-- The left operand's index at output entry (p, q) and contracted row k is (k, p). -/
theorem lhsIdx_eq (p : Fin M) (q : Fin N) (k : Fin K) :
    (dims wf).lhsIdx (ix2 p q) ((contrEquiv1 (dims wf) K rfl rfl).symm k) = ix2 k p := by
  have hk := contrEquiv1_symm_val (dims wf) K rfl rfl k
  funext a
  apply Fin.ext
  match a with
  | ⟨0, _⟩ => exact ((dims wf).lhsIdx_val_of_single (cl := 0) rfl _ _).trans hk
  | ⟨1, _⟩ => rfl

/-- The right operand's index at output entry (p, q) and contracted row k is (k, q). -/
theorem rhsIdx_eq (p : Fin M) (q : Fin N) (k : Fin K) :
    (dims wf).rhsIdx (ix2 p q) ((contrEquiv1 (dims wf) K rfl rfl).symm k) = ix2 k q := by
  have hk := contrEquiv1_symm_val (dims wf) K rfl rfl k
  funext a
  apply Fin.ext
  match a with
  | ⟨0, _⟩ => exact ((dims wf).rhsIdx_val_of_single (cr := 0) rfl _ _).trans hk
  | ⟨1, _⟩ => rfl

/-- The contraction at entry (p, q) is the sum over the K contracted rows. -/
theorem contraction (lhs : (⟨2, ![K, M]⟩ : Shape).Idx → EReal) (rhs : (⟨2, ![K, N]⟩ : Shape).Idx → EReal)
    (p : Fin M) (q : Fin N) :
    ∑ k : (dims wf).contr.Idx, lhs ((dims wf).lhsIdx (ix2 p q) k) * rhs ((dims wf).rhsIdx (ix2 p q) k)
      = ∑ k : Fin K, lhs (ix2 k p) * rhs (ix2 k q) := by
  rw [← Equiv.sum_comp (contrEquiv1 (dims wf) K rfl rfl).symm]
  refine Finset.sum_congr rfl fun k _ => ?_
  rw [lhsIdx_eq, rhsIdx_eq]

/-- The matrix unit accumulating into the zero vector, under any record with these lists, at entry (p, q). -/
theorem matmul_zero_apply {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (lhs : FVec Ideal ⟨2, ![K, M]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 k p) * rhs (ix2 k q) := by
  obtain ⟨lc, rc, ln, rn, lb, rb, wf⟩ := d
  simp only at h1 h2 h3 h4 h5 h6
  subst h1 h2 h3 h4 h5 h6
  exact (Ideal.matmul_constant_zero_apply (dims wf) prec lhs rhs (ix2 p q)).trans (contraction wf lhs rhs p q)

end DotAxis0
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibOneHot.lean ====
/-
  The one-hot mask of a word per row, read at an entry.

  A vector of a words, one per row, is spread over the b columns of an [a, b] array (through the column [a, 1]) and
  compared for equality with the column number (the count along axis 1); the one-bit result is widened to 32 bits
  and converted to a float. On the extended reals entry (r, c) is 1 where row r's word is the word of c and 0
  elsewhere.
-/
import Idealize.ShloMosaic.PureOps.Ideal.Laws
import Idealize.ShloMosaic.Lib.ValueIdx
import Idealize.ShloMosaic.Lib.Pipeline.Value
import proofs.«177821_j68058051772553_2_alg».proof.Proof.LibRowOps

namespace OneHot

open Idealize.ShloMosaic Idealize.ShloMosaic.ValueIdx

/-- A one-bit word widened to 32 bits without sign and then read as a signed integer is 1 or 0. -/
theorem toInt_setWidth_ofBool (b : Bool) : ((BitVec.ofBool b).setWidth 32).toInt = if b then 1 else 0 := by
  cases b <;> decide

/-- Two arrays of words compared for equality, the one-bit result widened to 32 bits and converted to a float: the
    entry is 1 where the words agree and 0 where they differ. -/
theorem eq_mask32_apply {s : Shape} {w : Nat} (x y : IVec s w) (h : 1 < 32) (i : s.Idx) :
    sitofp (F := Ideal) .f32 (extui 32 (cmpi .eq x y) h) i = if x i = y i then (1 : EReal) else 0 := by
  show ((((BitVec.ofBool (x i == y i)).setWidth 32).toInt : ℝ) : EReal) = _
  rw [toInt_setWidth_ofBool]
  by_cases hxy : x i = y i
  · simp [hxy]
  · simp [hxy]

variable {a b : ℕ}

/-- The count along the columns of an [a, b] array reads, at (r, c), the word of c. -/
theorem iota_cols_apply (κ : Kind) (h : (⟨2, ![a, b]⟩ : Shape).Iotas κ 32 [1]) (r : Fin a) (c : Fin b) :
    iota κ ⟨2, ![a, b]⟩ 32 [1] h (ix2 r c) = BitVec.ofNat 32 c.val :=
  iota_single_apply κ ⟨2, ![a, b]⟩ 32 1 h (ix2 r c)

/-- A column [a, 1] of the rows' words spread over the columns reads, at (r, c), row r's word. -/
theorem mask_apply (κ : Kind) (col : IVec ⟨2, ![a, 1]⟩ 32) (h2 : (⟨2, ![a, 1]⟩ : Shape).Broadcasts ⟨2, ![a, b]⟩)
    (hi : (⟨2, ![a, b]⟩ : Shape).Iotas κ 32 [1]) (h : 1 < 32) (r : Fin a) (c : Fin b) :
    sitofp (F := Ideal) .f32 (extui 32 (cmpi .eq (broadcastTo ⟨2, ![a, b]⟩ col h2) (iota κ ⟨2, ![a, b]⟩ 32 [1] hi)) h) (ix2 r c)
      = if col (ix2 r (0 : Fin 1)) = BitVec.ofNat 32 c.val then (1 : EReal) else 0 := by
  rw [eq_mask32_apply, Gcn.Lib.broadcastTo_a1_ab_apply col h2 r c, iota_cols_apply]

end OneHot
-- ==== Proof.KI.R0Value.lean ====
import proofs.«177821_j68058051772553_2_alg».proof.Proof.Gen.KernelIdeal.Skeleton
import proofs.«177821_j68058051772553_2_alg».proof.Proof.Spec
import proofs.«177821_j68058051772553_2_alg».proof.Proof.LibDotRecord
import proofs.«177821_j68058051772553_2_alg».proof.Proof.LibDotAxis0
import proofs.«177821_j68058051772553_2_alg».proof.Proof.LibOneHot
import proofs.«177821_j68058051772553_2_alg».proof.Proof.LibRowOps
import Idealize.ShloMosaic.PureOps.Ideal.Laws
import Idealize.ShloMosaic.Lib.ValueIdx
import Idealize.ShloMosaic.Lib.Pipeline.Value

/-! # Region 0's values, read at an entry

A tile is 2048 rows. The gate pre-activations of a row are its position times the input weights plus its hidden
state times the recurrent weights plus the summed biases, 512 columns in four blocks of 128 (input, forget, cell,
output gate). The new cell state is sigmoid(forget) * c + sigmoid(input) * tanh(cell); the new hidden state is
sigmoid(output) * tanh(new cell state). The per-cell sums accumulate, into a [256, 128] table, the one-hot matrix of
the rows' cell numbers transposed times the tile's new hidden states. -/

noncomputable section

namespace Cert.KernelIdeal.Gen

open Idealize.ShloMosaic Idealize.ShloMosaic.ValueIdx

/-! ## Small reads -/

theorem logistic_at {s : Shape} {φ : FTy} (v : FVec Ideal s φ) (i : s.Idx) : logistic v i = Ideal.logistic (v i) := rfl
theorem tanh_at {s : Shape} {φ : FTy} (v : FVec Ideal s φ) (i : s.Idx) : tanh v i = Ideal.tanh (v i) := rfl

/-- The bias vector as a row repeated down the 2048 rows: [512] → [1, 512] → [2048, 512] reads, at (r, j), entry j. -/
theorem bias_row_apply (bs : FVec Ideal S512 .f32) (h1 : S512.ShapeCasts S1x512) (h2 : S1x512.Broadcasts S2048x512)
    (r : Fin 2048) (j : Fin 512) :
    broadcastTo S2048x512 (shapeCast S1x512 bs h1) h2 (ix2 r j) = bs (ix1 j) := by
  rw [DotRecord.broadcastTo_1b_ab_apply (shapeCast S1x512 bs h1) h2 r j]
  exact (shapeCast_addUnit_apply ![512] bs h1 (ix2 (0 : Fin 1) j)).trans
    (congrArg bs (funext fun a => match a with | ⟨0, _⟩ => rfl))

/-- A block of 128 columns starting at column o of a [2048, 512] array reads, at (r, d), the array at (r, o + d). -/
theorem colSlice_apply {α : Type} (o : Nat) (ho : o + 128 ≤ 512) (v : S2048x512.Idx → α)
    (h : S2048x512.Slices ![0, o] S2048x128) (r : Fin 2048) (d : Fin 128) :
    extractStridedSlice S2048x128 ![0, o] v h (ix2 r d) = v (ix2 r (Cert.Pool.col o ho d)) :=
  extractStridedSlice_apply ![0, o] v h (ix2 r d) (ix2 r (Cert.Pool.col o ho d)) fun a => match a with
    | ⟨0, _⟩ => (Nat.zero_add _).symm
    | ⟨1, _⟩ => rfl

/-! ## The gates -/

/-- The gate pre-activation of row r at gate column j, from the tile's blocks. -/
def tileGate (x : Vec Ideal S2048x2 .f32) (h : Vec Ideal S2048x128 .f32) (wi : Vec Ideal S2x512 .bf16)
    (wh : Vec Ideal S128x512 .bf16) (bs : Vec Ideal S512 .f32) (r : Fin 2048) (j : Fin 512) : EReal :=
  ((∑ k : Fin 2, (x (ix2 r k) : EReal) * (wi (ix2 k j) : EReal)) + (∑ k : Fin 128, (h (ix2 r k) : EReal) * (wh (ix2 k j) : EReal)))
    + (bs (ix1 j) : EReal)

theorem k0_pay4_apply (x : Vec Ideal S2048x2 .f32) (h : Vec Ideal S2048x128 .f32) (wi : Vec Ideal S2x512 .bf16)
    (wh : Vec Ideal S128x512 .bf16) (bs : Vec Ideal S512 .f32) (r : Fin 2048) (j : Fin 512) :
    k0_pay4 (F := Ideal) x h wi wh bs (ix2 r j) = tileGate x h wi wh bs r j := by
  unfold k0_pay4 tileGate
  simp only [matmul]
  rw [addf_apply, addf_apply,
    DotRecord.matmul_zero_apply dot_S2048x2_S2x512_S2048x512_1_0_0_1_n_n rfl rfl rfl rfl rfl rfl,
    DotRecord.matmul_zero_apply dot_S2048x128_S128x512_S2048x512_1_0_0_1_n_n rfl rfl rfl rfl rfl rfl,
    bias_row_apply, shapeCast_self, shapeCast_self, shapeCast_self]
  rfl

/-! ## The new cell state and the new hidden state -/

theorem k0_pay5_apply (x : Vec Ideal S2048x2 .f32) (h c : Vec Ideal S2048x128 .f32) (wi : Vec Ideal S2x512 .bf16)
    (wh : Vec Ideal S128x512 .bf16) (bs : Vec Ideal S512 .f32) (r : Fin 2048) (d : Fin 128) :
    k0_pay5 (F := Ideal) x h c wi wh bs (ix2 r d)
      = Ideal.logistic (tileGate x h wi wh bs r (Cert.Pool.col 128 (by omega) d)) * c (ix2 r d)
        + Ideal.logistic (tileGate x h wi wh bs r (Cert.Pool.col 0 (by omega) d))
          * Ideal.tanh (tileGate x h wi wh bs r (Cert.Pool.col 256 (by omega) d)) := by
  unfold k0_pay5
  rw [addf_apply, mulf_apply, mulf_apply, logistic_at, logistic_at, tanh_at,
    colSlice_apply 128 (by omega), colSlice_apply 0 (by omega), colSlice_apply 256 (by omega),
    k0_pay4_apply, k0_pay4_apply, k0_pay4_apply]

theorem k0_pay6_apply (x : Vec Ideal S2048x2 .f32) (h c : Vec Ideal S2048x128 .f32) (wi : Vec Ideal S2x512 .bf16)
    (wh : Vec Ideal S128x512 .bf16) (bs : Vec Ideal S512 .f32) (r : Fin 2048) (d : Fin 128) :
    k0_pay6 (F := Ideal) x h c wi wh bs (ix2 r d)
      = Ideal.logistic (tileGate x h wi wh bs r (Cert.Pool.col 384 (by omega) d))
        * Ideal.tanh (k0_pay5 (F := Ideal) x h c wi wh bs (ix2 r d)) := by
  unfold k0_pay6
  rw [mulf_apply, logistic_at, tanh_at, colSlice_apply 384 (by omega), k0_pay4_apply]

/-! ## The per-cell sums -/

theorem k0_pay1_apply (hn : Vec Ideal S2048x128 .f32) (sgv : Vec Ideal S2048 .i32) (acc : Vec Ideal S256x128 .f32)
    (b : Fin 256) (d : Fin 128) :
    k0_pay1 (F := Ideal) hn (iota .tc S2048x256 32 [1] iota_S2048x256_d1_w32) (k0_pay7 (F := Ideal) sgv) acc (ix2 b d)
      = acc (ix2 b d) + ∑ r : Fin 2048, (if sgv (ix1 r) = BitVec.ofNat 32 b.val then (1 : EReal) else 0) * hn (ix2 r d) := by
  unfold k0_pay1 k0_pay7
  simp only [matmul]
  rw [shapeCast_self, addf_apply,
    DotAxis0.matmul_zero_apply dot_S2048x256_S2048x128_S256x128_0_0_1_1_n_n rfl rfl rfl rfl rfl rfl]
  refine congrArg (acc (ix2 b d) + ·) (Finset.sum_congr rfl fun r _ => ?_)
  rw [OneHot.mask_apply, Gcn.Lib.shapeCast_a_a1_apply, shapeCast_self]

theorem k0_pay3_apply (b : Fin 256) (d : Fin 128) : k0_pay3 (F := Ideal) (ix2 b d) = 0 := by
  unfold k0_pay3
  rw [shapeCast_self, broadcast_apply]
  exact Ideal.ofBits_zero_f32

theorem k0_pay2_apply (v : Vec Ideal S256x128 .f32) (b : Fin 256) (d : Fin 128) :
    k0_pay2 (F := Ideal) v (ix3 (0 : Fin 1) b d) = v (ix2 b d) := by
  unfold k0_pay2
  exact (shapeCast_addUnit_apply ![256, 128] v shapeCasts_S256x128_S1x256x128 (ix3 (0 : Fin 1) b d)).trans
    (congrArg v (funext fun a => match a with | ⟨0, _⟩ => rfl | ⟨1, _⟩ => rfl))

end Cert.KernelIdeal.Gen

end
-- ==== Proof.SpecT.lean ====
/-
  The LSTM-cell step with the weights as the kernel holds them: the two weight matrices transposed ([2, 4H] and
  [H, 4H]) and the two biases already summed into one. With `wiT (k, j) = wi (j, k)`, `whT (k, j) = wh (j, k)` and
  `b j = bi j + bh j` these are the functions of `Cert.Pool`: the same sums, term by term.
-/
import proofs.«177821_j68058051772553_2_alg».proof.Proof.Spec

noncomputable section

namespace Cert.Pool

open Idealize.ShloMosaic Idealize.ShloMosaic.ValueIdx

abbrev S2G : Shape := ⟨2, ![2, 512]⟩
abbrev SHG : Shape := ⟨2, ![128, 512]⟩

section

variable (x : SN2.Idx → EReal) (h c : SNH.Idx → EReal) (wiT : S2G.Idx → EReal) (whT : SHG.Idx → EReal) (b : SG.Idx → EReal)

/-- Pre-activation `j` of row `n`, the weights transposed and the biases summed. -/
def gateT (n : Fin 262144) (j : Fin 512) : EReal :=
  ((∑ k : Fin 2, x (ix2 n k) * wiT (ix2 k j)) + (∑ k : Fin 128, h (ix2 n k) * whT (ix2 k j))) + b (ix1 j)

def cnewT (n : Fin 262144) (d : Fin 128) : EReal :=
  Ideal.logistic (gateT x h wiT whT b n (col 128 (by omega) d)) * c (ix2 n d)
    + Ideal.logistic (gateT x h wiT whT b n (col 0 (by omega) d)) * Ideal.tanh (gateT x h wiT whT b n (col 256 (by omega) d))

def hnewT (n : Fin 262144) (d : Fin 128) : EReal :=
  Ideal.logistic (gateT x h wiT whT b n (col 384 (by omega) d)) * Ideal.tanh (cnewT x h c wiT whT b n d)

variable (wi : SG2.Idx → EReal) (wh : SGH.Idx → EReal) (bi bh : SG.Idx → EReal)
  (hwi : ∀ (k : Fin 2) (j : Fin 512), wiT (ix2 k j) = wi (ix2 j k))
  (hwh : ∀ (k : Fin 128) (j : Fin 512), whT (ix2 k j) = wh (ix2 j k))
  (hb : ∀ j : Fin 512, b (ix1 j) = bi (ix1 j) + bh (ix1 j))

include hwi hwh hb

theorem gateT_eq (n : Fin 262144) (j : Fin 512) : gateT x h wiT whT b n j = gate x h wi wh bi bh n j := by
  unfold gateT gate
  rw [hb j]
  congr 2
  · exact Finset.sum_congr rfl fun k _ => by rw [hwi k j]
  · exact Finset.sum_congr rfl fun k _ => by rw [hwh k j]

theorem cnewT_eq (n : Fin 262144) (d : Fin 128) : cnewT x h c wiT whT b n d = cnew x h c wi wh bi bh n d := by
  unfold cnewT cnew
  rw [gateT_eq x h wiT whT b wi wh bi bh hwi hwh hb, gateT_eq x h wiT whT b wi wh bi bh hwi hwh hb, gateT_eq x h wiT whT b wi wh bi bh hwi hwh hb]

theorem hnewT_eq (n : Fin 262144) (d : Fin 128) : hnewT x h c wiT whT b n d = hnew x h c wi wh bi bh n d := by
  unfold hnewT hnew
  rw [gateT_eq x h wiT whT b wi wh bi bh hwi hwh hb, cnewT_eq x h c wiT whT b wi wh bi bh hwi hwh hb]

end

end Cert.Pool

end
-- ==== Proof.KI.R0Array7.lean ====
/-
  Region 0, the new-cell-state array. A tile's pre-activations are the whole arrays' at row `t · 2048 + r`, so the tile's
  new cell state is the whole-array function `Cert.Pool.cnewT` there; what point `t` writes back is its block of that
  function; the 128 blocks of 2048 rows cover the 262144 rows; so the array ends holding it.
-/
import proofs.«177821_j68058051772553_2_alg».proof.Proof.KI.R0Blocks
import proofs.«177821_j68058051772553_2_alg».proof.Proof.KI.R0Acc
import proofs.«177821_j68058051772553_2_alg».proof.Proof.KI.R0Value
import proofs.«177821_j68058051772553_2_alg».proof.Proof.SpecT

set_option maxRecDepth 16384
set_option maxHeartbeats 1000000

noncomputable section

namespace Cert.KernelIdeal.Gen

open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The region's seven operand arrays as the region finds them, as extended-real functions. -/
abbrev aX (c : Dev nD) : Cert.Pool.SN2.Idx → EReal := V c (Pipeline.arrRef spec0 0)
abbrev aH (c : Dev nD) : Cert.Pool.SNH.Idx → EReal := V c (Pipeline.arrRef spec0 1)
abbrev aC (c : Dev nD) : Cert.Pool.SNH.Idx → EReal := V c (Pipeline.arrRef spec0 2)
abbrev aSg (c : Dev nD) : S262144.Idx → BitVec 32 := V c (Pipeline.arrRef spec0 3)
abbrev aWi (c : Dev nD) : Cert.Pool.S2G.Idx → EReal := V c (Pipeline.arrRef spec0 4)
abbrev aWh (c : Dev nD) : Cert.Pool.SHG.Idx → EReal := V c (Pipeline.arrRef spec0 5)
abbrev aB (c : Dev nD) : Cert.Pool.SG.Idx → EReal := V c (Pipeline.arrRef spec0 6)

/-- A tile's pre-activation is the whole arrays' at the tile's row. -/
theorem tileGate_blocks (c : Dev nD) (t : Fin cfg0.N) (r : Fin 2048) (j : Fin 512) :
    tileGate (iblk0 V c 0 t) (iblk0 V c 1 t) (iblk0 V c 4 t) (iblk0 V c 5 t) (iblk0 V c 6 t) r j = Cert.Pool.gateT (aX V c) (aH V c) (aWi V c) (aWh V c) (aB V c) (trow t r) j := by
  unfold tileGate Cert.Pool.gateT
  simp only [iblk0_0_apply, iblk0_1_apply, iblk0_4_apply, iblk0_5_apply, iblk0_6_apply]

/-- A tile's new cell state is the whole-array function at the tile's row. -/
theorem cnewTile_apply (c : Dev nD) (t : Fin cfg0.N) (r : Fin 2048) (d : Fin 128) :
    k0_pay5 (F := Ideal) (iblk0 V c 0 t) (iblk0 V c 1 t) (iblk0 V c 2 t) (iblk0 V c 4 t) (iblk0 V c 5 t) (iblk0 V c 6 t) (ix2 r d) = Cert.Pool.cnewT (aX V c) (aH V c) (aC V c) (aWi V c) (aWh V c) (aB V c) (trow t r) d := by
  refine (k0_pay5_apply (iblk0 V c 0 t) (iblk0 V c 1 t) (iblk0 V c 2 t) (iblk0 V c 4 t) (iblk0 V c 5 t) (iblk0 V c 6 t) r d).trans ?_
  unfold Cert.Pool.cnewT
  rw [tileGate_blocks V c t r, tileGate_blocks V c t r, tileGate_blocks V c t r, iblk0_2_apply V c t r d]

/-- A tile's new hidden state likewise. -/
theorem hnewTile_apply (c : Dev nD) (t : Fin cfg0.N) (r : Fin 2048) (d : Fin 128) :
    k0_pay6 (F := Ideal) (iblk0 V c 0 t) (iblk0 V c 1 t) (iblk0 V c 2 t) (iblk0 V c 4 t) (iblk0 V c 5 t) (iblk0 V c 6 t) (ix2 r d) = Cert.Pool.hnewT (aX V c) (aH V c) (aC V c) (aWi V c) (aWh V c) (aB V c) (trow t r) d := by
  refine (k0_pay6_apply (iblk0 V c 0 t) (iblk0 V c 1 t) (iblk0 V c 2 t) (iblk0 V c 4 t) (iblk0 V c 5 t) (iblk0 V c 6 t) r d).trans ?_
  unfold Cert.Pool.hnewT
  rw [tileGate_blocks V c t r, cnewTile_apply V c t r d]

/-- What the new-cell-state array ends holding. -/
abbrev G7 (c : Dev nD) : Cert.Pool.SNH.Idx → EReal := fun i => Cert.Pool.cnewT (aX V c) (aH V c) (aC V c) (aWi V c) (aWh V c) (aB V c) (i 0) (i 1)

/-- WHAT POINT `t` WRITES BACK is block `t` of that function. -/
theorem flushed7_eq (c : Dev nD) (t : Fin cfg0.N) :
    (dat0 V c).flushed 7 t = ((cfg0.win 7).blk t).view.read (Elt Ideal) (G7 V c) := by
  show (cfg0.win 7).cut (grid0.coords t) ((dat0 V c).after 7 t) = _
  rw [after0_7, cnew_at]
  funext j
  obtain ⟨r, d, rfl⟩ : ∃ (r : Fin 2048) (d : Fin 128), j = ix2 r d := ⟨j 0, j 1, eq_ix2 j⟩
  show k0_pay5 (F := Ideal) (iblk0 V c 0 t) (iblk0 V c 1 t) (iblk0 V c 2 t) (iblk0 V c 4 t) (iblk0 V c 5 t) (iblk0 V c 6 t) (ix2 r d) = G7 V c (((cfg0.win 7).blk t).view.emb (ix2 r d))
  have he : ((cfg0.win 7).blk t).view.emb (ix2 r d) = ix2 (trow t r) d := by
    obtain ⟨-, -, -, -, -, -, -, -, -, -, -, -, e0, e1, -⟩ := idx_facts0 t
    funext a; apply Fin.ext
    match a with
    | ⟨0, _⟩ => show win0_7.index t (0 : Fin 2) * 2048 + 1 * r.val = t.val * 2048 + r.val; omega
    | ⟨1, _⟩ => show win0_7.index t (1 : Fin 2) * 128 + 1 * d.val = d.val; omega
  rw [he]
  exact cnewTile_apply V c t r d

/-- An index of the array is in point `t`'s block iff each coordinate is in the block's range on its axis. -/
theorem mem_blk7 (t : Fin cfg0.N) (i : S262144x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v32_0).slice (win0_7.rect t)).set ↔ _
  rw [View.set_slice_whole, Rect.mem_set_unit]
  exact Iff.rfl

/-- Every row is in the block of the point `row / 2048`, which writes back. -/
theorem cover7 (i : S262144x128.Idx) :
    ∃ t : Fin cfg0.N, (cfg0.win 7).flush t = true ∧ i ∈ ((cfg0.win 7).blk t).view.set := by
  have hi0 : (i 0).val < 262144 := (i 0).isLt
  have hi1 : (i 1).val < 128 := (i 1).isLt
  have hN : cfg0.N = 128 := N_0
  refine ⟨⟨(i 0).val / 2048, by omega⟩, flush0_7 _, ?_⟩
  rw [mem_blk7]
  obtain ⟨-, -, -, -, -, -, -, -, -, -, -, -, e0, e1, -⟩ := idx_facts0 ⟨(i 0).val / 2048, by omega⟩
  intro a
  match a with
  | ⟨0, _⟩ => show win0_7.index _ (0 : Fin 2) * 2048 ≤ (i 0).val ∧ (i 0).val < win0_7.index _ (0 : Fin 2) * 2048 + 2048; rw [e0]; dsimp only; omega
  | ⟨1, _⟩ => show win0_7.index _ (1 : Fin 2) * 128 ≤ (i 1).val ∧ (i 1).val < win0_7.index _ (1 : Fin 2) * 128 + 128; rw [e1]; omega

/-- THE ARRAY after the region: the new cell state of every row. -/
theorem final7 (c : Dev nD) : (dat0 V c).arrAt 7 cfg0.N = G7 V c :=
  (dat0 V c).arrAt_eq_of_cover 7 (G7 V c) (fun t _ => flushed7_eq V c t) cover7

end Cert.KernelIdeal.Gen

end
-- ==== Proof.KI.R0Array8.lean ====
/-
  Region 0, the per-half sums. Tile `t`'s contribution to cell `b`, column `d` is the sum over its 2048 rows of the new
  hidden state at the rows whose cell number is `b`. The accumulator after point `t` is zero plus the contributions of
  the tiles of `t`'s half from its first up to `t`. A half's last point (`t % 64 = 63`) copies it into the half's slab
  and writes the slab back; the two slabs are the whole array; so slab `s` ends at zero plus the sum over the 64 tiles
  of half `s`.
-/
import proofs.«177821_j68058051772553_2_alg».proof.Proof.KI.R0Array7

set_option maxRecDepth 16384
set_option maxHeartbeats 1000000

noncomputable section

namespace Cert.KernelIdeal.Gen

open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- Tile `t`'s contribution to cell `b`, column `d`. -/
def tileSum (c : Dev nD) (t : Fin cfg0.N) (b : Fin 256) (d : Fin 128) : EReal :=
  ∑ r : Fin 2048, (if aSg V c (ix1 (trow t r)) = BitVec.ofNat 32 b.val then (1 : EReal) else 0) * Cert.Pool.hnewT (aX V c) (aH V c) (aC V c) (aWi V c) (aWh V c) (aB V c) (trow t r) d

/-- Adding a tile to an accumulator adds its contribution, entry by entry. -/
theorem tileAdd_apply (c : Dev nD) (t : Fin cfg0.N) (a : Vec Ideal S256x128 .f32) (b : Fin 256) (d : Fin 128) :
    tileAdd V c t a (ix2 b d) = a (ix2 b d) + tileSum V c t b d := by
  unfold tileAdd
  refine (k0_pay1_apply (k0_pay6 (F := Ideal) (iblk0 V c 0 t) (iblk0 V c 1 t) (iblk0 V c 2 t) (iblk0 V c 4 t) (iblk0 V c 5 t) (iblk0 V c 6 t)) (iblk0 V c 3 t) a b d).trans ?_
  unfold tileSum
  refine congrArg (a (ix2 b d) + ·) (Finset.sum_congr rfl fun r _ => ?_)
  rw [iblk0_3_apply V c t r, hnewTile_apply V c t r d]

/-- Position `n`'s contribution as a function of every natural (zero past the grid, where it is never used). -/
def addend (c : Dev nD) (n : ℕ) (i : S256x128.Idx) : EReal :=
  if h : n < cfg0.N then tileSum V c ⟨n, h⟩ (i 0) (i 1) else 0

theorem addend_of_lt (c : Dev nD) (n : ℕ) (h : n < cfg0.N) (b : Fin 256) (d : Fin 128) :
    addend V c n (ix2 b d) = tileSum V c ⟨n, h⟩ b d := by
  unfold addend; rw [dif_pos h]

/-- THE ACCUMULATOR IN CLOSED FORM: after point `t`, zero plus the contributions of the tiles of its half up to `t`. -/
theorem acc_closed (c : Dev nD) (t : Fin cfg0.N) (i : S256x128.Idx) :
    (outsAt0 V c t.val t.isLt).2.2 i = 0 + ∑ s ∈ Finset.range (t.val % 64 + 1), addend V c (64 * (t.val / 64) + s) i := by
  have hN : cfg0.N = 128 := N_0
  have htN : t.val < 128 := lt_of_lt_of_eq t.isLt hN
  have h' : 64 * (t.val / 64) + t.val % 64 < cfg0.N := by omega
  rw [acc_fold V c t.val t.isLt h']
  refine Pipeline.accAt_add_apply (accA V c) (accG V c) (fun _ => (0 : EReal)) (addend V c) (64 * (t.val / 64)) 63 ?_ ?_ (t.val % 64) (by omega) h' i
  · intro h j
    obtain ⟨b, d, rfl⟩ : ∃ (b : Fin 256) (d : Fin 128), j = ix2 b d := ⟨j 0, j 1, eq_ix2 j⟩
    unfold accA
    rw [tileAdd_apply, k0_pay3_apply, addend_of_lt V c _ h]
  · intro n h a j _ _
    obtain ⟨b, d, rfl⟩ : ∃ (b : Fin 256) (d : Fin 128), j = ix2 b d := ⟨j 0, j 1, eq_ix2 j⟩
    unfold accG
    rw [tileAdd_apply, addend_of_lt V c _ h]

/-- What the array of per-half sums ends holding: slab `s` is zero plus the contributions of tiles `64 s … 64 s + 63`. -/
abbrev G8 (c : Dev nD) : S2x256x128.Idx → EReal := fun i => 0 + ∑ s ∈ Finset.range 64, addend V c (64 * (i 0).val + s) (ix2 (i 1) (i 2))

/-- WHAT A HALF'S LAST POINT WRITES BACK is its slab of that function. -/
theorem flushed8_eq (c : Dev nD) (t : Fin cfg0.N) (hf : (cfg0.win 8).flush t = true) :
    (dat0 V c).flushed 8 t = ((cfg0.win 8).blk t).view.read (Elt Ideal) (G8 V c) := by
  have h1 : t.val % 64 = 63 := (flush0_8 t).mp hf
  have hN : cfg0.N = 128 := N_0
  have htN : t.val < 128 := lt_of_lt_of_eq t.isLt hN
  show (cfg0.win 8).cut (grid0.coords t) ((dat0 V c).after 8 t) = _
  rw [after0_8, slab_at V c t h1]
  funext j
  obtain ⟨z, b, d, rfl⟩ : ∃ (z : Fin 1) (b : Fin 256) (d : Fin 128), j = ix3 z b d := ⟨j 0, j 1, j 2, eq_ix3 j⟩
  obtain rfl : z = 0 := Subsingleton.elim _ _
  show k0_pay2 (F := Ideal) ((outsAt0 V c t.val t.isLt).2.2) (ix3 (0 : Fin 1) b d) = G8 V c (((cfg0.win 8).blk t).view.emb (ix3 (0 : Fin 1) b d))
  have he : ((cfg0.win 8).blk t).view.emb (ix3 (0 : Fin 1) b d) = ix3 (⟨t.val / 64, by omega⟩ : Fin 2) b d := by
    obtain ⟨-, -, -, -, -, -, -, -, -, -, -, -, -, -, e0, e1, e2⟩ := idx_facts0 t
    funext a; apply Fin.ext
    match a with
    | ⟨0, _⟩ => show win0_8.index t (0 : Fin 3) * 1 + 1 * 0 = t.val / 64; omega
    | ⟨1, _⟩ => show win0_8.index t (1 : Fin 3) * 256 + 1 * b.val = b.val; omega
    | ⟨2, _⟩ => show win0_8.index t (2 : Fin 3) * 128 + 1 * d.val = d.val; omega
  rw [he, k0_pay2_apply, acc_closed V c t (ix2 b d), h1]

/-- An index of the array is in point `t`'s slab iff each coordinate is in the slab's range on its axis. -/
theorem mem_blk8 (t : Fin cfg0.N) (i : S2x256x128.Idx) :
    i ∈ ((cfg0.win 8).blk t).view.set ↔ ∀ a : Fin 3, win0_8.index t a * S1x256x128.size a ≤ (i a).val ∧ (i a).val < win0_8.index t a * S1x256x128.size a + S1x256x128.size a := by
  show i ∈ ((View.whole main_v32_1).slice (win0_8.rect t)).set ↔ _
  rw [View.set_slice_whole, Rect.mem_set_unit]
  exact Iff.rfl

/-- Slab `s` is written back by point `64 s + 63`. -/
theorem cover8 (i : S2x256x128.Idx) :
    ∃ t : Fin cfg0.N, (cfg0.win 8).flush t = true ∧ i ∈ ((cfg0.win 8).blk t).view.set := by
  have hi0 : (i 0).val < 2 := (i 0).isLt
  have hi1 : (i 1).val < 256 := (i 1).isLt
  have hi2 : (i 2).val < 128 := (i 2).isLt
  have hN : cfg0.N = 128 := N_0
  have ht : 64 * (i 0).val + 63 < cfg0.N := by omega
  refine ⟨⟨64 * (i 0).val + 63, ht⟩, (flush0_8 _).mpr (by dsimp only; omega), ?_⟩
  rw [mem_blk8]
  obtain ⟨-, -, -, -, -, -, -, -, -, -, -, -, -, -, e0, e1, e2⟩ := idx_facts0 ⟨64 * (i 0).val + 63, ht⟩
  intro a
  match a with
  | ⟨0, _⟩ => show win0_8.index _ (0 : Fin 3) * 1 ≤ (i 0).val ∧ (i 0).val < win0_8.index _ (0 : Fin 3) * 1 + 1; rw [e0]; dsimp only; omega
  | ⟨1, _⟩ => show win0_8.index _ (1 : Fin 3) * 256 ≤ (i 1).val ∧ (i 1).val < win0_8.index _ (1 : Fin 3) * 256 + 256; rw [e1]; omega
  | ⟨2, _⟩ => show win0_8.index _ (2 : Fin 3) * 128 ≤ (i 2).val ∧ (i 2).val < win0_8.index _ (2 : Fin 3) * 128 + 128; rw [e2]; omega

/-- THE ARRAY after the region: each half's sums. -/
theorem final8 (c : Dev nD) : (dat0 V c).arrAt 8 cfg0.N = G8 V c :=
  (dat0 V c).arrAt_eq_of_cover 8 (G8 V c) (fun t hf => flushed8_eq V c t hf) cover8

end Cert.KernelIdeal.Gen

end
-- ==== Proof.KI.R1Value.lean ====
import proofs.«177821_j68058051772553_2_alg».proof.Proof.KI.R1Frame
import proofs.«177821_j68058051772553_2_alg».proof.Proof.LibDotRecord
import proofs.«177821_j68058051772553_2_alg».proof.Proof.LibRowOps
import Idealize.ShloMosaic.PureOps.Ideal.Laws
import Idealize.ShloMosaic.Lib.ValueIdx
import Idealize.ShloMosaic.Lib.Pipeline.Value

/-! # Region 1's output block, read at an entry

The body's product is a one-hot selection: row `p` of the left operand is 1 in the column whose number is the row's cell
number and 0 elsewhere, so entry `(p, d)` of the output is the sum over the 256 cells `b` of that indicator times the
table's entry `(b, d)`. -/

noncomputable section

namespace Cert.KernelIdeal.Gen

open Idealize.ShloMosaic Idealize.ShloMosaic.ValueIdx

/-- A one-bit word widened to 32 bits without sign and then read as a signed integer is 1 or 0. -/
theorem toInt_setWidth_ofBool (b : Bool) : ((BitVec.ofBool b).setWidth 32).toInt = if b then 1 else 0 := by
  cases b <;> decide

/-- Two arrays of words compared for equality, the one-bit result widened to 32 bits and converted to a float: on the
    extended reals the entry is 1 where the words agree and 0 where they differ. -/
theorem eq_mask32_apply {s : Shape} {w : Nat} (x y : IVec s w) (h : 1 < 32) (i : s.Idx) :
    sitofp (F := Ideal) .f32 (extui 32 (cmpi .eq x y) h) i = if x i = y i then (1 : EReal) else 0 := by
  show ((((BitVec.ofBool (x i == y i)).setWidth 32).toInt : ℝ) : EReal) = _
  rw [toInt_setWidth_ofBool]
  by_cases hxy : x i = y i
  · simp [hxy]
  · simp [hxy]

/-- The count along the columns of a [4096, 256] array reads, at (p, b), the word of b. -/
theorem iota_cols_apply (h : S4096x256.Iotas .tc 32 [1]) (p : Fin 4096) (b : Fin 256) :
    iota .tc S4096x256 32 [1] h (ix2 p b) = BitVec.ofNat 32 b.val :=
  iota_single_apply .tc S4096x256 32 1 h (ix2 p b)

/-- The rows' words spread over the columns: [4096] → [4096, 1] → [4096, 256] reads, at (p, b), the word of row p. -/
theorem rows_spread_apply (x : IVec S4096 32) (h1 : S4096.ShapeCasts S4096x1) (h2 : S4096x1.Broadcasts S4096x256)
    (p : Fin 4096) (b : Fin 256) :
    broadcastTo S4096x256 (shapeCast S4096x1 x h1) h2 (ix2 p b) = x (ix1 p) := by
  rw [Gcn.Lib.broadcastTo_a1_ab_apply (shapeCast S4096x1 x h1) h2 p b, Gcn.Lib.shapeCast_a_a1_apply x h1 p (0 : Fin 1)]

/-- The body's product at an entry: the one-hot row of p against column d of the table. -/
theorem k1_pay1_apply (x0 : Vec Ideal S4096 .i32) (x1 : Vec Ideal S256x128 .f32) (p : Fin 4096) (d : Fin 128) :
    k1_pay1 (F := Ideal) x0 x1 (ix2 p d)
      = ∑ b : Fin 256, (if x0 (ix1 p) = BitVec.ofNat 32 b.val then (1 : EReal) else 0) * x1 (ix2 b d) := by
  unfold k1_pay1
  simp only [matmul]
  rw [DotRecord.matmul_zero_apply dot_S4096x256_S256x128_S4096x128_1_0_0_1_n_n rfl rfl rfl rfl rfl rfl]
  refine Finset.sum_congr rfl fun b _ => ?_
  rw [eq_mask32_apply, rows_spread_apply, iota_cols_apply, shapeCast_self, shapeCast_self]

/-- Window 2's buffer after the body, at an entry: the sum over the cells of the indicator "row p's cell number is b"
    times the table's entry (b, d). -/
theorem out1_2_apply (x0 : Vec Ideal S4096 .i32) (x1 : Vec Ideal S256x128 .f32) (p : Fin 4096) (d : Fin 128) :
    out1_2 (F := Ideal) x0 x1 (ValueIdx.ix2 p d)
      = ∑ b : Fin 256, (if x0 (ValueIdx.ix1 p) = BitVec.ofNat 32 b.val then (1 : EReal) else 0) * x1 (ValueIdx.ix2 b d) := by
  have hz1 : (![0] : Fin 1 → Nat) = fun _ => 0 := by funext a; fin_cases a; rfl
  have hz2 : (![0, 0] : Fin 2 → Nat) = fun _ => 0 := by funext a; fin_cases a <;> rfl
  unfold out1_2
  rw [View.canon_unit_zero hz2, View.ld_unit_zero (S := S4096) hz1, View.ld_unit_zero (S := S256x128) hz2]
  exact k1_pay1_apply x0 x1 p d

end Cert.KernelIdeal.Gen

end
-- ==== Proof.KI.R1Array.lean ====
import proofs.«177821_j68058051772553_2_alg».proof.Proof.KI.R1Value
import Idealize.ShloMosaic.Lib.Pipeline.Value

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open Idealize.ShloMosaic.Pipeline (Dat Cfg Window BodyObligation cellOf)

-- the core's buffer contents when the region is entered, on the extended reals
variable (V : (c : Dev nD) → (b : Ref sig .tc) → Buf (Elt Ideal) ((c : Thread nD τ).loc b))

/-! # Region 1 from blocks to the array

Point t of the 64 writes back rows 4096 t … 4096 t + 4095 of the output, all 128 columns; it reads the same rows of the
cell numbers and the whole table of sums. So the output array ends as one function of the two input arrays: entry
(n, d) is the sum over the 256 cells b of the indicator "row n's cell number is b" times the table's entry (b, d). -/

/-- The printed index maps, decided once over the grid: windows 0 and 2 move with the point along the rows, window 1
    stays on its one block, and window 2 has one block of columns. -/
theorem idx_facts1 : ∀ t : Fin cfg1.N, win1_0.index t (0 : Fin 1) = t.val
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of point t's block is row 4096 t + p of the array. -/
theorem row_lt1 (t : Fin cfg1.N) (p : Fin 4096) : t.val * 4096 + p.val < 262144 := by
  have ht : t.val < 64 := lt_of_lt_of_eq t.isLt N_1
  have hp := p.isLt
  omega

/-- The whole output array as one function of the two input arrays. -/
def G1 (a0 : S262144.Idx → BitVec 32) (a1 : S256x128.Idx → EReal) : S262144x128.Idx → EReal :=
  fun i => ∑ b : Fin 256, (if a0 (ix1 (i 0 : Fin 262144)) = BitVec.ofNat 32 b.val then (1 : EReal) else 0) * a1 (ix2 b (i 1 : Fin 128))

/-! ## Where a block's entries sit in the arrays -/

theorem emb1_0 (t : Fin cfg1.N) (p : Fin 4096) :
    ((cfg1.win 0).blk t).view.emb (ix1 p) = (ix1 (⟨t.val * 4096 + p.val, row_lt1 t p⟩ : Fin 262144) : S262144.Idx) := by
  obtain ⟨e0, -⟩ := idx_facts1 t
  funext a; apply Fin.ext
  match a with
  | ⟨0, _⟩ => show win1_0.index t (0 : Fin 1) * 4096 + 1 * p.val = t.val * 4096 + p.val; omega

theorem emb1_1 (t : Fin cfg1.N) (b : Fin 256) (d : Fin 128) :
    ((cfg1.win 1).blk t).view.emb (ix2 b d) = (ix2 b d : S256x128.Idx) := by
  obtain ⟨-, e1, e2, -⟩ := idx_facts1 t
  funext a; apply Fin.ext
  match a with
  | ⟨0, _⟩ => show win1_1.index t (0 : Fin 2) * 256 + 1 * b.val = b.val; omega
  | ⟨1, _⟩ => show win1_1.index t (1 : Fin 2) * 128 + 1 * d.val = d.val; omega

theorem emb1_2 (t : Fin cfg1.N) (p : Fin 4096) (d : Fin 128) :
    ((cfg1.win 2).blk t).view.emb (ix2 p d) = (ix2 (⟨t.val * 4096 + p.val, row_lt1 t p⟩ : Fin 262144) d : S262144x128.Idx) := by
  obtain ⟨-, -, -, e3, e4⟩ := idx_facts1 t
  funext a; apply Fin.ext
  match a with
  | ⟨0, _⟩ => show win1_2.index t (0 : Fin 2) * 4096 + 1 * p.val = t.val * 4096 + p.val; omega
  | ⟨1, _⟩ => show win1_2.index t (1 : Fin 2) * 128 + 1 * d.val = d.val; omega

/-- Input block 0 at point t, row p: the array's row 4096 t + p. -/
theorem iblk1_0_apply (c : Dev nD) (t : Fin cfg1.N) (p : Fin 4096) :
    iblk1 V c 0 t (ix1 p) = V c (Pipeline.arrRef spec1 0) (ix1 (⟨t.val * 4096 + p.val, row_lt1 t p⟩ : Fin 262144)) := by
  unfold iblk1
  show V c (Pipeline.arrRef spec1 0) (((cfg1.win 0).blk t).view.emb (ix1 p)) = _
  rw [emb1_0]

/-- Input block 1 at any point is the whole table. -/
theorem iblk1_1_apply (c : Dev nD) (t : Fin cfg1.N) (b : Fin 256) (d : Fin 128) :
    iblk1 V c 1 t (ix2 b d) = V c (Pipeline.arrRef spec1 1) (ix2 b d) := by
  unfold iblk1
  show V c (Pipeline.arrRef spec1 1) (((cfg1.win 1).blk t).view.emb (ix2 b d)) = _
  rw [emb1_1]

/-! ## What a point writes back -/

/-- Entry (p, d) of what the body leaves at point t is entry (4096 t + p, d) of the whole-array function. -/
theorem out_entry1 (c : Dev nD) (t : Fin cfg1.N) (p : Fin 4096) (d : Fin 128) :
    out1_2 (F := Ideal) (iblk1 V c 0 t) (iblk1 V c 1 t) (ix2 p d)
      = G1 (V c (Pipeline.arrRef spec1 0)) (V c (Pipeline.arrRef spec1 1)) (ix2 (⟨t.val * 4096 + p.val, row_lt1 t p⟩ : Fin 262144) d) := by
  rw [out1_2_apply]
  show _ = ∑ b : Fin 256, _
  refine Finset.sum_congr rfl fun b _ => ?_
  rw [iblk1_0_apply, iblk1_1_apply]

/-- What point t writes back is block t of the whole-array function of the arrays as the region finds them. -/
theorem flushed1_2_eq (c : Dev nD) (t : Fin cfg1.N) :
    (dat1 (F := Ideal) V c).flushed 2 t
      = ((cfg1.win 2).blk t).view.read (Elt Ideal) (G1 (V c (Pipeline.arrRef spec1 0)) (V c (Pipeline.arrRef spec1 1))) := by
  show (cfg1.win 2).cut (grid1.coords t) ((dat1 V c).after 2 t) = _
  rw [after1_2]
  funext j
  obtain ⟨p, d, rfl⟩ : ∃ (p : Fin 4096) (d : Fin 128), j = ix2 p d := ⟨j 0, j 1, eq_ix2 j⟩
  show out1_2 (iblk1 V c 0 t) (iblk1 V c 1 t) (ix2 p d)
    = G1 (V c (Pipeline.arrRef spec1 0)) (V c (Pipeline.arrRef spec1 1)) (((cfg1.win 2).blk t).view.emb (ix2 p d))
  rw [emb1_2]
  exact out_entry1 V c t p d

/-! ## The cover -/

/-- An index of the array is in point t's block iff each coordinate is in the block's range on its axis. -/
theorem mem_blk1_2 (t : Fin cfg1.N) (i : S262144x128.Idx) :
    i ∈ ((cfg1.win 2).blk t).view.set ↔ ∀ a : Fin 2, win1_2.index t a * S4096x128.size a ≤ (i a).val ∧ (i a).val < win1_2.index t a * S4096x128.size a + S4096x128.size a := by
  show i ∈ ((View.whole main_v38).slice (win1_2.rect t)).set ↔ _
  rw [View.set_slice_whole, Rect.mem_set_unit]
  exact Iff.rfl

/-- Every index of the output array is in the block of the point its row falls to, and every point writes back. -/
theorem cover1_2_arr (i : S262144x128.Idx) :
    ∃ t : Fin cfg1.N, (cfg1.win 2).flush t = true ∧ i ∈ ((cfg1.win 2).blk t).view.set := by
  have hi0 : (i 0).val < 262144 := (i 0).isLt
  have hi1 : (i 1).val < 128 := (i 1).isLt
  have hN : cfg1.N = 64 := N_1
  let t : Fin cfg1.N := ⟨(i 0).val / 4096, by rw [hN]; omega⟩
  have htv : t.val = (i 0).val / 4096 := rfl
  obtain ⟨-, -, -, e3, e4⟩ := idx_facts1 t
  refine ⟨t, flush1_2 t, ?_⟩
  rw [mem_blk1_2]
  intro a
  match a with
  | ⟨0, _⟩ => show win1_2.index t (0 : Fin 2) * 4096 ≤ (i 0).val ∧ (i 0).val < win1_2.index t (0 : Fin 2) * 4096 + 4096; omega
  | ⟨1, _⟩ => show win1_2.index t (1 : Fin 2) * 128 ≤ (i 1).val ∧ (i 1).val < win1_2.index t (1 : Fin 2) * 128 + 128; omega

/-! ## The array after the region -/

/-- The output array after the region's 64 points: entry (n, d) is the sum over the cells b of the indicator "row n's
    cell number is b" times the table's entry (b, d), the arrays being the ones the region finds. -/
theorem final1_2 (c : Dev nD) :
    (dat1 (F := Ideal) V c).arrAt 2 cfg1.N
      = fun i => ∑ b : Fin 256, (if V c (Pipeline.arrRef spec1 0) (ix1 (i 0 : Fin 262144)) = BitVec.ofNat 32 b.val then (1 : EReal) else 0)
          * V c (Pipeline.arrRef spec1 1) (ix2 b (i 1 : Fin 128)) :=
  (dat1 (F := Ideal) V c).arrAt_eq_of_cover 2 (G1 (V c (Pipeline.arrRef spec1 0)) (V c (Pipeline.arrRef spec1 1)))
    (fun t _ => flushed1_2_eq V c t) (fun i => cover1_2_arr i)

end Cert.KernelIdeal.Gen

end
-- ==== Proof.RefCell.lean ====
/-
  The reference program's LSTM-cell step read on the extended reals: the 512 pre-activations of a row are the
  gate sums of `Cert.Pool.gate`, the new cell state is `Cert.Pool.cnew` and the new hidden state is `Cert.Pool.hnew`.

  The program adds the four gate terms as ((x·W_ih^T + b_ih) + h·W_hh^T) + b_hh; the specification groups them as
  (x·W_ih^T + h·W_hh^T) + (b_ih + b_hh). The two agree in any commutative additive monoid. The program spells the
  sigmoid as 1 / (1 + exp (-z)), which is the logistic function of the extended reals by definition.
-/
import proofs.«177821_j68058051772553_2_alg».proof.Defs
import proofs.«177821_j68058051772553_2_alg».proof.Proof.Gen.ReferenceIdeal.Run
import proofs.«177821_j68058051772553_2_alg».proof.Proof.Gen.ReferenceIdeal.Read
import proofs.«177821_j68058051772553_2_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

/-- Pre-activation `j` of row `n`: the program's sum of four terms, regrouped. -/
theorem ref_gate (x0 : (⟨S262144x2, .f32⟩ : BufTy).Contents (Elt Ideal)) (x1 : (⟨S262144x128, .f32⟩ : BufTy).Contents (Elt Ideal)) (x3 : (⟨S512x2, .f32⟩ : BufTy).Contents (Elt Ideal)) (x4 : (⟨S512x128, .f32⟩ : BufTy).Contents (Elt Ideal)) (x5 x6 : (⟨S512, .f32⟩ : BufTy).Contents (Elt Ideal)) (n : Fin 262144) (j : Fin 512) :
    val_main_v10 (F := Ideal) x0 x1 x3 x4 x5 x6 (ix2 n j) = Cert.Pool.gate x0 x1 x3 x4 x5 x6 n j := by
  have e1 : ∀ k : Fin 2, lidx_main_v1 (ix2 n j) k = ix2 n k := fun k => funext fun a => Fin.ext (by
    match a with | ⟨0, _⟩ => rfl | ⟨1, _⟩ => rfl)
  have e2 : ∀ k : Fin 2, idx_main_v0 (ridx_main_v1 (ix2 n j) k) = ix2 j k := fun k => funext fun a => Fin.ext (by
    match a with | ⟨0, _⟩ => rfl | ⟨1, _⟩ => rfl)
  have e3 : ∀ k : Fin 128, lidx_main_v6 (ix2 n j) k = ix2 n k := fun k => funext fun a => Fin.ext (by
    match a with | ⟨0, _⟩ => rfl | ⟨1, _⟩ => rfl)
  have e4 : ∀ k : Fin 128, idx_main_v5 (ridx_main_v6 (ix2 n j) k) = ix2 j k := fun k => funext fun a => Fin.ext (by
    match a with | ⟨0, _⟩ => rfl | ⟨1, _⟩ => rfl)
  have e5 : idx_main_v2 (idx_main_v3 (ix2 n j)) = ix1 j := funext fun a => Fin.ext (by
    match a with | ⟨0, _⟩ => rfl)
  have e6 : idx_main_v8 (idx_main_v9 (ix2 n j)) = ix1 j := funext fun a => Fin.ext (by
    match a with | ⟨0, _⟩ => rfl)
  rw [val_main_v10_apply, val_main_v7_apply, val_main_v4_apply, val_main_v1_apply, val_main_v3_apply,
    val_main_v2_apply, val_main_v6_apply, val_main_v9_apply, val_main_v8_apply, e5, e6]
  simp only [val_main_v0_apply, val_main_v5_apply, e1, e2, e3, e4, Ideal.addf_def]
  unfold Cert.Pool.gate
  rw [add_assoc, add_add_add_comm]

/-- The sigmoid as the program spells it, 1 / (1 + exp (-z)) with the constant word for one, is the logistic function. -/
theorem sigmoid_eq (z : EReal) :
    Ideal.div (Ideal.ofBits .f32 0x3F800000#32) (Ideal.ofBits .f32 0x3F800000#32 + Ideal.exp (-z)) = Ideal.logistic z := by
  rw [Ideal.ofBits_one_f32]; rfl

/-- The four column blocks of the pre-activations: block `o` at column `d` is pre-activation `o + d`. -/
theorem ref_i (x0 : (⟨S262144x2, .f32⟩ : BufTy).Contents (Elt Ideal)) (x1 : (⟨S262144x128, .f32⟩ : BufTy).Contents (Elt Ideal)) (x3 : (⟨S512x2, .f32⟩ : BufTy).Contents (Elt Ideal)) (x4 : (⟨S512x128, .f32⟩ : BufTy).Contents (Elt Ideal)) (x5 x6 : (⟨S512, .f32⟩ : BufTy).Contents (Elt Ideal)) (n : Fin 262144) (d : Fin 128) :
    val_main_v11 (F := Ideal) x0 x1 x3 x4 x5 x6 (ix2 n d) = Cert.Pool.gate x0 x1 x3 x4 x5 x6 n (Cert.Pool.col 0 (by omega) d) := by
  rw [val_main_v11_apply, ← ref_gate]
  exact congrArg _ (funext fun a => Fin.ext (by
    match a with | ⟨0, _⟩ => rfl | ⟨1, _⟩ => exact (Nat.zero_add _).symm))

theorem ref_f (x0 : (⟨S262144x2, .f32⟩ : BufTy).Contents (Elt Ideal)) (x1 : (⟨S262144x128, .f32⟩ : BufTy).Contents (Elt Ideal)) (x3 : (⟨S512x2, .f32⟩ : BufTy).Contents (Elt Ideal)) (x4 : (⟨S512x128, .f32⟩ : BufTy).Contents (Elt Ideal)) (x5 x6 : (⟨S512, .f32⟩ : BufTy).Contents (Elt Ideal)) (n : Fin 262144) (d : Fin 128) :
    val_main_v12 (F := Ideal) x0 x1 x3 x4 x5 x6 (ix2 n d) = Cert.Pool.gate x0 x1 x3 x4 x5 x6 n (Cert.Pool.col 128 (by omega) d) := by
  rw [val_main_v12_apply, ← ref_gate]
  exact congrArg _ (funext fun a => Fin.ext (by
    match a with | ⟨0, _⟩ => rfl | ⟨1, _⟩ => rfl))

theorem ref_g (x0 : (⟨S262144x2, .f32⟩ : BufTy).Contents (Elt Ideal)) (x1 : (⟨S262144x128, .f32⟩ : BufTy).Contents (Elt Ideal)) (x3 : (⟨S512x2, .f32⟩ : BufTy).Contents (Elt Ideal)) (x4 : (⟨S512x128, .f32⟩ : BufTy).Contents (Elt Ideal)) (x5 x6 : (⟨S512, .f32⟩ : BufTy).Contents (Elt Ideal)) (n : Fin 262144) (d : Fin 128) :
    val_main_v13 (F := Ideal) x0 x1 x3 x4 x5 x6 (ix2 n d) = Cert.Pool.gate x0 x1 x3 x4 x5 x6 n (Cert.Pool.col 256 (by omega) d) := by
  rw [val_main_v13_apply, ← ref_gate]
  exact congrArg _ (funext fun a => Fin.ext (by
    match a with | ⟨0, _⟩ => rfl | ⟨1, _⟩ => rfl))

theorem ref_o (x0 : (⟨S262144x2, .f32⟩ : BufTy).Contents (Elt Ideal)) (x1 : (⟨S262144x128, .f32⟩ : BufTy).Contents (Elt Ideal)) (x3 : (⟨S512x2, .f32⟩ : BufTy).Contents (Elt Ideal)) (x4 : (⟨S512x128, .f32⟩ : BufTy).Contents (Elt Ideal)) (x5 x6 : (⟨S512, .f32⟩ : BufTy).Contents (Elt Ideal)) (n : Fin 262144) (d : Fin 128) :
    val_main_v14 (F := Ideal) x0 x1 x3 x4 x5 x6 (ix2 n d) = Cert.Pool.gate x0 x1 x3 x4 x5 x6 n (Cert.Pool.col 384 (by omega) d) := by
  rw [val_main_v14_apply, ← ref_gate]
  exact congrArg _ (funext fun a => Fin.ext (by
    match a with | ⟨0, _⟩ => rfl | ⟨1, _⟩ => rfl))

/-- The new cell state: forget gate times the old cell state plus input gate times the candidate. -/
theorem ref_cnew (x0 : (⟨S262144x2, .f32⟩ : BufTy).Contents (Elt Ideal)) (x1 x2 : (⟨S262144x128, .f32⟩ : BufTy).Contents (Elt Ideal)) (x3 : (⟨S512x2, .f32⟩ : BufTy).Contents (Elt Ideal)) (x4 : (⟨S512x128, .f32⟩ : BufTy).Contents (Elt Ideal)) (x5 x6 : (⟨S512, .f32⟩ : BufTy).Contents (Elt Ideal)) (n : Fin 262144) (d : Fin 128) :
    val_main_v30 (F := Ideal) x0 x1 x2 x3 x4 x5 x6 (ix2 n d) = Cert.Pool.cnew x0 x1 x2 x3 x4 x5 x6 n d := by
  rw [val_main_v30_apply, val_main_v21_apply, val_main_v29_apply, val_main_v20_apply, val_main_v27_apply,
    val_main_v28_apply, val_main_v18_apply, val_main_v25_apply, val_main_v16_apply, val_main_v23_apply,
    val_main_v15_apply, val_main_v22_apply, val_main_v19_apply, val_main_v17_apply, val_main_v26_apply,
    val_main_v24_apply, val_main_cst_apply, val_main_cst_0_apply, val_main_cst_1_apply, val_main_cst_2_apply,
    ref_i, ref_f, ref_g]
  simp only [Ideal.addf_def, Ideal.mulf_def, Ideal.hostDivf_def, Ideal.hostUnary_exp_def, Ideal.hostUnary_tanh_def,
    Ideal.hostNegf_def, Ideal.negf_def, Ideal.ofBits_def, sigmoid_eq]
  rfl

/-- The new hidden state: output gate times tanh of the new cell state. -/
theorem ref_hnew (x0 : (⟨S262144x2, .f32⟩ : BufTy).Contents (Elt Ideal)) (x1 x2 : (⟨S262144x128, .f32⟩ : BufTy).Contents (Elt Ideal)) (x3 : (⟨S512x2, .f32⟩ : BufTy).Contents (Elt Ideal)) (x4 : (⟨S512x128, .f32⟩ : BufTy).Contents (Elt Ideal)) (x5 x6 : (⟨S512, .f32⟩ : BufTy).Contents (Elt Ideal)) (n : Fin 262144) (d : Fin 128) :
    val_main_v38 (F := Ideal) x0 x1 x2 x3 x4 x5 x6 (ix2 n d) = Cert.Pool.hnew x0 x1 x2 x3 x4 x5 x6 n d := by
  rw [val_main_v38_apply, val_main_v36_apply, val_main_v37_apply, val_main_v34_apply, val_main_v32_apply,
    val_main_v31_apply, val_main_v35_apply, val_main_v33_apply, val_main_cst_3_apply, val_main_cst_4_apply,
    ref_o, ref_cnew]
  simp only [Ideal.addf_def, Ideal.mulf_def, Ideal.hostDivf_def, Ideal.hostUnary_exp_def, Ideal.hostUnary_tanh_def,
    Ideal.hostNegf_def, Ideal.negf_def, Ideal.ofBits_def, sigmoid_eq]
  rfl

end Cert.ReferenceIdeal.RefValue

end
-- ==== Proof.RefSeg.lean ====
/-
  The reference program's cell number of a row is a word below 256.

  The cell number is 16·ix + iy, where ix and iy are each a signed 32-bit word clipped into [0, 15] by an integer
  maximum against the word 0 followed by an integer minimum against the word 15. Whatever word enters the clip, the
  result is one of the sixteen words 0, …, 15; so the cell number is one of the words 0, …, 255.
-/
import proofs.«177821_j68058051772553_2_alg».proof.Defs
import proofs.«177821_j68058051772553_2_alg».proof.Proof.Gen.ReferenceIdeal.Run
import proofs.«177821_j68058051772553_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx

/-- A signed word clipped into [0, 15] is one of the sixteen words 0, …, 15. -/
theorem clip_word (v : BitVec 32) :
    ∃ k : Fin 16, IntOp.minsi 15#32 (IntOp.maxsi 0#32 v) = BitVec.ofNat 32 k.val := by
  unfold IntOp.minsi IntOp.maxsi
  by_cases h1 : v.slt 0#32 = true
  · rw [if_pos h1]; exact ⟨0, by decide⟩
  · rw [if_neg h1]
    by_cases h2 : (15#32).slt v = true
    · rw [if_pos h2]; exact ⟨15, rfl⟩
    · rw [if_neg h2]
      have a1 : 0 ≤ v.toInt := by simpa [BitVec.slt] using h1
      have a2 : v.toInt ≤ 15 := by simpa [BitVec.slt] using h2
      have hlt : v.toNat < 16 := by
        rw [BitVec.toInt_eq_toNat_cond] at a1 a2
        have := v.isLt
        by_cases hc : 2 * v.toNat < 2 ^ 32
        · rw [if_pos hc] at a1 a2; omega
        · rw [if_neg hc] at a1 a2; omega
      exact ⟨⟨v.toNat, hlt⟩, BitVec.eq_of_toNat_eq (by rw [BitVec.toNat_ofNat]; exact (Nat.mod_eq_of_lt v.isLt).symm)⟩

/-- Sixteen times a word below 16 plus a word below 16, in 32-bit arithmetic, is the word of the number. -/
theorem cell_word (a b : Fin 16) :
    IntOp.addi (IntOp.muli (BitVec.ofNat 32 a.val) 16#32) (BitVec.ofNat 32 b.val) = BitVec.ofNat 32 (a.val * 16 + b.val) := by
  show BitVec.ofNat 32 a.val * BitVec.ofNat 32 16 + BitVec.ofNat 32 b.val = _
  rw [← BitVec.ofNat_mul, ← BitVec.ofNat_add]

/-- A word of a number below 2^31 reads, as a signed integer, as that number. -/
theorem toInt_ofNat_small (k : Nat) (hk : k < 2 ^ 31) : (BitVec.ofNat 32 k).toInt = (k : Int) := by
  have h1 : (BitVec.ofNat 32 k).toNat = k := by
    rw [BitVec.toNat_ofNat]; exact Nat.mod_eq_of_lt (by omega)
  rw [BitVec.toInt_eq_toNat_of_lt (by rw [h1]; omega), h1]

/-- The cell number of row `n`: 16 times the clipped column cell plus the clipped row cell. -/
def sgOf (x0 : (⟨S262144x2, .f32⟩ : BufTy).Contents (Elt Ideal)) (n : Fin 262144) : Fin 256 :=
  ⟨(Classical.choose (clip_word (val_main_v52 (F := Ideal) x0 (ix1 n)))).val * 16
      + (Classical.choose (clip_word (val_main_v61 (F := Ideal) x0 (ix1 n)))).val, by omega⟩

/-- The program's cell-number word of row `n` is the word of `sgOf x0 n`. -/
theorem sgOf_spec (x0 : (⟨S262144x2, .f32⟩ : BufTy).Contents (Elt Ideal)) (n : Fin 262144) :
    val_main_v65 (F := Ideal) x0 (ix1 n) = BitVec.ofNat 32 (sgOf x0 n).val := by
  rw [val_main_v65_apply, val_main_v64_apply, val_main_v53_apply, val_main_v62_apply, val_main_v63_apply,
    val_main_call2_v4_apply, val_main_call2_v2_apply, val_main_call3_v4_apply, val_main_call3_v2_apply,
    val_main_call2_v3_apply, val_main_call2_v1_apply, val_main_call3_v3_apply, val_main_call3_v1_apply,
    val_main_call2_v0_apply, val_main_call3_v0_apply,
    val_main_c_apply, val_main_c_12_apply, val_main_c_16_apply, val_main_c_17_apply, val_main_c_18_apply,
    Classical.choose_spec (clip_word (val_main_v52 (F := Ideal) x0 (ix1 n))),
    Classical.choose_spec (clip_word (val_main_v61 (F := Ideal) x0 (ix1 n)))]
  exact cell_word _ _

/-- Every row's cell-number word is the word of a number below 256. -/
theorem seg_word (x0 : (⟨S262144x2, .f32⟩ : BufTy).Contents (Elt Ideal)) (n : Fin 262144) :
    ∃ k : Fin 256, val_main_v65 (F := Ideal) x0 (ix1 n) = BitVec.ofNat 32 k.val :=
  ⟨sgOf x0 n, sgOf_spec x0 n⟩

/-- The cell-number word read as a signed integer is the cell number: not negative and below 256. -/
theorem seg_toInt (x0 : (⟨S262144x2, .f32⟩ : BufTy).Contents (Elt Ideal)) (n : Fin 262144) :
    (val_main_v65 (F := Ideal) x0 (ix1 n)).toInt = ((sgOf x0 n).val : Int) := by
  rw [sgOf_spec]; exact toInt_ofNat_small _ (by have := (sgOf x0 n).isLt; omega)

end Cert.ReferenceIdeal.RefValue

end
-- ==== Proof.LibGatherScatter.lean ====
/-
  The host's gather and accumulating scatter along axis 0, read at an index.

  A flat array x : [N] or a table x : [N, C] is gathered at a column idx : [E, 1] of start indices (what x[idx] lowers to), and
  updates u : [E] or u : [E, C] are accumulated into such an operand at the rows the column names (what x.at[idx].add(u)
  lowers to). The lemmas hold for ANY dimension-number record of the right type whose lists are the ones this lowering prints;
  the hypotheses on the record's fields are closed by rfl on a printed record.
-/
import Idealize.ShloMosaic.PureOps.Ideal
import Idealize.ShloMosaic.PureOps.Contract
import Idealize.ShloMosaic.Lib.ValueIdx

noncomputable section

open scoped BigOperators

namespace Pegcn.Lib

open Idealize.ShloMosaic Idealize.ShloMosaic.ValueIdx

/-! ## Gather along axis 0 -/

/-- The gather's dimension numbers for an operand [N], start indices [E, 1] and result [E], as an explicit record. -/
private abbrev gDims1 (N E : Nat) (sb : List (Fin (Shape.rank ⟨2, ![E, 1]⟩)))
    (wf : GatherDims.WF ⟨1, ![N]⟩ ⟨2, ![E, 1]⟩ ⟨1, ![E]⟩ [] [0] [] [0] sb 1 ![1]) :
    GatherDims ⟨1, ![N]⟩ ⟨2, ![E, 1]⟩ ⟨1, ![E]⟩ where
  offsetDims := []
  collapsedSliceDims := [0]
  operandBatchingDims := []
  startIndicesBatchingDims := sb
  startIndexMap := [0]
  indexVectorDim := 1
  sliceSizes := ![1]
  wf := wf

/-- The rank-1 gather at the explicit record. -/
private theorem gather1_core {α : Type} {N E w : Nat} (hN : 0 < N) (sb : List (Fin (Shape.rank ⟨2, ![E, 1]⟩)))
    (wf : GatherDims.WF ⟨1, ![N]⟩ ⟨2, ![E, 1]⟩ ⟨1, ![E]⟩ [] [0] [] [0] sb 1 ![1])
    (x : (⟨1, ![N]⟩ : Shape).Idx → α) (idx : IVec ⟨2, ![E, 1]⟩ w) (e : Fin E) :
    Host.gather (gDims1 N E sb wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (gDims1 N E sb wf).start (ix1 e) idx 0 + (gDims1 N E sb wf).batchCoord (ix1 e) 0
    + (gDims1 N E sb wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gDims1 N E sb wf).startIndexMap from List.mem_singleton.mpr rfl)]
  have hsi : (gDims1 N E sb wf).siIdx (ix1 e) ⟨List.idxOf (0 : Fin 1) (gDims1 N E sb wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- A rank-1 operand x : [N] gathered at a column idx : [E, 1] of start indices (collapsed axis 0, start index map [0], the
    index vector on axis 1, slices of one element): result element e is x at the start index idx[e, 0], read as a signed
    integer and clamped into [0, N - 1]. -/
theorem gather1_apply {α : Type} {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsm : d.startIndexMap = [0]) (hiv : d.indexVectorDim = 1) (hss : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  obtain ⟨od, cd, ob, sb, sm, iv, ss, wf⟩ := d
  simp only at hod hcd hob hsm hiv hss
  subst hod hcd hob hsm hiv hss
  exact gather1_core hN sb wf x idx e

/-- Of a rank-2 shape's two axes, the one that is not axis 0 is axis 1. -/
private theorem kept2_0 :
    (List.finRange 2).filter (fun a : Fin 2 => decide (a ∉ ([0] ++ [] : List (Fin 2)))) = ([1] : List (Fin 2)) := by
  decide

/-- The gather's dimension numbers for an operand [N, C], start indices [E, 1] and result [E, C], as an explicit record. -/
private abbrev gDims2 (N E C : Nat) (sb : List (Fin (Shape.rank ⟨2, ![E, 1]⟩)))
    (wf : GatherDims.WF ⟨2, ![N, C]⟩ ⟨2, ![E, 1]⟩ ⟨2, ![E, C]⟩ [1] [0] [] [0] sb 1 ![1, C]) :
    GatherDims ⟨2, ![N, C]⟩ ⟨2, ![E, 1]⟩ ⟨2, ![E, C]⟩ where
  offsetDims := [1]
  collapsedSliceDims := [0]
  operandBatchingDims := []
  startIndicesBatchingDims := sb
  startIndexMap := [0]
  indexVectorDim := 1
  sliceSizes := ![1, C]
  wf := wf

/-- The row gather at the explicit record. -/
private theorem gather2_core {α : Type} {N E C w : Nat} (hN : 0 < N) (sb : List (Fin (Shape.rank ⟨2, ![E, 1]⟩)))
    (wf : GatherDims.WF ⟨2, ![N, C]⟩ ⟨2, ![E, 1]⟩ ⟨2, ![E, C]⟩ [1] [0] [] [0] sb 1 ![1, C])
    (x : (⟨2, ![N, C]⟩ : Shape).Idx → α) (idx : IVec ⟨2, ![E, 1]⟩ w) (e : Fin E) (j : Fin C) :
    Host.gather (gDims2 N E C sb wf) x idx (ix2 e j)
      = x (ix2 ⟨min (idx (ix2 e 0)).toInt.toNat (N - 1), by omega⟩ j) := by
  unfold Host.gather
  congr 1
  funext a
  refine Fin.ext ?_
  show (gDims2 N E C sb wf).start (ix2 e j) idx a + (gDims2 N E C sb wf).batchCoord (ix2 e j) a
    + (gDims2 N E C sb wf).offCoord (ix2 e j) a = _
  rw [GatherDims.batchCoord_eq_zero _ _ _ List.not_mem_nil]
  have ha : a = 0 ∨ a = 1 := by
    rcases a with ⟨v, hv⟩
    have hv' : v < 2 := hv
    rcases (by omega : v = 0 ∨ v = 1) with rfl | rfl
    · exact Or.inl rfl
    · exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gDims2 N E C sb wf).startIndexMap from List.mem_singleton.mpr rfl)]
    have hsi : (gDims2 N E C sb wf).siIdx (ix2 e j) ⟨List.idxOf (0 : Fin 2) (gDims2 N E C sb wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · have h1 : (1 : Fin 2) ∉ (gDims2 N E C sb wf).startIndexMap := by
      intro h; exact absurd (congrArg Fin.val (List.mem_singleton.mp h)) Nat.one_ne_zero
    have hk : (gDims2 N E C sb wf).sKept = [1] := by
      exact kept2_0
    have hget : ∀ (k : Nat) (hk : k < 1), ([1] : List (Fin 2))[k] = 1 := by
      intro k hk; obtain rfl : k = 0 := by omega
      rfl
    unfold GatherDims.start GatherDims.offCoord
    rw [dif_neg h1, dif_pos (by rw [hk]; exact List.mem_singleton.mpr rfl)]
    rw [hget]
    simp only [Nat.zero_add]
    rfl

/-- A table x : [N, C] gathered by rows at a column idx : [E, 1] of start indices (offset axis 1, collapsed axis 0, start
    index map [0], the index vector on axis 1, slices of one whole row): result element (e, j) is x at row idx[e, 0], read as
    a signed integer and clamped into [0, N - 1], column j. -/
theorem gather2_apply {α : Type} {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsm : d.startIndexMap = [0]) (hiv : d.indexVectorDim = 1) (hss : d.sliceSizes = ![1, C])
    (x : (⟨2, ![N, C]⟩ : Shape).Idx → α) (idx : IVec ⟨2, ![E, 1]⟩ w) (e : Fin E) (j : Fin C) :
    Host.gather d x idx (ix2 e j) = x (ix2 ⟨min (idx (ix2 e 0)).toInt.toNat (N - 1), by omega⟩ j) := by
  obtain ⟨od, cd, ob, sb, sm, iv, ss, wf⟩ := d
  simp only at hod hcd hob hsm hiv hss
  subst hod hcd hob hsm hiv hss
  exact gather2_core hN sb wf x idx e j

/-! ## Where an update lands -/

/-- An update lands at operand index i exactly when, on every operand axis, the start read signed off the scatter indices plus
    the window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro hi a
      have hi' := congrFun (Option.some.inj hi) a
      have hv : (d.start j idx a + (d.window j a : Int)).toNat = (i a).val := congrArg Fin.val hi'
      have := h a
      omega
    · intro hi
      congr 1
      funext a
      refine Fin.ext ?_
      have := hi a
      have := h a
      show (d.start j idx a + (d.window j a : Int)).toNat = (i a).val
      omega
  · rename_i h
    constructor
    · intro hi
      exact absurd hi (by simp)
    · intro hi
      exfalso
      apply h
      intro a
      have := hi a
      have := (i a).isLt
      omega

/-- The scatter's dimension numbers for an operand [N], scatter indices [E, 1] and updates [E], as an explicit record. -/
private abbrev sDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The rank-1 landing condition at the explicit record. -/
private theorem scatter1_core {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (sDims1 N E wf).resultIdx? (ix1 e) idx = some (ix1 n) ↔ (idx (ix2 e 0)).toInt = (n.val : Int) := by
  have hs : (sDims1 N E wf).start (ix1 e) idx 0 = (idx (ix2 e 0)).toInt := by
    unfold ScatterDims.start
    rw [dif_pos (show (0 : Fin 1) ∈ (sDims1 N E wf).scatterDimsToOperandDims from List.mem_singleton.mpr rfl)]
    have hsi : (sDims1 N E wf).siIdx (ix1 e) ⟨List.idxOf (0 : Fin 1) (sDims1 N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw : (sDims1 N E wf).window (ix1 e) 0 = 0 := by
    unfold ScatterDims.window
    rw [dif_neg (by simp [Shape.kept])]
  rw [resultIdx?_eq_some_iff]
  constructor
  · intro h
    have h0 : _ = ((n.val : Nat) : Int) := h 0
    rw [hs, hw] at h0
    simpa using h0
  · intro h a
    obtain rfl : a = 0 := Subsingleton.elim _ _
    show _ = ((n.val : Nat) : Int)
    rw [hs, hw, h]
    simp

/-- Updates u : [E] scattered into an operand [N] at a column idx : [E, 1] of scatter indices (no window axes, inserted axis 0,
    the index vector on axis 1): update e lands at element n exactly when its index idx[e, 0], read as a signed integer and
    NOT clamped, is n; an index outside [0, N) lands nowhere. -/
theorem scatter1_lands_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (idx : IVec ⟨2, ![E, 1]⟩ w) (e : Fin E) (n : Fin N) :
    d.resultIdx? (ix1 e) idx = some (ix1 n) ↔ (idx (ix2 e 0)).toInt = (n.val : Int) := by
  obtain ⟨uw, iw, sd, iv, wf⟩ := d
  simp only at huw hiw hsd hiv
  subst huw hiw hsd hiv
  exact scatter1_core wf idx e n

/-- The scatter's dimension numbers for an operand [N, C], scatter indices [E, 1] and updates [E, C], as an explicit record. -/
private abbrev sDims2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Of a rank-2 shape's two axes, the one that is not the inserted axis 0 is axis 1. -/
private theorem kept2_0' :
    (List.finRange 2).filter (fun a : Fin 2 => decide (a ∉ ([0] : List (Fin 2)))) = ([1] : List (Fin 2)) := by
  decide

/-- The row landing condition at the explicit record. -/
private theorem scatter2_core {N E C w : Nat} (wf : ScatterDims.WF ⟨2, ![N, C]⟩ ⟨2, ![E, 1]⟩ ⟨2, ![E, C]⟩ [1] [0] [0] 1)
    (idx : IVec ⟨2, ![E, 1]⟩ w) (e : Fin E) (j' : Fin C) (n : Fin N) (j : Fin C) :
    (sDims2 N E C wf).resultIdx? (ix2 e j') idx = some (ix2 n j)
      ↔ (idx (ix2 e 0)).toInt = (n.val : Int) ∧ j' = j := by
  have hs0 : (sDims2 N E C wf).start (ix2 e j') idx 0 = (idx (ix2 e 0)).toInt := by
    unfold ScatterDims.start
    rw [dif_pos (show (0 : Fin 2) ∈ (sDims2 N E C wf).scatterDimsToOperandDims from List.mem_singleton.mpr rfl)]
    have hsi : (sDims2 N E C wf).siIdx (ix2 e j') ⟨List.idxOf (0 : Fin 2) (sDims2 N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (sDims2 N E C wf).window (ix2 e j') 0 = 0 := by
    unfold ScatterDims.window
    rw [dif_neg (by simp [Shape.kept])]
  have hs1 : (sDims2 N E C wf).start (ix2 e j') idx 1 = 0 := by
    unfold ScatterDims.start
    rw [dif_neg (fun h => absurd (congrArg Fin.val (List.mem_singleton.mp h)) Nat.one_ne_zero)]
  have hw1 : (sDims2 N E C wf).window (ix2 e j') 1 = j'.val := by
    have hk : (sDims2 N E C wf).sKept = [1] := kept2_0'
    have hget : ∀ (k : Nat) (hk : k < 1), ([1] : List (Fin 2))[k] = 1 := by
      intro k hk; obtain rfl : k = 0 := by omega
      rfl
    unfold ScatterDims.window
    rw [dif_pos (by rw [hk]; exact List.mem_singleton.mpr rfl), hget]
  rw [resultIdx?_eq_some_iff]
  constructor
  · intro h
    have h0 : _ = ((n.val : Nat) : Int) := h 0
    have h1 : _ = ((j.val : Nat) : Int) := h 1
    rw [hs0, hw0] at h0
    rw [hs1, hw1] at h1
    exact ⟨by simpa using h0, Fin.ext (by omega)⟩
  · rintro ⟨h, rfl⟩ a
    have ha : a = 0 ∨ a = 1 := by
      rcases a with ⟨v, hv⟩
      have hv' : v < 2 := hv
      rcases (by omega : v = 0 ∨ v = 1) with rfl | rfl
      · exact Or.inl rfl
      · exact Or.inr rfl
    rcases ha with rfl | rfl
    · show _ = ((n.val : Nat) : Int)
      rw [hs0, hw0, h]
      simp
    · show _ = ((j'.val : Nat) : Int)
      rw [hs1, hw1]
      simp

/-- Update rows u : [E, C] scattered into a table [N, C] at a column idx : [E, 1] of scatter indices (window axis 1, inserted
    axis 0, the index vector on axis 1): update element (e, j') lands at element (n, j) exactly when its row index idx[e, 0],
    read as a signed integer and NOT clamped, is n and the columns agree; an index outside [0, N) lands nowhere. -/
theorem scatter2_lands_iff {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (idx : IVec ⟨2, ![E, 1]⟩ w) (e : Fin E) (j' : Fin C) (n : Fin N) (j : Fin C) :
    d.resultIdx? (ix2 e j') idx = some (ix2 n j) ↔ (idx (ix2 e 0)).toInt = (n.val : Int) ∧ j' = j := by
  obtain ⟨uw, iw, sd, iv, wf⟩ := d
  simp only at huw hiw hsd hiv
  subst huw hiw hsd hiv
  exact scatter2_core wf idx e j' n j

/-! ## The accumulating scatter at an index -/

/-- The accumulating scatter of updates u : [E] into x : [N] at a column idx : [E, 1] of indices, read at element n at the ideal
    instance: x at n plus the sum of the updates whose index idx[e, 0], read as a signed integer, is n. The sum runs over
    the updates' own index type. -/
theorem scatterAdd1_apply {N E w : Nat} {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (x : FVec Ideal ⟨1, ![N]⟩ φ) (idx : IVec ⟨2, ![E, 1]⟩ w)
    (upd : FVec Ideal ⟨1, ![E]⟩ φ) (n : Fin N) :
    Host.scatterAdd d x idx upd (ix1 n)
      = x (ix1 n) + ∑ j ∈ Finset.univ.filter
          (fun j : (⟨1, ![E]⟩ : Shape).Idx => (idx (ix2 (j 0) 0)).toInt = (n.val : Int)), upd j := by
  show Ideal.hostScatterAdd d x idx upd (ix1 n) = _
  unfold Ideal.hostScatterAdd
  congr 1
  refine Finset.sum_congr (Finset.filter_congr fun j _ => ?_) fun _ _ => rfl
  obtain ⟨e, rfl⟩ : ∃ e, j = ix1 e := ⟨j 0, eq_ix1 j⟩
  exact scatter1_lands_iff d huw hiw hsd hiv idx e n

/-- The accumulating scatter of update rows u : [E, C] into a table x : [N, C] at a column idx : [E, 1] of row indices, read at
    element (n, c) at the ideal instance: x at (n, c) plus the sum of the update elements in column c whose row index
    idx[e, 0], read as a signed integer, is n. The sum runs over the updates' own index type (the column condition is
    written on the coordinates' values). -/
theorem scatterAdd2_apply {N E C w : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ j ∈ Finset.univ.filter
          (fun j : (⟨2, ![E, C]⟩ : Shape).Idx =>
            (idx (ix2 (j 0) 0)).toInt = (n.val : Int) ∧ (j 1).val = c.val), upd j := by
  show Ideal.hostScatterAdd d x idx upd (ix2 n c) = _
  unfold Ideal.hostScatterAdd
  congr 1
  refine Finset.sum_congr (Finset.filter_congr fun j _ => ?_) fun _ _ => rfl
  obtain ⟨e, j', rfl⟩ : ∃ e j', j = ix2 e j' := ⟨j 0, j 1, eq_ix2 j⟩
  rw [scatter2_lands_iff d huw hiw hsd hiv idx e j' n c]
  show _ ∧ j' = c ↔ _ ∧ j'.val = c.val
  rw [Fin.ext_iff]
  exact Iff.rfl

/-! ## The wrap of a negative index before a gather

Before it gathers, x[idx] adds the operand's length to every negative index: select(idx < 0, idx + N, idx). On an index that is
not negative the wrap is the identity, and on one below the length the gather's clamp is the identity too. -/

/-- A word that is not negative as a signed integer is not signed-less-than the zero word. -/
theorem cmpi_slt_zero_of_nonneg {w : Nat} (x : BitVec w) (h : 0 ≤ x.toInt) : IntOp.cmpi .slt x 0#w = 0#1 := by
  have hslt : x.slt 0#w = false := by
    simp only [BitVec.slt, BitVec.toInt_zero, decide_eq_false_iff_not, not_lt]
    exact h
  simp only [IntOp.cmpi, hslt]
  rfl

/-- The wrap on one word: a word that is not negative is kept, whatever is added on the other branch. -/
theorem wrap_of_nonneg {w : Nat} (x c : BitVec w) (h : 0 ≤ x.toInt) :
    Scalar.select (IntOp.cmpi .slt x 0#w) (IntOp.addi x c) x = x := by
  rw [cmpi_slt_zero_of_nonneg x h]
  exact select_zero _ _

/-- The wrap on a vector of indices read at an index e: where the compared vector z reads zero and v is not negative, the
    wrapped vector reads v. -/
theorem wrap_apply {s : Shape} {w : Nat} (v z c : IVec s w) (e : s.Idx) (hz : z e = 0#w) (h : 0 ≤ (v e).toInt) :
    select (cmpi .slt v z) (addi v c) v e = v e := by
  show Scalar.select (IntOp.cmpi .slt (v e) (z e)) (IntOp.addi (v e) (c e)) (v e) = v e
  rw [hz]
  exact wrap_of_nonneg _ _ h

/-- The wrap as it is printed, the zero and the length being broadcast constants: at an index where v is not negative the
    wrapped vector reads v. -/
theorem wrap_bcast_apply {s0 s : Shape} {w : Nat} (dims : Fin s0.rank → Fin s.rank)
    (h0 h1 : s0.BroadcastsInDim s dims) (v : IVec s w) (c : BitVec w) (e : s.Idx) (h : 0 ≤ (v e).toInt) :
    select (cmpi .slt v (broadcastInDim s dims h0 (constantI s0 w 0#w)))
      (addi v (broadcastInDim s dims h1 (constantI s0 w c))) v e = v e :=
  wrap_apply v _ _ e rfl h

/-- The gather's clamp is the identity on a start index inside the operand. -/
theorem clamp_of_lt {w : Nat} (x : BitVec w) (N : Nat) (h0 : 0 ≤ x.toInt) (hN : x.toInt < (N : Int)) :
    min x.toInt.toNat (N - 1) = x.toInt.toNat := by
  omega

/-- The wrap then the clamp on one word inside the operand: both are the identity. -/
theorem clamp_wrap_of_lt {w : Nat} (x c : BitVec w) (N : Nat) (h0 : 0 ≤ x.toInt) (hN : x.toInt < (N : Int)) :
    min (Scalar.select (IntOp.cmpi .slt x 0#w) (IntOp.addi x c) x).toInt.toNat (N - 1) = x.toInt.toNat := by
  rw [wrap_of_nonneg x c h0]
  exact clamp_of_lt x N h0 hN

/-- The clamped start index as a coordinate: when the index word reads as the coordinate n, the clamped coordinate is n. -/
theorem clamp_fin_eq {N : Nat} (z : Int) (n : Fin N) (h : z = (n.val : Int)) (hlt : min z.toNat (N - 1) < N) :
    (⟨min z.toNat (N - 1), hlt⟩ : Fin N) = n := by
  refine Fin.ext ?_
  show min z.toNat (N - 1) = n.val
  have := n.isLt
  omega

end Pegcn.Lib

end
-- ==== Proof.LibFilteredRows.lean ====
/-
  A sum over the entries of an array, filtered by a condition on the row alone (and, for a matrix, a fixed column),
  as a sum over the rows that satisfy the condition.

  An accumulating scatter along axis 0 reads, at an entry (v, c), the operand plus the sum of the update entries
  (e, c') whose row index names v and whose column c' is c. Over the index type of an [E, C] array that is a filtered sum
  over pairs of coordinates; it is the sum, over the rows e that name v, of the update's entry (e, c). For a flat [E] array
  the filtered sum over its one-coordinate indices is the sum over the coordinates.
-/
import Idealize.ShloMosaic.Lib.ValueIdx

open scoped BigOperators

namespace FilteredRows

open Idealize.ShloMosaic Idealize.ShloMosaic.ValueIdx

/-- Entries of an [E, C] array whose row satisfies P and whose column is c, summed: the sum over the rows satisfying P
    of the entry in column c. -/
theorem sum_rows2 {E C : ℕ} {M : Type} [AddCommMonoid M] (P : Fin E → Prop) [DecidablePred P] (c : Fin C)
    [DecidablePred fun j : (⟨2, ![E, C]⟩ : Shape).Idx => P (j 0) ∧ (j 1).val = c.val]
    (f : (⟨2, ![E, C]⟩ : Shape).Idx → M) :
    (∑ j ∈ (Finset.univ : Finset (⟨2, ![E, C]⟩ : Shape).Idx).filter (fun j => P (j 0) ∧ (j 1).val = c.val), f j)
      = ∑ e ∈ (Finset.univ : Finset (Fin E)).filter P, f (ix2 e c) := by
  have back : ∀ j : (⟨2, ![E, C]⟩ : Shape).Idx, (j 1).val = c.val → ix2 (j 0) c = j := by
    intro j h
    have h1 : (j 1 : Fin C) = c := Fin.ext h
    rw [← h1]
    exact (eq_ix2 j).symm
  refine Finset.sum_bij' (fun j _ => (j 0 : Fin E)) (fun e _ => ix2 e c) ?_ ?_ ?_ ?_ ?_
  · intro j hj
    simp only [Finset.mem_filter, Finset.mem_univ, true_and] at hj
    exact Finset.mem_filter.mpr ⟨Finset.mem_univ _, hj.1⟩
  · intro e he
    simp only [Finset.mem_filter, Finset.mem_univ, true_and] at he ⊢
    exact ⟨he, rfl⟩
  · intro j hj
    simp only [Finset.mem_filter, Finset.mem_univ, true_and] at hj
    exact back j hj.2
  · intro e _
    rfl
  · intro j hj
    simp only [Finset.mem_filter, Finset.mem_univ, true_and] at hj
    exact congrArg f (back j hj.2).symm

/-- Entries of a flat [E] array whose coordinate satisfies P, summed: the sum over the coordinates satisfying P. -/
theorem sum_rows1 {E : ℕ} {M : Type} [AddCommMonoid M] (P : Fin E → Prop) [DecidablePred P]
    [DecidablePred fun j : (⟨1, ![E]⟩ : Shape).Idx => P (j 0)]
    (f : (⟨1, ![E]⟩ : Shape).Idx → M) :
    (∑ j ∈ (Finset.univ : Finset (⟨1, ![E]⟩ : Shape).Idx).filter (fun j => P (j 0)), f j)
      = ∑ e ∈ (Finset.univ : Finset (Fin E)).filter P, f (ix1 e) := by
  refine Finset.sum_bij' (fun j _ => (j 0 : Fin E)) (fun e _ => ix1 e) ?_ ?_ ?_ ?_ ?_
  · intro j hj
    simp only [Finset.mem_filter, Finset.mem_univ, true_and] at hj
    exact Finset.mem_filter.mpr ⟨Finset.mem_univ _, hj⟩
  · intro e he
    simp only [Finset.mem_filter, Finset.mem_univ, true_and] at he ⊢
    exact he
  · intro j _
    exact (eq_ix1 j).symm
  · intro e _
    rfl
  · intro j _
    exact congrArg f (eq_ix1 j)

end FilteredRows
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.LibTiledSum.lean ====
/-
  Sums over rows arranged in parts of tiles, and sums weighted by an indicator.

  * A sum over `K = S * I * R` consecutive coordinates is the sum over the `S` parts, of the sums over each part's `I`
    tiles, of the sums over each tile's `R` coordinates: coordinate `r` of tile `i` of part `s` is the coordinate
    `(s * I + i) * R + r` of the whole range. Only associativity and commutativity of the addition enter.
  * A term weighted by the indicator of a condition is the term where the condition holds and zero elsewhere, because
    `1 * y = y` and `0 * y = 0` for every `y`. So a sum over the indices satisfying a condition is the indicator-weighted sum
    over all indices, and an indicator-weighted sum against the indicator of one index selects that index's term. No
    distributive law and no finiteness of the terms is used, so the laws hold on the extended reals.
-/
import proofs.«177821_j68058051772553_2_alg».proof.Proof.LibGroupedSum
import Mathlib.Data.EReal.Operations

open scoped BigOperators

namespace TiledSum

/-- Coordinate `r` of tile `i` of part `s` lies below `K = S * I * R`. -/
theorem tile_lt {S I R K : ℕ} (h : S * I * R = K) (s : Fin S) (i : Fin I) (r : Fin R) :
    (s.val * I + i.val) * R + r.val < K :=
  GroupedSum.group_lt h ⟨s.val * I + i.val, GroupedSum.group_lt rfl s i⟩ r

/-- The sum over the whole range is the sum over the parts of the sums over the tiles of the tiles' sums. -/
theorem sum_tiles {β : Type*} [AddCommMonoid β] {S I R K : ℕ} (h : S * I * R = K) (f : Fin K → β) :
    ∑ k : Fin K, f k
      = ∑ s : Fin S, ∑ i : Fin I, ∑ r : Fin R, f ⟨(s.val * I + i.val) * R + r.val, tile_lt h s i r⟩ := by
  rw [GroupedSum.sum_groups (J := S * I) (B := R) h f,
    GroupedSum.sum_groups (J := S) (B := I) (rfl : S * I = S * I)
      (fun t => ∑ r : Fin R, f ⟨t.val * R + r.val, GroupedSum.group_lt h t r⟩)]

/-- A term weighted by an indicator is the term where the condition holds and zero elsewhere. -/
theorem ind_mul (p : Prop) [Decidable p] (y : EReal) : (if p then (1 : EReal) else 0) * y = if p then y else 0 := by
  split
  · exact one_mul y
  · exact zero_mul y

/-- The sum over the indices whose label is `b` is the sum over all indices of the indicator-weighted terms. -/
theorem sum_filter_eq_sum_ind {ι κ : Type*} [Fintype ι] [DecidableEq κ] (g : ι → κ) (b : κ) (f : ι → EReal) :
    ∑ e ∈ Finset.univ.filter (fun e => g e = b), f e = ∑ e, (if g e = b then (1 : EReal) else 0) * f e := by
  rw [Finset.sum_filter]
  exact Finset.sum_congr rfl fun e _ => (ind_mul _ _).symm

/-- A sum weighted by the indicator of one index is that index's term. -/
theorem sum_ind_mul {ι : Type*} [Fintype ι] [DecidableEq ι] (a : ι) (f : ι → EReal) :
    ∑ b, (if a = b then (1 : EReal) else 0) * f b = f a := by
  simp only [ind_mul]
  exact (Finset.sum_ite_eq Finset.univ a f).trans (if_pos (Finset.mem_univ a))

end TiledSum
-- ==== Proof.RefPooled.lean ====
/-
  The reference program's pooling read on the extended reals: the scatter-add of the new hidden state into a zero
  table at the rows' cell numbers is the table of per-cell sums `Cert.Pool.bins`, and the gather of that table at the
  rows' cell numbers is `Cert.Pool.pooled`.

  * The accumulating scatter reads, at entry (b, d), the zero word's value plus the sum of the new hidden state's
    entries (n, d) over the rows n whose cell-number word reads b as a signed integer. The cell-number word of row n
    is the word of a number below 256, so it reads that number; the sum is the sum over all rows of the
    indicator-weighted entries, and the 262144 rows regroup as 2 halves of 64 tiles of 2048 rows.
  * Before the gather the program adds 256 to every negative cell number; a cell-number word is not negative, so the
    wrap keeps it, and the gather's clamp into [0, 255] keeps it too. The gathered row is the row of the cell.
  * The per-cell sum of a row's own cell is the indicator-weighted sum over the 256 cells.
-/
import proofs.«177821_j68058051772553_2_alg».proof.Proof.RefCell
import proofs.«177821_j68058051772553_2_alg».proof.Proof.RefSeg
import proofs.«177821_j68058051772553_2_alg».proof.Proof.LibGatherScatter
import proofs.«177821_j68058051772553_2_alg».proof.Proof.LibFilteredRows
import proofs.«177821_j68058051772553_2_alg».proof.Proof.LibTiledSum
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The scatter's index column at row `e` is row `e`'s cell-number word, which reads as the cell number. -/
theorem scatter_index_toInt (x0 : (⟨S262144x2, .f32⟩ : BufTy).Contents (Elt Ideal)) (e : Fin 262144) :
    (val_main_v67 (F := Ideal) x0 (ix2 e 0)).toInt = ((sgOf x0 e).val : Int) := by
  have e1 : idx_main_v67 (ix2 e (0 : Fin 1)) = ix1 e := funext fun a => Fin.ext (by
    match a with | ⟨0, _⟩ => rfl)
  rw [val_main_v67_apply, e1]; exact seg_toInt x0 e

/-- The gather's index column at row `n` is row `n`'s cell-number word after the wrap of negative indices, which keeps
    it; it reads as the cell number. -/
theorem gather_index_toInt (x0 : (⟨S262144x2, .f32⟩ : BufTy).Contents (Elt Ideal)) (n : Fin 262144) :
    (val_main_v74 (F := Ideal) x0 (ix2 n 0)).toInt = ((sgOf x0 n).val : Int) := by
  have e1 : idx_main_v74 (ix2 n (0 : Fin 1)) = ix1 n := funext fun a => Fin.ext (by
    match a with | ⟨0, _⟩ => rfl)
  have h0 : 0 ≤ (val_main_v65 (F := Ideal) x0 (ix1 n)).toInt := by rw [seg_toInt]; exact Int.natCast_nonneg _
  rw [val_main_v74_apply, e1, val_main_v73_apply, val_main_v70_apply, val_main_v72_apply, val_main_v69_apply,
    val_main_c_20_apply, Pegcn.Lib.wrap_of_nonneg _ _ h0]
  exact seg_toInt x0 n

/-- The table of per-cell sums: entry (b, d) of the scatter-add is the sum of the new hidden state over the rows of
    cell `b`. -/
theorem ref_bins (x0 : (⟨S262144x2, .f32⟩ : BufTy).Contents (Elt Ideal)) (x1 x2 : (⟨S262144x128, .f32⟩ : BufTy).Contents (Elt Ideal)) (x3 : (⟨S512x2, .f32⟩ : BufTy).Contents (Elt Ideal)) (x4 : (⟨S512x128, .f32⟩ : BufTy).Contents (Elt Ideal)) (x5 x6 : (⟨S512, .f32⟩ : BufTy).Contents (Elt Ideal)) (b : Fin 256) (d : Fin 128) :
    val_main_v68 (F := Ideal) x0 x1 x2 x3 x4 x5 x6 (ix2 b d)
      = Cert.Pool.bins x0 x1 x2 x3 x4 x5 x6 (sgOf x0) b d := by
  unfold val_main_v68
  refine (Pegcn.Lib.scatterAdd2_apply (φ := .f32) scatter_S256x128_S262144x1_S262144x128_1_0_0_1 rfl rfl rfl rfl
    (val_main_v66 (F := Ideal)) (val_main_v67 (F := Ideal) x0) (val_main_v38 (F := Ideal) x0 x1 x2 x3 x4 x5 x6) b d).trans ?_
  rw [val_main_v66_apply, val_main_cst_19_apply, Ideal.ofBits_def, Ideal.ofBits_zero_f32, zero_add,
    FilteredRows.sum_rows2 (fun e : Fin 262144 => (val_main_v67 (F := Ideal) x0 (ix2 e 0)).toInt = (b.val : Int)) d]
  have hf : (Finset.univ : Finset (Fin 262144)).filter
        (fun e => (val_main_v67 (F := Ideal) x0 (ix2 e 0)).toInt = (b.val : Int))
      = Finset.univ.filter (fun e => sgOf x0 e = b) :=
    Finset.filter_congr fun e _ => by
      rw [scatter_index_toInt, Nat.cast_inj, Fin.val_inj]
  rw [hf, TiledSum.sum_filter_eq_sum_ind (sgOf x0) b, TiledSum.sum_tiles (S := 2) (I := 64) (R := 2048) rfl,
    Fin.sum_univ_two]
  simp only [ref_hnew]
  rfl

/-- The gather of a table at the rows' index column, where row `n`'s index word reads `k` below 256: row `k`. -/
theorem gather_row {α : Type} (x : (⟨2, ![256, 128]⟩ : Shape).Idx → α) (idx : IVec (⟨2, ![262144, 1]⟩ : Shape) 32)
    (n : Fin 262144) (d : Fin 128) (k : Fin 256) (h : (idx (ix2 n 0)).toInt = (k.val : Int)) :
    Host.gather gather_S256x128_S262144x1_S262144x128_1_0_n_n_0_1_1128 x idx (ix2 n d) = x (ix2 k d) := by
  rw [Pegcn.Lib.gather2_apply (by decide) gather_S256x128_S262144x1_S262144x128_1_0_n_n_0_1_1128 rfl rfl rfl rfl rfl rfl]
  exact congrArg (fun r => x (ix2 r d)) (Pegcn.Lib.clamp_fin_eq _ k h _)

/-- The pooled hidden state: row `n` reads its own cell's sum. -/
theorem ref_pooled (x0 : (⟨S262144x2, .f32⟩ : BufTy).Contents (Elt Ideal)) (x1 x2 : (⟨S262144x128, .f32⟩ : BufTy).Contents (Elt Ideal)) (x3 : (⟨S512x2, .f32⟩ : BufTy).Contents (Elt Ideal)) (x4 : (⟨S512x128, .f32⟩ : BufTy).Contents (Elt Ideal)) (x5 x6 : (⟨S512, .f32⟩ : BufTy).Contents (Elt Ideal)) (n : Fin 262144) (d : Fin 128) :
    val_main_v75 (F := Ideal) x0 x1 x2 x3 x4 x5 x6 (ix2 n d)
      = Cert.Pool.pooled x0 x1 x2 x3 x4 x5 x6 (sgOf x0) n d := by
  unfold val_main_v75
  rw [gather_row _ _ n d (sgOf x0 n) (gather_index_toInt x0 n), ref_bins]
  unfold Cert.Pool.pooled
  exact (TiledSum.sum_ind_mul (sgOf x0 n) (fun b => Cert.Pool.bins x0 x1 x2 x3 x4 x5 x6 (sgOf x0) b d)).symm

end Cert.ReferenceIdeal.RefValue

end
-- ==== Proof.RefValue.lean ====
/-
  The reference program read on the extended reals: its run ends with the new cell state and the pooled hidden state
  as the whole-array functions of `Cert.Pool`.

  The three parts are proved in their own modules: the LSTM-cell step (`ref_gate`, `ref_cnew`, `ref_hnew`), the rows'
  cell numbers (`sgOf`, `sgOf_spec`, `seg_word`), and the pooling (`ref_bins`, `ref_pooled`). Here the two results are
  restated as equalities of whole arrays.
-/
import proofs.«177821_j68058051772553_2_alg».proof.Defs
import proofs.«177821_j68058051772553_2_alg».proof.Proof.Gen.ReferenceIdeal.Run
import proofs.«177821_j68058051772553_2_alg».proof.Proof.Gen.ReferenceIdeal.Read
import proofs.«177821_j68058051772553_2_alg».proof.Proof.Spec
import proofs.«177821_j68058051772553_2_alg».proof.Proof.RefCell
import proofs.«177821_j68058051772553_2_alg».proof.Proof.RefSeg
import proofs.«177821_j68058051772553_2_alg».proof.Proof.RefPooled

noncomputable section

namespace Cert.ReferenceIdeal.RefValue

open Cert.ReferenceIdeal Cert.ReferenceIdeal.Gen Cert.ReferenceIdeal.Read Idealize.ShloMosaic Idealize.ShloMosaic.ValueIdx

/-- The first result as a whole array: the new cell state. -/
theorem ref_cnew_array (x0 : (⟨S262144x2, .f32⟩ : BufTy).Contents (Elt Ideal)) (x1 x2 : (⟨S262144x128, .f32⟩ : BufTy).Contents (Elt Ideal)) (x3 : (⟨S512x2, .f32⟩ : BufTy).Contents (Elt Ideal)) (x4 : (⟨S512x128, .f32⟩ : BufTy).Contents (Elt Ideal)) (x5 x6 : (⟨S512, .f32⟩ : BufTy).Contents (Elt Ideal)) :
    val_main_v30 (F := Ideal) x0 x1 x2 x3 x4 x5 x6
      = fun i => Cert.Pool.cnew x0 x1 x2 x3 x4 x5 x6 (i 0) (i 1) := by
  funext i
  obtain ⟨n, d, rfl⟩ : ∃ (n : Fin 262144) (d : Fin 128), i = ix2 n d := ⟨i 0, i 1, eq_ix2 i⟩
  exact ref_cnew x0 x1 x2 x3 x4 x5 x6 n d

/-- The second result as a whole array: the pooled hidden state, every row reading its own cell's sum. -/
theorem ref_pooled_array (x0 : (⟨S262144x2, .f32⟩ : BufTy).Contents (Elt Ideal)) (x1 x2 : (⟨S262144x128, .f32⟩ : BufTy).Contents (Elt Ideal)) (x3 : (⟨S512x2, .f32⟩ : BufTy).Contents (Elt Ideal)) (x4 : (⟨S512x128, .f32⟩ : BufTy).Contents (Elt Ideal)) (x5 x6 : (⟨S512, .f32⟩ : BufTy).Contents (Elt Ideal)) :
    val_main_v75 (F := Ideal) x0 x1 x2 x3 x4 x5 x6
      = fun i => Cert.Pool.pooled x0 x1 x2 x3 x4 x5 x6 (sgOf x0) (i 0) (i 1) := by
  funext i
  obtain ⟨n, d, rfl⟩ : ∃ (n : Fin 262144) (d : Fin 128), i = ix2 n d := ⟨i 0, i 1, eq_ix2 i⟩
  exact ref_pooled x0 x1 x2 x3 x4 x5 x6 n d

end Cert.ReferenceIdeal.RefValue

end
-- ==== Proof.SpecJoin.lean ====
/-
  Two forms of the per-half and per-row sums, joined.

  The cell number of a row may be carried as a 32-bit word; a word of a number below 256 determines the number, so the
  test "the row's word is the word of b" is the indicator of "the row's cell is b". A half's sum may be written as zero
  plus a sum over the 64 tile positions 0, …, 63 of the tile's indicator-weighted row sum, the tile being found at position
  64·s + i among 128; that is the specification's sum over the 64 tiles and 2048 rows of half s, since
  (64·s + i)·2048 + r = (s·64 + i)·2048 + r.
-/
import proofs.«177821_j68058051772553_2_alg».proof.Proof.Spec

noncomputable section

namespace Cert.Pool

open Idealize.ShloMosaic Idealize.ShloMosaic.ValueIdx

/-- Two numbers below 256 with the same 32-bit word are equal. -/
theorem word_eq (a b : Fin 256) : (BitVec.ofNat 32 a.val = BitVec.ofNat 32 b.val) ↔ a = b := by
  constructor
  · intro h
    have h' := congrArg BitVec.toNat h
    rw [BitVec.toNat_ofNat, BitVec.toNat_ofNat, Nat.mod_eq_of_lt (by have := a.isLt; omega),
      Nat.mod_eq_of_lt (by have := b.isLt; omega)] at h'
    exact Fin.ext h'
  · rintro rfl; rfl

/-- The word test against the word of `b` is the indicator of the cell `b`. -/
theorem word_ind (w : BitVec 32) (a b : Fin 256) (hw : w = BitVec.ofNat 32 a.val) :
    (if w = BitVec.ofNat 32 b.val then (1 : EReal) else 0) = ind a b := by
  rw [hw]; exact if_congr (word_eq a b) rfl rfl

/-- Half `s`'s sum written over the tile positions 0, …, 63, with word tests, is the specification's sum over the
    half's tiles and rows with indicators. -/
theorem slab_of_range {N : ℕ} (hN : N = 128) (rowOf : (n : ℕ) → n < N → Fin 2048 → Fin 262144)
    (hrow : ∀ n h r, (rowOf n h r).val = n * 2048 + r.val) (f : Fin 262144 → Fin 128 → EReal)
    (sgw : Fin 262144 → BitVec 32) (sg : Fin 262144 → Fin 256) (hsg : ∀ n, sgw n = BitVec.ofNat 32 (sg n).val)
    (s : Fin 2) (b : Fin 256) (d : Fin 128) :
    (0 : EReal) + ∑ i ∈ Finset.range 64,
        (if h : 64 * s.val + i < N then
          ∑ r : Fin 2048, (if sgw (rowOf _ h r) = BitVec.ofNat 32 b.val then (1 : EReal) else 0) * f (rowOf _ h r) d
        else 0)
      = ∑ i : Fin 64, ∑ r : Fin 2048, ind (sg (row s i r)) b * f (row s i r) d := by
  subst hN
  rw [zero_add, Finset.sum_range]
  refine Finset.sum_congr rfl fun i _ => ?_
  have hlt : 64 * s.val + i.val < 128 := by have := s.isLt; have := i.isLt; omega
  rw [dif_pos hlt]
  refine Finset.sum_congr rfl fun r _ => ?_
  have hr : rowOf (64 * s.val + i.val) hlt r = row s i r :=
    Fin.ext (by rw [hrow]; show _ = (s.val * 64 + i.val) * 2048 + r.val; omega)
  rw [hr, word_ind _ _ b (hsg _)]

/-- A row's pick among the 256 cells by word tests is its pick by indicators. -/
theorem pick_of_words (sgw : Fin 262144 → BitVec 32) (sg : Fin 262144 → Fin 256)
    (hsg : ∀ n, sgw n = BitVec.ofNat 32 (sg n).val) (B : Fin 256 → Fin 128 → EReal) (n : Fin 262144) (d : Fin 128) :
    (∑ b : Fin 256, (if sgw n = BitVec.ofNat 32 b.val then (1 : EReal) else 0) * B b d)
      = ∑ b : Fin 256, ind (sg n) b * B b d :=
  Finset.sum_congr rfl fun b _ => by rw [word_ind _ _ b (hsg n)]

end Cert.Pool

end
-- ==== Proof.KI.KernelValue.lean ====
/-
  The idealized kernel program's two results as the functions of `Cert.Pool`. Region 0 finds the arguments, the weights
  transposed, the biases summed and the reference's cell numbers, so its new-cell-state array is the spec's `cnew` and
  each half's slab the spec's `slab` (a word test against a cell's word is the indicator of the cell); the host stretch
  between the regions adds the two slabs into `bins`; region 1 selects each row's own cell's sum, `pooled`.
-/
import proofs.«177821_j68058051772553_2_alg».proof.Proof.KI.Run
import proofs.«177821_j68058051772553_2_alg».proof.Proof.KI.HostVals
import proofs.«177821_j68058051772553_2_alg».proof.Proof.KI.R0Array8
import proofs.«177821_j68058051772553_2_alg».proof.Proof.KI.R1Array
import proofs.«177821_j68058051772553_2_alg».proof.Proof.RefValue
import proofs.«177821_j68058051772553_2_alg».proof.Proof.SpecT
import proofs.«177821_j68058051772553_2_alg».proof.Proof.SpecJoin

set_option maxRecDepth 16384
set_option maxHeartbeats 1000000

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.HostVals

variable (m : (ℓ : Loc nD τ sig) → Buf (Elt Ideal) ℓ)

/-- Core `c`'s buffers when region 0 is entered, and when region 1 is. -/
abbrev Va : (c : Dev nD) → (b : Ref sig .tc) → Buf (Elt Ideal) ((c : Thread nD τ).loc b) := fun c b => V9 m c b
abbrev Vb : (c : Dev nD) → (b : Ref sig .tc) → Buf (Elt Ideal) ((c : Thread nD τ).loc b) := fun c b => V11 m (outsA m) c b

/-! ## Region 0's operand arrays are the arguments, the transposed weights, the summed bias and the cell numbers -/

theorem opX (c : Dev nD) : aX (Va m) c = m ((c.tc : Thread nD τ).loc main_arg0) := V9_main_arg0 m c
theorem opH (c : Dev nD) : aH (Va m) c = m ((c.tc : Thread nD τ).loc main_arg1) := V9_main_arg1 m c
theorem opC (c : Dev nD) : aC (Va m) c = m ((c.tc : Thread nD τ).loc main_arg2) := V9_main_arg2 m c
theorem opWi (c : Dev nD) (k : Fin 2) (j : Fin 512) : aWi (Va m) c (ix2 k j) = (m ((c.tc : Thread nD τ).loc main_arg3)) (ix2 j k) := V9_main_v28 m c k j
theorem opWh (c : Dev nD) (k : Fin 128) (j : Fin 512) : aWh (Va m) c (ix2 k j) = (m ((c.tc : Thread nD τ).loc main_arg4)) (ix2 j k) := V9_main_v30 m c k j
theorem opB (c : Dev nD) (j : Fin 512) :
    aB (Va m) c (ix1 j) = @HAdd.hAdd EReal EReal EReal _ ((m ((c.tc : Thread nD τ).loc main_arg5)) (ix1 j)) ((m ((c.tc : Thread nD τ).loc main_arg6)) (ix1 j)) := V9_main_v31 m c j
/-- The cell number of row `n`, as a word, is the reference's. -/
theorem opSg (c : Dev nD) (n : Fin 262144) : aSg (Va m) c (ix1 n) = BitVec.ofNat 32 ((Cert.ReferenceIdeal.RefValue.sgOf (m ((c.tc : Thread nD τ).loc main_arg0))) n).val := by
  rw [show aSg (Va m) c = Cert.ReferenceIdeal.Read.val_main_v65 (F := Ideal) (m ((c.tc : Thread nD τ).loc main_arg0)) from V9_main_v26 m c]
  exact Cert.ReferenceIdeal.RefValue.sgOf_spec _ n

/-- The new cell state and the new hidden state over region 0's operands are the spec's over the arguments. -/
theorem cnewT_ops (c : Dev nD) (n : Fin 262144) (d : Fin 128) :
    Cert.Pool.cnewT (aX (Va m) c) (aH (Va m) c) (aC (Va m) c) (aWi (Va m) c) (aWh (Va m) c) (aB (Va m) c) n d = Cert.Pool.cnew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n d := by
  rw [opX, opH, opC]
  exact Cert.Pool.cnewT_eq _ _ _ _ _ _ _ _ _ _ (opWi m c) (opWh m c) (opB m c) n d
theorem hnewT_ops (c : Dev nD) (n : Fin 262144) (d : Fin 128) :
    Cert.Pool.hnewT (aX (Va m) c) (aH (Va m) c) (aC (Va m) c) (aWi (Va m) c) (aWh (Va m) c) (aB (Va m) c) n d = Cert.Pool.hnew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n d := by
  rw [opX, opH, opC]
  exact Cert.Pool.hnewT_eq _ _ _ _ _ _ _ _ _ _ (opWi m c) (opWh m c) (opB m c) n d

/-! ## The two results of region 0 -/

/-- The new-cell-state array after region 0. -/
theorem cnew_res (c : Dev nD) : outs m 10 main_v32_0 c = fun i => Cert.Pool.cnew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) := by
  rw [outs_v32_0, final7]
  funext i
  exact cnewT_ops m c (i 0) (i 1)

/-- Half `s`'s slab after region 0 is the spec's: zero plus the 64 tiles' contributions, the word tests as indicators. -/
theorem slab_res (c : Dev nD) (s : Fin 2) (b : Fin 256) (d : Fin 128) :
    (outsA m 10 main_v32_1 c : S2x256x128.Idx → EReal) (ix3 s b d) = Cert.Pool.slab (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (Cert.ReferenceIdeal.RefValue.sgOf (m ((c.tc : Thread nD τ).loc main_arg0))) s b d := by
  rw [outsA_v32_1, final8]
  show (0 : EReal) + ∑ i ∈ Finset.range 64, addend (Va m) c (64 * s.val + i) (ix2 b d) = _
  unfold addend tileSum
  simp only [hnewT_ops m c]
  exact Cert.Pool.slab_of_range (N := cfg0.N) (N_0 : cfg0.N = 128) (fun n h r => trow ⟨n, h⟩ r) (fun _ _ _ => rfl)
    (fun n d => Cert.Pool.hnew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n d) (fun n => aSg (Va m) c (ix1 n)) (Cert.ReferenceIdeal.RefValue.sgOf (m ((c.tc : Thread nD τ).loc main_arg0))) (opSg m c) s b d

/-- The two slabs added by the host stretch between the regions are the sums over all rows. -/
theorem bins_res (c : Dev nD) (b : Fin 256) (d : Fin 128) :
    (Vb m c main_v37 : S256x128.Idx → EReal) (ix2 b d) = Cert.Pool.bins (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (Cert.ReferenceIdeal.RefValue.sgOf (m ((c.tc : Thread nD τ).loc main_arg0))) b d := by
  refine (V11_main_v37 m (outsA m) c b d).trans ?_
  rw [slab_res m c 0 b d, slab_res m c 1 b d]
  rfl

/-- Region 1 still finds the reference's cell numbers. -/
theorem opSg1 (c : Dev nD) (n : Fin 262144) : (Vb m c main_v26 : S262144.Idx → BitVec 32) (ix1 n) = BitVec.ofNat 32 ((Cert.ReferenceIdeal.RefValue.sgOf (m ((c.tc : Thread nD τ).loc main_arg0))) n).val := by
  rw [show Vb m c main_v26 = V9 m c main_v26 from V11_main_v26 m (outsA m) c]
  exact opSg m c n

/-- Over any two arrays: a one-hot selection by words that are the cells' words, from a table that is `B`, is the
    indicator-weighted sum over the cells. -/
theorem pick_arrays (a0 : S262144.Idx → BitVec 32) (a1 : S256x128.Idx → EReal) (sg : Fin 262144 → Fin 256) (B : Fin 256 → Fin 128 → EReal)
    (h0 : ∀ n : Fin 262144, a0 (ix1 n) = BitVec.ofNat 32 (sg n).val) (h1 : ∀ (b : Fin 256) (d : Fin 128), a1 (ix2 b d) = B b d) :
    (fun i : S262144x128.Idx => ∑ b : Fin 256, (if a0 (ix1 (i 0 : Fin 262144)) = BitVec.ofNat 32 b.val then (1 : EReal) else 0) * a1 (ix2 b (i 1 : Fin 128)))
      = fun i : S262144x128.Idx => ∑ b : Fin 256, Cert.Pool.ind (sg (i 0 : Fin 262144)) b * B b (i 1 : Fin 128) := by
  funext i
  refine (Finset.sum_congr rfl fun b _ => congrArg (_ * ·) (h1 b (i 1))).trans ?_
  exact Cert.Pool.pick_of_words (fun n => a0 (ix1 n)) sg h0 B (i 0) (i 1)

/-- At ANY contents `V` region 1 is entered from: if the cell-number array holds the cells' words and the table holds `B`,
    the region's result array is the indicator-weighted selection from `B`. -/
theorem pooled_of (V : (c : Dev nD) → (b : Ref sig .tc) → Buf (Elt Ideal) ((c : Thread nD τ).loc b)) (c : Dev nD)
    (sg : Fin 262144 → Fin 256) (B : Fin 256 → Fin 128 → EReal)
    (h0 : ∀ n : Fin 262144, (V c (Pipeline.arrRef spec1 0) : S262144.Idx → BitVec 32) (ix1 n) = BitVec.ofNat 32 (sg n).val)
    (h1 : ∀ (b : Fin 256) (d : Fin 128), (V c (Pipeline.arrRef spec1 1) : S256x128.Idx → EReal) (ix2 b d) = B b d) :
    (dat1 (F := Ideal) V c).arrAt 2 cfg1.N = fun i : S262144x128.Idx => ∑ b : Fin 256, Cert.Pool.ind (sg (i 0 : Fin 262144)) b * B b (i 1 : Fin 128) :=
  (final1_2 V c).trans (pick_arrays _ _ sg B h0 h1)

set_option maxHeartbeats 4000000 in
/-- The pooled hidden state after region 1: each row's own cell's sum. -/
theorem pooled_res (c : Dev nD) : outs m 12 main_v38 c = fun i => Cert.Pool.pooled (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (Cert.ReferenceIdeal.RefValue.sgOf (m ((c.tc : Thread nD τ).loc main_arg0))) (i 0) (i 1) :=
  (outs_v38 m 12 c).trans (pooled_of (Vb m) c (Cert.ReferenceIdeal.RefValue.sgOf (m ((c.tc : Thread nD τ).loc main_arg0))) (fun b d => Cert.Pool.bins (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (Cert.ReferenceIdeal.RefValue.sgOf (m ((c.tc : Thread nD τ).loc main_arg0))) b d)
    (fun n => opSg1 m c n) (fun b d => bins_res m c b d))

/-! ## The run -/

/-- The idealized kernel program's run: it ends with the pooled hidden state and the new cell state of `Cert.Pool`, the
    cell numbers those the reference computes from the positions, and the seven arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38) = (fun i => Cert.Pool.pooled (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (Cert.ReferenceIdeal.RefValue.sgOf (m ((c.tc : Thread nD τ).loc main_arg0))) (i 0) (i 1))
      ∧ r.2.mem ((c.tc : Thread nD τ).loc main_v32_0) = (fun i => Cert.Pool.cnew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  OrdCont.mono (θ_run (defs (F := Ideal)) (onTc (τ := τ) (main (F := Ideal))) ⟨m, fun _ => 0, ρ⟩)
    (fun r h c => ⟨(h c _ (mem_ucRefs main_v38 (by decide))).trans ((res_v38 m c).trans (pooled_res m c)),
      (h c _ (mem_ucRefs main_v32_0 (by decide))).trans ((res_v32_0 m c).trans (cnew_res m c)),
      (h c _ (mem_ucRefs main_arg0 (by decide))).trans (V12_main_arg0 m (outs m) c),
      (h c _ (mem_ucRefs main_arg1 (by decide))).trans (V12_main_arg1 m (outs m) c),
      (h c _ (mem_ucRefs main_arg2 (by decide))).trans (V12_main_arg2 m (outs m) c),
      (h c _ (mem_ucRefs main_arg3 (by decide))).trans (V12_main_arg3 m (outs m) c),
      (h c _ (mem_ucRefs main_arg4 (by decide))).trans (V12_main_arg4 m (outs m) c),
      (h c _ (mem_ucRefs main_arg5 (by decide))).trans (V12_main_arg5 m (outs m) c),
      (h c _ (mem_ucRefs main_arg6 (by decide))).trans (V12_main_arg6 m (outs m) c)⟩)
    (run_all m ρ)

end Cert.KernelIdeal.Val

end
-- ==== Proof.lean ====
/- One LSTM-cell step followed by pooling of the new hidden state over a 16 × 16 grid of cells, on 262144 rows. The kernel
   program (as printed, and read on the extended reals) and the reference program (read on the extended reals) each
   run to the end and leave their seven argument arrays unchanged; read on the extended reals from equal arguments they
   end with the same two arrays: the new cell state and, for every row, the sum of the new hidden state over the rows
   of that row's cell. Both are read against one statement (`Cert.Pool`). Three laws join the two sides: the four gate
   terms of a row regroup in a commutative monoid; a product with a one-hot matrix is a filtered sum, because
   0 · y = 0 and 1 · y = y for every extended real y; and the sum over the rows of a cell regroups by half, by tile and
   by row within the tile. -/
import proofs.«177821_j68058051772553_2_alg».proof.Defs
import proofs.«177821_j68058051772553_2_alg».proof.Proof.Gen.Kernel
import proofs.«177821_j68058051772553_2_alg».proof.Proof.Gen.KernelIdeal
import proofs.«177821_j68058051772553_2_alg».proof.Proof.Gen.ReferenceIdeal
import proofs.«177821_j68058051772553_2_alg».proof.Proof.Gen.Pre_finite_inputs
import proofs.«177821_j68058051772553_2_alg».proof.Proof.Gen.ReferenceIdeal.Run
import proofs.«177821_j68058051772553_2_alg».proof.Proof.Gen.ReferenceIdeal.Read
import proofs.«177821_j68058051772553_2_alg».proof.Proof.K.Run
import proofs.«177821_j68058051772553_2_alg».proof.Proof.KI.Run
import proofs.«177821_j68058051772553_2_alg».proof.Proof.KI.KernelValue
import proofs.«177821_j68058051772553_2_alg».proof.Proof.RefValue
import Idealize.ShloMosaic.Adequacy
import Idealize.ShloMosaic.Init

noncomputable section

namespace Cert.Proof

open Idealize.ShloMosaic Idealize.SL.Sem

/-- The printed kernel program runs and leaves its arguments unchanged. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference program has no kernel region: its run names its two results and its seven arguments, and the frame
    is that statement with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The kernel program read on the extended reals is the printed text itself: no operation was rewritten. -/
theorem preserves : Cert.preserves_Kernel_KernelIdeal := trivial

/-- On the extended reals, from equal arguments, both programs end with the pooled hidden state and the new cell state
    of `Cert.Pool`: the kernel program by its run, the reference program by its run read stage by stage. -/
theorem algebraic : Cert.algebraic_KernelIdeal_ReferenceIdeal := by
  intro m ρ m' ρ' _ hagree
  refine ⟨_, _, Cert.KernelIdeal.Val.kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6⟩ := hagree c
    rw [Cert.ReferenceIdeal.Read.val_main_v75_eq, h0, h1, h2, h3, h4, h5, h6]
    exact Cert.ReferenceIdeal.RefValue.ref_pooled_array _ _ _ _ _ _ _
  · obtain ⟨h0, h1, h2, h3, h4, h5, h6⟩ := hagree c
    rw [Cert.ReferenceIdeal.Read.val_main_v30_eq, h0, h1, h2, h3, h4, h5, h6]
    exact Cert.ReferenceIdeal.RefValue.ref_cnew_array _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
